-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S1x1024 : Shape := ⟨2, ![1, 1024]⟩

abbrev nBuf : Space → Nat
  | .hbm => 30
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S3072x1024, .f32⟩
  | .hbm, ⟨8, _⟩ => ⟨S1024x3072, .f32⟩
  | .hbm, ⟨9, _⟩ => ⟨S4096x3072, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S2x2048x16x64, .bf16⟩
  | .hbm, ⟨14, _⟩ => ⟨S2x16x2048x64, .bf16⟩
  | .hbm, ⟨15, _⟩ => ⟨S32x2048x64, .bf16⟩
  | .hbm, ⟨16, _⟩ => ⟨S2x2048x16x64, .bf16⟩
  | .hbm, ⟨17, _⟩ => ⟨S2x16x2048x64, .bf16⟩
  | .hbm, ⟨18, _⟩ => ⟨S32x2048x64, .bf16⟩
  | .hbm, ⟨19, _⟩ => ⟨S2x2048x16x64, .bf16⟩
  | .hbm, ⟨20, _⟩ => ⟨S2x16x2048x64, .bf16⟩
  | .hbm, ⟨21, _⟩ => ⟨S32x2048x64, .bf16⟩
  | .hbm, ⟨22, _⟩ => ⟨S32x2048x64, .bf16⟩
  | .hbm, ⟨23, _⟩ => ⟨S2x16x2048x64, .bf16⟩
  | .hbm, ⟨24, _⟩ => ⟨S2x2048x16x64, .bf16⟩
  | .hbm, ⟨25, _⟩ => ⟨S4096x1024, .bf16⟩
  | .hbm, ⟨26, _⟩ => ⟨S1024x1024, .f32⟩
  | .hbm, ⟨27, _⟩ => ⟨S1x1024, .f32⟩
  | .hbm, ⟨28, _⟩ => ⟨S4096x1024, .f32⟩
  | .hbm, ⟨29, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S1x512x64, .bf16⟩
  | .local _ .vmem, ⟨8, _⟩ => ⟨S1x512x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x512x64, .bf16⟩
  | .local _ .vmem, ⟨14, _⟩ => ⟨S1x512x64, .bf16⟩
  | .local _ .vmem, ⟨15, _⟩ => ⟨S512x1, .f32⟩
  | .local _ .vmem, ⟨16, _⟩ => ⟨S512x1, .f32⟩
  | .local _ .vmem, ⟨17, _⟩ => ⟨S512x64, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![32, 4, 4], ![false, false, false]⟩

def k1_cond2 (i : grid1.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

def k1_mult1 (i : grid1.Coords) : BitVec 32 :=
  let arg2 : BitVec 32 := BitVec.ofNat 32 (i 2).val
  let c512_i32 : BitVec 32 := 512#32
  let v9 : BitVec 32 := Scalar.muli arg2 c512_i32
  v9
def k1_off1 (i : grid1.Coords) : Fin 3 → Nat :=
  let c0_5 : Index := 0#32
  let arg2 : BitVec 32 := BitVec.ofNat 32 (i 2).val
  let c512_i32 : BitVec 32 := 512#32
  let v9 : BitVec 32 := Scalar.muli arg2 c512_i32
  let v10 : BitVec 32 := v9
  let v13 : Index := Scalar.indexCast v10
  let c0_6 : Index := 0#32
  ![0, v13.toNat, 0]
def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S2x2048x1024_S4096x1024 : S2x2048x1024.ShapeCasts S4096x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  k1_mult1_dvd : ∀ i : grid1.Coords, ∀ (k1_h2 : k1_cond2 i = 1#1), 512 ∣ (k1_mult1 i).toNat
  k1_off1_inb : ∀ i : grid1.Coords, ∀ (k1_h2 : k1_cond2 i = 1#1), ∀ a, (k1_off1 i) a + S1x512x64.size a ≤ S1x2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v19) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2x16x2048x2048, .i1⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x2048x16x64, .f32⟩
  | .hbm, ⟨52, _⟩ => ⟨S2x2048x1024, .f32⟩
  | .hbm, ⟨53, _⟩ => ⟨S2x2048x1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Reg0.lean ====
/-
  The first matrix-product region (pipeline 0): a 8×3×1 grid; at each point the body zeroes its accumulator, adds the
  product of the two input blocks to it, and stores the accumulator, narrowed, into the output block. The third grid
  axis has extent 1, so both conditionals of the body hold at every point, and the accumulator is stored whole before
  it is read: nothing is carried from point to point.

  Stated at a parameter V, the buffers' contents when the region is entered, and at any float interpretation F.
-/
import proofs.«144787_j3307124818573_2_alg».proof.Proof.Gen.KernelIdeal.Launch
import proofs.«144787_j3307124818573_2_alg».proof.Proof.Gen.KernelIdeal.Skeleton
import proofs.«144787_j3307124818573_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditionals hold at every point -/

/-- The first conditional's test, from the grid coordinates. -/
abbrev cond0_0 (i : grid0.Coords) : Prop :=
  (Scalar.cmpi .ne (Scalar.extui (Scalar.cmpi .eq (BitVec.ofNat 32 (i 2).val) 0#32)) 0#32) = 1#1
/-- The second conditional's test. -/
abbrev cond0_1 (i : grid0.Coords) : Prop := k0_cond2 i = 1#1

/-- The third axis has one coordinate. -/
theorem i2_zero (i : grid0.Coords) : (i 2).val = 0 := Nat.lt_one_iff.mp (i 2).isLt

theorem hcond0_0 (i : grid0.Coords) : cond0_0 i := by
  unfold cond0_0; rw [i2_zero i]; decide
theorem hcond0_1 (i : grid0.Coords) : cond0_1 i := by
  unfold cond0_1 k0_cond2; rw [i2_zero i]; decide

/-- The output window is live at every point: the second conditional holds there. -/
theorem liveAt0_2 : ∀ t : Fin cfg0.N, cfg0.idle 2 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel

/-! ## The memrefs the body is called with -/

abbrev VO0_2 : View sig .tc .vmem S512x1024 .bf16 := (Memref.whole cc0_stg2_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x1024 .f32 := Memref.whole cc0_scratch0

/-- Every other scoped buffer of the core that is no staging buffer of this call, at some contents: carried unopened. -/
abbrev Rest0 (c : Dev nD) : sProp 𝕄 :=
  Pipeline.scopedRestBut (Ix := Unit) (Name := ℕ) (U := UR sig nD τ) (Lvl := ℕ) (Val := Elt F) spec0 c [cc0_scratch0]

/-- The region invariant with the accumulator as a memref owned at some contents. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA
  rw [Pipeline.scopedRest_split_of_list spec0 c [cc0_scratch0] (by decide) (by decide)]
  simp only [scM0_0, owns_whole]; try rfl

/-! ## The body on any whole memrefs -/

set_option maxHeartbeats 4000000 in
/-- What the body's stores leave in the output's memref and in the accumulator, as pieces (last first), with the proof
    that on whole memrefs — the inputs' at their contents, the output's and the accumulator's at anything — the body
    runs to the continuation holding the inputs' as they were and the other two with those pieces written. -/
noncomputable def kernelRun0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec F S512x1024 .f32) (x1 : Vec F S1024x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hcond0_0 i | exact hcond0_1 i)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- The pieces the body stores into the output's memref tile it. -/
theorem cover0_2 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec F S512x1024 .f32) (x1 : Vec F S1024x1024 .f32) (y : S512x1024.Idx) :
    ∃ pc ∈ (kernelRun0 c i arg3 harg3 arg4 harg4 arg5 harg5 arg6 harg6 x0 x1).1, y ∈ pc.1.set :=
  View.cover_of_tiledL (kernelRun0 c i arg3 harg3 arg4 harg4 arg5 harg5 arg6 harg6 x0 x1).1 S512x1024.size (by sl_kernel_rfl) y

/-- What the body leaves in the output's staging buffer: its pieces read back. -/
def out0_2 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec F S512x1024 .f32) (x1 : Vec F S1024x1024 .f32) : Vec F S512x1024 .bf16 :=
  VO0_2.read (Elt F) (VO0_2.writes (Elt F) VO0_2.junk (kernelRun0 c i arg3 harg3 arg4 harg4 arg5 harg5 arg6 harg6 x0 x1).1)

section Region
-- the buffers' contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer at point t, from the input blocks there. -/
def outAt0 (c : Dev nD) (t : Fin cfg0.N) : Vec F S512x1024 .bf16 :=
  out0_2 c (grid0.coords t) (ms0_0 t) (hs0_0 t) (ms0_1 t) (hs0_1 t) (ms0_2 t) (hs0_2 t) scM0_0 (Memref.isWhole_whole _) (iblk0 V c 0 t) (iblk0 V c 1 t)

/-! ## The pipeline's proof data -/

/-- The proof data of pipeline 0 on core c: the arrays as the region finds them; after the body at point t each input's
    buffer at its block and the output's at the body's result of the input blocks; the invariant: every scoped buffer
    that is no staging buffer at anything, the generator register at some state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks, both conditionals hold, so the run applies; the
    invariant hands the body the accumulator at anything and takes it back at anything. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold outAt0 out0_2
  iintro ⟨⟨⟨HS0, HR⟩, Hg⟩, Ho, ⟨%d0, H0⟩, ⟨%d1, H1⟩, ⟨%d2, H2⟩⟩
  iapply ((kernelRun0 c (grid0.coords t) _ _ _ _ _ _ _ _ (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := Idealize.SL.BI.Entails.refl _
/-- and after the last point the invariant is handed back. -/
theorem hout0 (c : Dev nD) : (dat0 V c).Φ (Fin.last cfg0.N) ⊢ Pipeline.ΦA spec0 c := Idealize.SL.BI.Entails.refl _

end Region

end Cert.KernelIdeal.Reg0

end
-- ==== Proof.Reg1Runs.lean ====
/-
  The attention region (the second of the program's three kernel regions), what its case runs share.

  The grid has 32 · 4 · 4 points: point t is head-and-batch t / 16, query tile (t / 4) % 4, key tile t % 4. The body
  branches three times on the coordinates: at key tile 0 it resets the three running quantities (row maxima, row
  normalisers, weighted sums); at a key tile not after the query tile it takes one step of the running softmax; at
  key tile 3 it divides and stores the output tile. Here: each window's block at a point read off the array as the
  region finds it, the three conditions in closed form over the grid, where the output window is idle, the memrefs
  the body is called with, and the region's invariant with the three carried buffers named.
-/
import proofs.«144787_j3307124818573_2_alg».proof.Proof.Gen.KernelIdeal.Launch
import proofs.«144787_j3307124818573_2_alg».proof.Proof.Gen.KernelIdeal.Skeleton
import proofs.«144787_j3307124818573_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, in closed form over the grid -/

/-- The reset's condition: the key tile is 0. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The step's condition: the key tile is not after the query tile. -/
abbrev cond1 (i : grid1.Coords) : Prop := k1_cond2 i = 1#1
theorem hcond1 : ∀ t : Fin cfg1.N, cond1 (grid1.coords t) ↔ t.val % 4 ≤ (t.val / 4) % 4 :=
  (by decide +kernel : ∀ t : Fin grid1.N, cond1 (grid1.coords t) ↔ t.val % 4 ≤ (t.val / 4) % 4)

/-- The store's condition: the key tile is the last, 3. -/
abbrev cond2 (i : grid1.Coords) : Prop := k1_cond3 i = 1#1
theorem hcond2 : ∀ t : Fin cfg1.N, cond2 (grid1.coords t) ↔ t.val % 4 = 3 :=
  (by decide +kernel : ∀ t : Fin grid1.N, cond2 (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last key tile the output window is idle and is not written back. -/
theorem idle_3 : ∀ t : Fin cfg1.N, ¬cond2 (grid1.coords t) → cfg1.idle 3 (grid1.coords t) = true := by decide +kernel
theorem noFlush_3 : ∀ t : Fin cfg1.N, ¬cond2 (grid1.coords t) → (cfg1.win 3).flush t = false := by decide +kernel
/-- At the last key tile it is live. -/
theorem live_3 : ∀ t : Fin cfg1.N, cond2 (grid1.coords t) → cfg1.idle 3 (grid1.coords t) = false := by decide +kernel

/-! ## The memrefs the body is called with -/

abbrev VO3 : View sig .tc .vmem S1x512x64 .bf16 := (Memref.whole cc1_stg3_0 : Memref sig .tc .vmem S1x512x64 .bf16).view
abbrev ms0 (t : Fin cfg1.N) : Memref sig .tc .vmem S1x512x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x64 .bf16 := win1_3.stage (cfg1.slots t 3)
abbrev hs3 (t : Fin cfg1.N) : (ms3 t).IsWhole := hstage1_3 ((cfg1.slots t 3).cast nbuf1_3)
/-- The three carried buffers: row maxima, row normalisers, weighted sums. -/
abbrev scM : Memref sig .tc .vmem S512x1 .f32 := Memref.whole cc1_scratch0
abbrev scL : Memref sig .tc .vmem S512x1 .f32 := Memref.whole cc1_scratch1
abbrev scA : Memref sig .tc .vmem S512x64 .f32 := Memref.whole cc1_scratch2
abbrev VSM : View sig .tc .vmem S512x1 .f32 := scM.view
abbrev VSL : View sig .tc .vmem S512x1 .f32 := scL.view
abbrev VSA : View sig .tc .vmem S512x64 .f32 := scA.view

/-- A scoped buffer of another region, whole at some contents. -/
abbrev exb (c : Dev nD) (r : Ref sig .tc) : sProp 𝕄 :=
  iprop(∃ f : Buf (Elt F) ((c : Thread nD τ).loc r), ((c : Thread nD τ).loc r) ↦{fullShare} f)

/-- The region's invariant: the other regions' scoped buffers at some contents, the three carried buffers as memrefs
    owned at some contents (in the order the layout lists the scoped buffers), and the generator register. -/
theorem PhiA_eq (c : Dev nD) :
    (Pipeline.ΦA spec1 c : sProp 𝕄)
      = iprop(iprop(exb c cc0_stg0_0 ∗ exb c cc0_stg0_1 ∗ exb c cc0_stg1_0 ∗ exb c cc0_stg1_1 ∗ exb c cc0_stg2_0 ∗ exb c cc0_stg2_1 ∗ exb c cc0_scratch0 ∗ (∃ d, owns (c : Thread nD τ) scM fullShare d) ∗ (∃ d, owns (c : Thread nD τ) scL fullShare d) ∗ (∃ d, owns (c : Thread nD τ) scA fullShare d) ∗ exb c cc2_stg0_0 ∗ exb c cc2_stg0_1 ∗ exb c cc2_stg1_0 ∗ exb c cc2_stg2_0 ∗ exb c cc2_stg3_0 ∗ exb c cc2_stg3_1 ∗ exb c cc2_scratch0) ∗ (∃ r, prngReg c r)) := by
  unfold Pipeline.ΦA; rw [scopedRest1_eq]; simp only [scM, scL, scA, owns_whole]; try rfl

end Cert.KernelIdeal.Reg1

end
-- ==== Proof.Reg1RunA.lean ====
/-
  The attention region's body in one of its five cases — key tile 0: the three running quantities are reset, then one step of the running softmax is taken; the output tile is left alone.
  On whole memrefs, the inputs' at their contents, the body runs to its return handing the inputs' back as they were;
  what each buffer it stores into ends with is given as the list of its stores (last first), found by the run.
-/
import proofs.«144787_j3307124818573_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case A: key tile 0: the three running quantities are reset, then one step of the running softmax is taken; the output tile is left alone. -/
noncomputable def runA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) :
    Σ' (LM : List (View.Piece (Elt F) S512x1 .f32)) (LL : List (View.Piece (Elt F) S512x1 .f32)), { LA : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%da, %fa, -, HA⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.KernelIdeal.Reg1

end
-- ==== Proof.Reg1RunB.lean ====
/-
  The attention region's body in one of its five cases — a key tile after the first, not after the query tile and not the last: one step of the running softmax from the carried quantities; the output tile is left alone.
  On whole memrefs, the inputs' at their contents, the body runs to its return handing the inputs' back as they were;
  what each buffer it stores into ends with is given as the list of its stores (last first), found by the run.
-/
import proofs.«144787_j3307124818573_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case B: a key tile after the first, not after the query tile and not the last: one step of the running softmax from the carried quantities; the output tile is left alone. -/
noncomputable def runB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    Σ' (LM : List (View.Piece (Elt F) S512x1 .f32)) (LL : List (View.Piece (Elt F) S512x1 .f32)), { LA : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.KernelIdeal.Reg1

end
-- ==== Proof.Reg1RunC.lean ====
/-
  The attention region's body in one of its five cases — the last key tile on the diagonal: one step from the carried quantities, then the quotient is stored into the output tile.
  On whole memrefs, the inputs' at their contents, the body runs to its return handing the inputs' back as they were;
  what each buffer it stores into ends with is given as the list of its stores (last first), found by the run.
-/
import proofs.«144787_j3307124818573_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case C: the last key tile on the diagonal: one step from the carried quantities, then the quotient is stored into the output tile. -/
noncomputable def runC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    Σ' (L3 : List (View.Piece (Elt F) S1x512x64 .bf16)) (LM : List (View.Piece (Elt F) S512x1 .f32)) (LL : List (View.Piece (Elt F) S512x1 .f32)), { LA : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]; · iexists _; iexact HM
    isplitl [HL]; · iexists _; iexact HL
    iexists _; iexact HA

end Cert.KernelIdeal.Reg1

end
-- ==== Proof.Reg1RunD.lean ====
/-
  The attention region's body in one of its five cases — a key tile after the query tile and not the last: nothing is read or written.
  On whole memrefs, the inputs' at their contents, the body runs to its return handing the inputs' back as they were;
  what each buffer it stores into ends with is given as the list of its stores (last first), found by the run.
-/
import proofs.«144787_j3307124818573_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case D: a key tile after the query tile and not the last: nothing is read or written. -/
theorem runD (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1_kernel i arg3 harg3 arg4 harg4 arg5 harg5 arg6 harg6 arg7 harg7 arg8 harg8 arg9 harg9) K := by
  refine fun xi3 E K => ?run
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]
    · iexists _; isplitr; · ipureintro; exact harg7.read_unread _
      iexact HM
    isplitl [HL]
    · iexists _; isplitr; · ipureintro; exact harg8.read_unread _
      iexact HL
    iexists _; isplitr; · ipureintro; exact harg9.read_unread _
    iexact HA

end Cert.KernelIdeal.Reg1

end
-- ==== Proof.Reg1RunE.lean ====
/-
  The attention region's body in one of its five cases — the last key tile, after the query tile: no step; the quotient of the carried sums is stored into the output tile.
  On whole memrefs, the inputs' at their contents, the body runs to its return handing the inputs' back as they were;
  what each buffer it stores into ends with is given as the list of its stores (last first), found by the run.
-/
import proofs.«144787_j3307124818573_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case E: the last key tile, after the query tile: no step; the quotient of the carried sums is stored into the output tile. -/
noncomputable def runE (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    { L3 : List (View.Piece (Elt F) S1x512x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]
    · iexists _; isplitr; · ipureintro; exact harg7.read_unread _
      iexact HM
    isplitl [HL]
    · iexists _; isplitr; · ipureintro; exact harg8.read_unread _
      iexact HL
    iexists _; isplitr; · ipureintro; exact harg9.read_unread _
    iexact HA

end Cert.KernelIdeal.Reg1

end
-- ==== Proof.Reg1.lean ====
/-
  The attention region: what its buffers hold point by point, its proof data and its body obligation.

  After the body at point t the output tile's buffer and the three carried buffers (row maxima, row normalisers,
  weighted sums) hold what the point's case leaves: at key tile 0 the reset followed by one step; at a later key tile
  not after the query tile one step from what the point before left; at a key tile after the query tile what the
  point before left, unchanged; and at key tile 3 the output tile holds the quotient of the weighted sums by the
  normalisers. The recursion over the points is outsAt; the region's invariant holds the three carried buffers at
  outsAt's components; the body obligation is a case split on the point's three conditions in closed form.
-/
import proofs.«144787_j3307124818573_2_alg».proof.Proof.Reg1RunA
import proofs.«144787_j3307124818573_2_alg».proof.Proof.Reg1RunB
import proofs.«144787_j3307124818573_2_alg».proof.Proof.Reg1RunC
import proofs.«144787_j3307124818573_2_alg».proof.Proof.Reg1RunD
import proofs.«144787_j3307124818573_2_alg».proof.Proof.Reg1RunE

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the stores into this buffer tile it. -/
theorem cover_soutM_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) (y : S512x1.Idx) :
    ∃ pc ∈ (runA c i arg3 harg3 arg4 harg4 arg5 harg5 arg6 harg6 arg7 harg7 arg8 harg8 arg9 harg9 hc0 hc1 hc2 x0 x1 x2).1, y ∈ pc.1.set :=
  View.cover_of_tiledL (runA c i arg3 harg3 arg4 harg4 arg5 harg5 arg6 harg6 arg7 harg7 arg8 harg8 arg9 harg9 hc0 hc1 hc2 x0 x1 x2).1 S512x1.size (by sl_kernel_rfl) y
/-- Case A: what the buffer holds afterwards, its stores read back. -/
def soutM_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) : Vec F S512x1 .f32 :=
  VSM.read (Elt F) (VSM.writes (Elt F) VSM.junk (runA c i arg3 harg3 arg4 harg4 arg5 harg5 arg6 harg6 arg7 harg7 arg8 harg8 arg9 harg9 hc0 hc1 hc2 x0 x1 x2).1)

/-- Case A: the stores into this buffer tile it. -/
theorem cover_soutL_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) (y : S512x1.Idx) :
    ∃ pc ∈ (runA c i arg3 harg3 arg4 harg4 arg5 harg5 arg6 harg6 arg7 harg7 arg8 harg8 arg9 harg9 hc0 hc1 hc2 x0 x1 x2).2.1, y ∈ pc.1.set :=
  View.cover_of_tiledL (runA c i arg3 harg3 arg4 harg4 arg5 harg5 arg6 harg6 arg7 harg7 arg8 harg8 arg9 harg9 hc0 hc1 hc2 x0 x1 x2).2.1 S512x1.size (by sl_kernel_rfl) y
/-- Case A: what the buffer holds afterwards, its stores read back. -/
def soutL_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) : Vec F S512x1 .f32 :=
  VSL.read (Elt F) (VSL.writes (Elt F) VSL.junk (runA c i arg3 harg3 arg4 harg4 arg5 harg5 arg6 harg6 arg7 harg7 arg8 harg8 arg9 harg9 hc0 hc1 hc2 x0 x1 x2).2.1)

/-- Case A: the stores into this buffer tile it. -/
theorem cover_soutA_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) (y : S512x64.Idx) :
    ∃ pc ∈ (runA c i arg3 harg3 arg4 harg4 arg5 harg5 arg6 harg6 arg7 harg7 arg8 harg8 arg9 harg9 hc0 hc1 hc2 x0 x1 x2).2.2.1, y ∈ pc.1.set :=
  View.cover_of_tiledL (runA c i arg3 harg3 arg4 harg4 arg5 harg5 arg6 harg6 arg7 harg7 arg8 harg8 arg9 harg9 hc0 hc1 hc2 x0 x1 x2).2.2.1 S512x64.size (by sl_kernel_rfl) y
/-- Case A: what the buffer holds afterwards, its stores read back. -/
def soutA_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) : Vec F S512x64 .f32 :=
  VSA.read (Elt F) (VSA.writes (Elt F) VSA.junk (runA c i arg3 harg3 arg4 harg4 arg5 harg5 arg6 harg6 arg7 harg7 arg8 harg8 arg9 harg9 hc0 hc1 hc2 x0 x1 x2).2.2.1)

/-- Case B: the stores into this buffer tile it. -/
theorem cover_soutM_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runB c i arg3 harg3 arg4 harg4 arg5 harg5 arg6 harg6 arg7 harg7 arg8 harg8 arg9 harg9 hc0 hc1 hc2 x0 x1 x2 xm xl xa).1, y ∈ pc.1.set :=
  View.cover_of_tiledL (runB c i arg3 harg3 arg4 harg4 arg5 harg5 arg6 harg6 arg7 harg7 arg8 harg8 arg9 harg9 hc0 hc1 hc2 x0 x1 x2 xm xl xa).1 S512x1.size (by sl_kernel_rfl) y
/-- Case B: what the buffer holds afterwards, its stores read back. -/
def soutM_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSM.read (Elt F) (VSM.writes (Elt F) VSM.junk (runB c i arg3 harg3 arg4 harg4 arg5 harg5 arg6 harg6 arg7 harg7 arg8 harg8 arg9 harg9 hc0 hc1 hc2 x0 x1 x2 xm xl xa).1)

/-- Case B: the stores into this buffer tile it. -/
theorem cover_soutL_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runB c i arg3 harg3 arg4 harg4 arg5 harg5 arg6 harg6 arg7 harg7 arg8 harg8 arg9 harg9 hc0 hc1 hc2 x0 x1 x2 xm xl xa).2.1, y ∈ pc.1.set :=
  View.cover_of_tiledL (runB c i arg3 harg3 arg4 harg4 arg5 harg5 arg6 harg6 arg7 harg7 arg8 harg8 arg9 harg9 hc0 hc1 hc2 x0 x1 x2 xm xl xa).2.1 S512x1.size (by sl_kernel_rfl) y
/-- Case B: what the buffer holds afterwards, its stores read back. -/
def soutL_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSL.read (Elt F) (VSL.writes (Elt F) VSL.junk (runB c i arg3 harg3 arg4 harg4 arg5 harg5 arg6 harg6 arg7 harg7 arg8 harg8 arg9 harg9 hc0 hc1 hc2 x0 x1 x2 xm xl xa).2.1)

/-- Case B: the stores into this buffer tile it. -/
theorem cover_soutA_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x64.Idx) :
    ∃ pc ∈ (runB c i arg3 harg3 arg4 harg4 arg5 harg5 arg6 harg6 arg7 harg7 arg8 harg8 arg9 harg9 hc0 hc1 hc2 x0 x1 x2 xm xl xa).2.2.1, y ∈ pc.1.set :=
  View.cover_of_tiledL (runB c i arg3 harg3 arg4 harg4 arg5 harg5 arg6 harg6 arg7 harg7 arg8 harg8 arg9 harg9 hc0 hc1 hc2 x0 x1 x2 xm xl xa).2.2.1 S512x64.size (by sl_kernel_rfl) y
/-- Case B: what the buffer holds afterwards, its stores read back. -/
def soutA_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x64 .f32 :=
  VSA.read (Elt F) (VSA.writes (Elt F) VSA.junk (runB c i arg3 harg3 arg4 harg4 arg5 harg5 arg6 harg6 arg7 harg7 arg8 harg8 arg9 harg9 hc0 hc1 hc2 x0 x1 x2 xm xl xa).2.2.1)

/-- Case C: the stores into this buffer tile it. -/
theorem cover_out_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S1x512x64.Idx) :
    ∃ pc ∈ (runC c i arg3 harg3 arg4 harg4 arg5 harg5 arg6 harg6 arg7 harg7 arg8 harg8 arg9 harg9 hc0 hc1 hc2 x0 x1 x2 xm xl xa).1, y ∈ pc.1.set :=
  View.cover_of_tiledL (runC c i arg3 harg3 arg4 harg4 arg5 harg5 arg6 harg6 arg7 harg7 arg8 harg8 arg9 harg9 hc0 hc1 hc2 x0 x1 x2 xm xl xa).1 S1x512x64.size (by sl_kernel_rfl) y
/-- Case C: what the buffer holds afterwards, its stores read back. -/
def out_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S1x512x64 .bf16 :=
  VO3.read (Elt F) (VO3.writes (Elt F) VO3.junk (runC c i arg3 harg3 arg4 harg4 arg5 harg5 arg6 harg6 arg7 harg7 arg8 harg8 arg9 harg9 hc0 hc1 hc2 x0 x1 x2 xm xl xa).1)

/-- Case C: the stores into this buffer tile it. -/
theorem cover_soutM_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runC c i arg3 harg3 arg4 harg4 arg5 harg5 arg6 harg6 arg7 harg7 arg8 harg8 arg9 harg9 hc0 hc1 hc2 x0 x1 x2 xm xl xa).2.1, y ∈ pc.1.set :=
  View.cover_of_tiledL (runC c i arg3 harg3 arg4 harg4 arg5 harg5 arg6 harg6 arg7 harg7 arg8 harg8 arg9 harg9 hc0 hc1 hc2 x0 x1 x2 xm xl xa).2.1 S512x1.size (by sl_kernel_rfl) y
/-- Case C: what the buffer holds afterwards, its stores read back. -/
def soutM_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSM.read (Elt F) (VSM.writes (Elt F) VSM.junk (runC c i arg3 harg3 arg4 harg4 arg5 harg5 arg6 harg6 arg7 harg7 arg8 harg8 arg9 harg9 hc0 hc1 hc2 x0 x1 x2 xm xl xa).2.1)

/-- Case C: the stores into this buffer tile it. -/
theorem cover_soutL_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runC c i arg3 harg3 arg4 harg4 arg5 harg5 arg6 harg6 arg7 harg7 arg8 harg8 arg9 harg9 hc0 hc1 hc2 x0 x1 x2 xm xl xa).2.2.1, y ∈ pc.1.set :=
  View.cover_of_tiledL (runC c i arg3 harg3 arg4 harg4 arg5 harg5 arg6 harg6 arg7 harg7 arg8 harg8 arg9 harg9 hc0 hc1 hc2 x0 x1 x2 xm xl xa).2.2.1 S512x1.size (by sl_kernel_rfl) y
/-- Case C: what the buffer holds afterwards, its stores read back. -/
def soutL_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSL.read (Elt F) (VSL.writes (Elt F) VSL.junk (runC c i arg3 harg3 arg4 harg4 arg5 harg5 arg6 harg6 arg7 harg7 arg8 harg8 arg9 harg9 hc0 hc1 hc2 x0 x1 x2 xm xl xa).2.2.1)

/-- Case C: the stores into this buffer tile it. -/
theorem cover_soutA_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x64.Idx) :
    ∃ pc ∈ (runC c i arg3 harg3 arg4 harg4 arg5 harg5 arg6 harg6 arg7 harg7 arg8 harg8 arg9 harg9 hc0 hc1 hc2 x0 x1 x2 xm xl xa).2.2.2.1, y ∈ pc.1.set :=
  View.cover_of_tiledL (runC c i arg3 harg3 arg4 harg4 arg5 harg5 arg6 harg6 arg7 harg7 arg8 harg8 arg9 harg9 hc0 hc1 hc2 x0 x1 x2 xm xl xa).2.2.2.1 S512x64.size (by sl_kernel_rfl) y
/-- Case C: what the buffer holds afterwards, its stores read back. -/
def soutA_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x64 .f32 :=
  VSA.read (Elt F) (VSA.writes (Elt F) VSA.junk (runC c i arg3 harg3 arg4 harg4 arg5 harg5 arg6 harg6 arg7 harg7 arg8 harg8 arg9 harg9 hc0 hc1 hc2 x0 x1 x2 xm xl xa).2.2.2.1)

/-- Case E: the stores into this buffer tile it. -/
theorem cover_out_E (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S1x512x64.Idx) :
    ∃ pc ∈ (runE c i arg3 harg3 arg4 harg4 arg5 harg5 arg6 harg6 arg7 harg7 arg8 harg8 arg9 harg9 hc0 hc1 hc2 x0 x1 x2 xm xl xa).1, y ∈ pc.1.set :=
  View.cover_of_tiledL (runE c i arg3 harg3 arg4 harg4 arg5 harg5 arg6 harg6 arg7 harg7 arg8 harg8 arg9 harg9 hc0 hc1 hc2 x0 x1 x2 xm xl xa).1 S1x512x64.size (by sl_kernel_rfl) y
/-- Case E: what the buffer holds afterwards, its stores read back. -/
def out_E (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S1x512x64 .bf16 :=
  VO3.read (Elt F) (VO3.writes (Elt F) VO3.junk (runE c i arg3 harg3 arg4 harg4 arg5 harg5 arg6 harg6 arg7 harg7 arg8 harg8 arg9 harg9 hc0 hc1 hc2 x0 x1 x2 xm xl xa).1)

/-- The output tile's buffer at a point that stores nothing into it: contents nothing consults (the window is idle
    there and is not written back). -/
def junkOut : Vec F S1x512x64 .bf16 := VO3.read (Elt F) VO3.junk

/-- The output tile's buffer and the three carried buffers after a point. -/
abbrev St (F : FTy → Type) : Type := Vec F S1x512x64 .bf16 × Vec F S512x1 .f32 × Vec F S512x1 .f32 × Vec F S512x64 .f32

theorem c1_of_c0 {n : ℕ} (h0 : n % 4 = 0) : n % 4 ≤ (n / 4) % 4 := by omega
theorem nc2_of_c0 {n : ℕ} (h0 : n % 4 = 0) : ¬n % 4 = 3 := by omega

/-! ## The recursion over the points -/

/-- What the output tile's buffer and the carried buffers hold after the body at position n: the case the closed
    forms select, run at the point's memrefs and input blocks, the carried buffers at what position n - 1 left. -/
def outsAt (c : Dev nD) : (n : ℕ) → n < cfg1.N → St F
  | 0, hn => (fun (h0 : (⟨0, hn⟩ : Fin cfg1.N).val % 4 = 0) (h1 : (⟨0, hn⟩ : Fin cfg1.N).val % 4 ≤ ((⟨0, hn⟩ : Fin cfg1.N).val / 4) % 4) (h2 : ¬(⟨0, hn⟩ : Fin cfg1.N).val % 4 = 3) =>
      (junkOut, soutM_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcond0 ⟨0, hn⟩).mpr h0) ((hcond1 ⟨0, hn⟩).mpr h1) (fun h => h2 ((hcond2 ⟨0, hn⟩).mp h)) (iblk V c 0 ⟨0, hn⟩) (iblk V c 1 ⟨0, hn⟩) (iblk V c 2 ⟨0, hn⟩), soutL_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcond0 ⟨0, hn⟩).mpr h0) ((hcond1 ⟨0, hn⟩).mpr h1) (fun h => h2 ((hcond2 ⟨0, hn⟩).mp h)) (iblk V c 0 ⟨0, hn⟩) (iblk V c 1 ⟨0, hn⟩) (iblk V c 2 ⟨0, hn⟩), soutA_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcond0 ⟨0, hn⟩).mpr h0) ((hcond1 ⟨0, hn⟩).mpr h1) (fun h => h2 ((hcond2 ⟨0, hn⟩).mp h)) (iblk V c 0 ⟨0, hn⟩) (iblk V c 1 ⟨0, hn⟩) (iblk V c 2 ⟨0, hn⟩))) (Nat.zero_mod _) (Nat.zero_le _) (by dsimp only; omega)
  | n + 1, hn =>
    if h0 : (n + 1) % 4 = 0 then
      (fun (h1 : (n + 1) % 4 ≤ ((n + 1) / 4) % 4) (h2 : ¬(n + 1) % 4 = 3) =>
        (junkOut, soutM_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcond0 ⟨n + 1, hn⟩).mpr h0) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩), soutL_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcond0 ⟨n + 1, hn⟩).mpr h0) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩), soutA_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcond0 ⟨n + 1, hn⟩).mpr h0) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩))) (c1_of_c0 h0) (nc2_of_c0 h0)
    else if h1 : (n + 1) % 4 ≤ ((n + 1) / 4) % 4 then
      if h2 : (n + 1) % 4 = 3 then
        (out_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutM_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutL_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutA_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
      else
        (junkOut, soutM_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutL_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutA_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
    else
      if h2 : (n + 1) % 4 = 3 then
        (out_E c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) (fun h => h1 ((hcond1 ⟨n + 1, hn⟩).mp h)) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, (outsAt c n (Nat.lt_of_succ_lt hn)).2.1, (outsAt c n (Nat.lt_of_succ_lt hn)).2.2.1, (outsAt c n (Nat.lt_of_succ_lt hn)).2.2.2)
      else
        (junkOut, (outsAt c n (Nat.lt_of_succ_lt hn)).2.1, (outsAt c n (Nat.lt_of_succ_lt hn)).2.2.1, (outsAt c n (Nat.lt_of_succ_lt hn)).2.2.2)

/-- outsAt at a point of key tile 0: the reset and one step. -/
theorem outsAt_A (c : Dev nD) (t : Fin cfg1.N) (h0 : t.val % 4 = 0) (h1 : t.val % 4 ≤ (t.val / 4) % 4) (h2 : ¬t.val % 4 = 3) :
    outsAt V c t.val t.isLt = (junkOut, soutM_A c (grid1.coords t) (ms0 t) (hs0 t) (ms1 t) (hs1 t) (ms2 t) (hs2 t) (ms3 t) (hs3 t) scM (Memref.isWhole_whole _) scL (Memref.isWhole_whole _) scA (Memref.isWhole_whole _) ((hcond0 t).mpr h0) ((hcond1 t).mpr h1) (fun h => h2 ((hcond2 t).mp h)) (iblk V c 0 t) (iblk V c 1 t) (iblk V c 2 t), soutL_A c (grid1.coords t) (ms0 t) (hs0 t) (ms1 t) (hs1 t) (ms2 t) (hs2 t) (ms3 t) (hs3 t) scM (Memref.isWhole_whole _) scL (Memref.isWhole_whole _) scA (Memref.isWhole_whole _) ((hcond0 t).mpr h0) ((hcond1 t).mpr h1) (fun h => h2 ((hcond2 t).mp h)) (iblk V c 0 t) (iblk V c 1 t) (iblk V c 2 t), soutA_A c (grid1.coords t) (ms0 t) (hs0 t) (ms1 t) (hs1 t) (ms2 t) (hs2 t) (ms3 t) (hs3 t) scM (Memref.isWhole_whole _) scL (Memref.isWhole_whole _) scA (Memref.isWhole_whole _) ((hcond0 t).mpr h0) ((hcond1 t).mpr h1) (fun h => h2 ((hcond2 t).mp h)) (iblk V c 0 t) (iblk V c 1 t) (iblk V c 2 t)) := by
  obtain ⟨n, hn⟩ := t
  cases n with
  | zero => rfl
  | succ n => exact (dif_pos h0).trans rfl

/-- outsAt at a point of case B: a key tile after the first, not after the query tile and not the last: one step of the running softmax from the carried quantities; the output tile is left alone. -/
theorem outsAt_B (c : Dev nD) (t : Fin cfg1.N) (h0 : ¬t.val % 4 = 0) (h1 : t.val % 4 ≤ (t.val / 4) % 4) (h2 : ¬t.val % 4 = 3) :
    outsAt V c t.val t.isLt = (junkOut, soutM_B c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) (fun h => h2 ((hcond2 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutL_B c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) (fun h => h2 ((hcond2 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutA_B c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) (fun h => h2 ((hcond2 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_neg h2).trans rfl))

/-- outsAt at a point of case C: the last key tile on the diagonal: one step from the carried quantities, then the quotient is stored into the output tile. -/
theorem outsAt_C (c : Dev nD) (t : Fin cfg1.N) (h0 : ¬t.val % 4 = 0) (h1 : t.val % 4 ≤ (t.val / 4) % 4) (h2 : t.val % 4 = 3) :
    outsAt V c t.val t.isLt = (out_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutM_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutL_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutA_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_pos h2).trans rfl))

/-- outsAt at a point of case D: a key tile after the query tile and not the last: nothing is read or written. -/
theorem outsAt_D (c : Dev nD) (t : Fin cfg1.N) (h0 : ¬t.val % 4 = 0) (h1 : ¬t.val % 4 ≤ (t.val / 4) % 4) (h2 : ¬t.val % 4 = 3) :
    outsAt V c t.val t.isLt = (junkOut, (outsAt V c (t.val - 1) (Nat.lt_of_le_of_lt (Nat.sub_le _ _) t.isLt)).2.1, (outsAt V c (t.val - 1) (Nat.lt_of_le_of_lt (Nat.sub_le _ _) t.isLt)).2.2.1, (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_neg h2).trans rfl))

/-- outsAt at a point of case E: the last key tile, after the query tile: no step; the quotient of the carried sums is stored into the output tile. -/
theorem outsAt_E (c : Dev nD) (t : Fin cfg1.N) (h0 : ¬t.val % 4 = 0) (h1 : ¬t.val % 4 ≤ (t.val / 4) % 4) (h2 : t.val % 4 = 3) :
    outsAt V c t.val t.isLt = (out_E c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) (fun h => h1 ((hcond1 t).mp h)) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, (outsAt V c (t.val - 1) (Nat.lt_of_le_of_lt (Nat.sub_le _ _) t.isLt)).2.1, (outsAt V c (t.val - 1) (Nat.lt_of_le_of_lt (Nat.sub_le _ _) t.isLt)).2.2.1, (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_pos h2).trans rfl))

/-! ## The region's invariant, point by point -/

/-- Every other scoped buffer of the core that is no staging buffer of this region, at some contents: carried unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's invariant with the three carried buffers as memrefs owned at some contents. -/
theorem PhiA_split (c : Dev nD) :
    (Pipeline.ΦA spec1 c : sProp 𝕄)
      = iprop(iprop(iprop((∃ d, owns (c : Thread nD τ) scM fullShare d) ∗ (∃ d, owns (c : Thread nD τ) scL fullShare d) ∗ (∃ d, owns (c : Thread nD τ) scA fullShare d)) ∗ Rest1 (F := F) c) ∗ (∃ r, prngReg c r)) := by
  unfold Pipeline.ΦA
  rw [Pipeline.scopedRest_split_of_list spec1 c [cc1_scratch0, cc1_scratch1, cc1_scratch2] (by decide) (by decide)]
  simp only [scM, scL, scA, owns_whole]; try rfl

/-- Before position n: before the first point the class's invariant (every scratch at anything); afterwards the three
    carried buffers at what the point before left. -/
def PhiS (c : Dev nD) : (n : ℕ) → n ≤ cfg1.N → sProp 𝕄
  | 0, _ => Pipeline.ΦA spec1 c
  | n + 1, hn => iprop(iprop(iprop(owns (c : Thread nD τ) scM fullShare ((outsAt V c n hn).2.1) ∗ owns (c : Thread nD τ) scL fullShare ((outsAt V c n hn).2.2.1) ∗ owns (c : Thread nD τ) scA fullShare ((outsAt V c n hn).2.2.2)) ∗ Rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM fullShare ((outsAt V c n hn).2.1) ∗ owns (c : Thread nD τ) scL fullShare ((outsAt V c n hn).2.2.1) ∗ owns (c : Thread nD τ) scA fullShare ((outsAt V c n hn).2.2.2)) ∗ Rest1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM fullShare ((outsAt V c (n - 1) (by omega)).2.1) ∗ owns (c : Thread nD τ) scL fullShare ((outsAt V c (n - 1) (by omega)).2.2.1) ∗ owns (c : Thread nD τ) scA fullShare ((outsAt V c (n - 1) (by omega)).2.2.2)) ∗ Rest1 (F := F) c) ∗ (∃ r, prngReg c r)) := by
  cases n with
  | zero => exact absurd rfl hz
  | succ n => rfl

/-! ## The proof data -/

/-- The region's proof data on core c: the arrays as the region finds them; after the body at point t each input's
    buffer at its block and the output tile's at outsAt's first component; the invariant PhiS; nothing owed. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = (outsAt V c t.val t.isLt).1 := by dsimp only [dat1]

theorem before_0 (c : Dev nD) (t : Fin cfg1.N) (d) : (dat1 V c).before 0 t d = iblk V c 0 t :=
  before_0_of V (dat1 V c) (A_eq1 V c 0) (after_0 V c) t d
theorem before_1 (c : Dev nD) (t : Fin cfg1.N) (d) : (dat1 V c).before 1 t d = iblk V c 1 t :=
  before_1_of V (dat1 V c) (A_eq1 V c 1) (after_1 V c) t d
theorem before_2 (c : Dev nD) (t : Fin cfg1.N) (d) : (dat1 V c).before 2 t d = iblk V c 2 t :=
  before_2_of V (dat1 V c) (A_eq1 V c 2) (after_2 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at a point of case A. -/
theorem sound_body_A (c : Dev nD) (t : Fin cfg1.N) (h0 : t.val % 4 = 0) (h1 : t.val % 4 ≤ (t.val / 4) % 4) (h2 : ¬t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [Dat.leavesExact_idle (dat1 V c) 3 t (idle_3 t (fun h => h2 ((hcond2 t).mp h))) (noFlush_3 t (fun h => h2 ((hcond2 t).mp h)))]
  rw [outsAt_A V c t h0 h1 h2]
  unfold soutM_A soutL_A soutA_A; (try dsimp only)
  by_cases hz : t.val = 0
  ·
    rw [PhiS_castSucc V c t, PhiS_zero V c _ _ hz, PhiA_split]
    iintro ⟨⟨⟨⟨HSM, HSL, HSA⟩, HR⟩, Hg⟩, Ho, ⟨%d0, H0⟩, ⟨%d1, H1⟩, ⟨%d2, H2⟩, ⟨%d3, H3⟩⟩
    iapply ((runA c (grid1.coords t) _ _ _ _ _ _ _ _ _ _ _ _ _ _ ((hcond0 t).mpr h0) ((hcond1 t).mpr h1) (fun h => h2 ((hcond2 t).mp h)) (iblk V c 0 t) (iblk V c 1 t) (iblk V c 2 t)).2.2.2 _ Set.univ _)
    isplitl [H0]; · iexact H0
    isplitl [H1]; · iexact H1
    isplitl [H2]; · iexact H2
    isplitl [H3]; · iexact H3
    isplitl [HSM]; · iexact HSM
    isplitl [HSL]; · iexact HSL
    isplitl [HSA]; · iexact HSA
    iintro ⟨H0, H1, H2, H3, ⟨%em, HSM⟩, ⟨%el, HSL⟩, ⟨%ea, HSA⟩⟩
    isplitl [HSM HSL HSA HR Hg]
    · isplitl [HSM HSL HSA HR]
      · isplitl [HSM HSL HSA]
        · isplitl [HSM]
          · unfold owns; iexists _; isplitr
            swap; · iexact HSM
            ipureintro; exact View.read_writes_of_cover _ _ _ _ _ (cover_soutM_A c _ _ _ _ _ _ _ _ _ _ _ _ _ _ _ _ _ _ _ _ _)
          isplitl [HSL]
          · unfold owns; iexists _; isplitr
            swap; · iexact HSL
            ipureintro; exact View.read_writes_of_cover _ _ _ _ _ (cover_soutL_A c _ _ _ _ _ _ _ _ _ _ _ _ _ _ _ _ _ _ _ _ _)
          unfold owns; iexists _; isplitr
          swap; · iexact HSA
          ipureintro; exact View.read_writes_of_cover _ _ _ _ _ (cover_soutA_A c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  ·
    rw [PhiS_castSucc V c t, PhiS_pos V c _ _ hz]
    iintro ⟨⟨⟨⟨HSM, HSL, HSA⟩, HR⟩, Hg⟩, Ho, ⟨%d0, H0⟩, ⟨%d1, H1⟩, ⟨%d2, H2⟩, ⟨%d3, H3⟩⟩
    iapply ((runA c (grid1.coords t) _ _ _ _ _ _ _ _ _ _ _ _ _ _ ((hcond0 t).mpr h0) ((hcond1 t).mpr h1) (fun h => h2 ((hcond2 t).mp h)) (iblk V c 0 t) (iblk V c 1 t) (iblk V c 2 t)).2.2.2 _ Set.univ _)
    isplitl [H0]; · iexact H0
    isplitl [H1]; · iexact H1
    isplitl [H2]; · iexact H2
    isplitl [H3]; · iexact H3
    isplitl [HSM]; · iexists _; iexact HSM
    isplitl [HSL]; · iexists _; iexact HSL
    isplitl [HSA]; · iexists _; iexact HSA
    iintro ⟨H0, H1, H2, H3, ⟨%em, HSM⟩, ⟨%el, HSL⟩, ⟨%ea, HSA⟩⟩
    isplitl [HSM HSL HSA HR Hg]
    · isplitl [HSM HSL HSA HR]
      · isplitl [HSM HSL HSA]
        · isplitl [HSM]
          · unfold owns; iexists _; isplitr
            swap; · iexact HSM
            ipureintro; exact View.read_writes_of_cover _ _ _ _ _ (cover_soutM_A c _ _ _ _ _ _ _ _ _ _ _ _ _ _ _ _ _ _ _ _ _)
          isplitl [HSL]
          · unfold owns; iexists _; isplitr
            swap; · iexact HSL
            ipureintro; exact View.read_writes_of_cover _ _ _ _ _ (cover_soutL_A c _ _ _ _ _ _ _ _ _ _ _ _ _ _ _ _ _ _ _ _ _)
          unfold owns; iexists _; isplitr
          swap; · iexact HSA
          ipureintro; exact View.read_writes_of_cover _ _ _ _ _ (cover_soutA_A c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3

set_option maxHeartbeats 4800000 in
/-- The body at a point of case B. -/
theorem sound_body_B (c : Dev nD) (t : Fin cfg1.N) (h0 : ¬t.val % 4 = 0) (h1 : t.val % 4 ≤ (t.val / 4) % 4) (h2 : ¬t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [Dat.leavesExact_idle (dat1 V c) 3 t (idle_3 t (fun h => h2 ((hcond2 t).mp h))) (noFlush_3 t (fun h => h2 ((hcond2 t).mp h)))]
  rw [outsAt_B V c t h0 h1 h2]
  unfold soutM_B soutL_B soutA_B; (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply ((runB c (grid1.coords t) _ _ _ _ _ _ _ _ _ _ _ _ _ _ (fun h => h0 ((hcond0 t).mp h)) ((hcond1 t).mpr h1) (fun h => h2 ((hcond2 t).mp h)) (iblk V c 0 t) (iblk V c 1 t) (iblk V c 2 t) _ _ _).2.2.2 _ Set.univ _)
  isplitl [H0]; · iexact H0
  isplitl [H1]; · iexact H1
  isplitl [H2]; · iexact H2
  isplitl [H3]; · iexact H3
  isplitl [HSM]; · iexact HSM
  isplitl [HSL]; · iexact HSL
  isplitl [HSA]; · iexact HSA
  iintro ⟨H0, H1, H2, H3, ⟨%em, HSM⟩, ⟨%el, HSL⟩, ⟨%ea, HSA⟩⟩
  isplitl [HSM HSL HSA HR Hg]
  · isplitl [HSM HSL HSA HR]
    · isplitl [HSM HSL HSA]
      · isplitl [HSM]
        · unfold owns; iexists _; isplitr
          swap; · iexact HSM
          ipureintro; exact View.read_writes_of_cover _ _ _ _ _ (cover_soutM_B c _ _ _ _ _ _ _ _ _ _ _ _ _ _ _ _ _ _ _ _ _ _ _ _)
        isplitl [HSL]
        · unfold owns; iexists _; isplitr
          swap; · iexact HSL
          ipureintro; exact View.read_writes_of_cover _ _ _ _ _ (cover_soutL_B c _ _ _ _ _ _ _ _ _ _ _ _ _ _ _ _ _ _ _ _ _ _ _ _)
        unfold owns; iexists _; isplitr
        swap; · iexact HSA
        ipureintro; exact View.read_writes_of_cover _ _ _ _ _ (cover_soutA_B c _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  iexists _; iexact H3

set_option maxHeartbeats 4800000 in
/-- The body at a point of case C. -/
theorem sound_body_C (c : Dev nD) (t : Fin cfg1.N) (h0 : ¬t.val % 4 = 0) (h1 : t.val % 4 ≤ (t.val / 4) % 4) (h2 : t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [show (dat1 V c).leavesExact 3 t = owns (c : Thread nD τ) (ms3 t) fullShare ((dat1 V c).after 3 t) from by
    unfold Dat.leavesExact; rw [live_3 t ((hcond2 t).mpr h2)], after_3]
  rw [outsAt_C V c t h0 h1 h2]
  unfold out_C soutM_C soutL_C soutA_C; (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply ((runC c (grid1.coords t) _ _ _ _ _ _ _ _ _ _ _ _ _ _ (fun h => h0 ((hcond0 t).mp h)) ((hcond1 t).mpr h1) ((hcond2 t).mpr h2) (iblk V c 0 t) (iblk V c 1 t) (iblk V c 2 t) _ _ _).2.2.2.2 Set.univ _)
  isplitl [H0]; · iexact H0
  isplitl [H1]; · iexact H1
  isplitl [H2]; · iexact H2
  isplitl [H3]; · iexists _; iexact H3
  isplitl [HSM]; · iexact HSM
  isplitl [HSL]; · iexact HSL
  isplitl [HSA]; · iexact HSA
  iintro ⟨H0, H1, H2, ⟨%e3, H3⟩, ⟨%em, HSM⟩, ⟨%el, HSL⟩, ⟨%ea, HSA⟩⟩
  isplitl [HSM HSL HSA HR Hg]
  · isplitl [HSM HSL HSA HR]
    · isplitl [HSM HSL HSA]
      · isplitl [HSM]
        · unfold owns; iexists _; isplitr
          swap; · iexact HSM
          ipureintro; exact View.read_writes_of_cover _ _ _ _ _ (cover_soutM_C c _ _ _ _ _ _ _ _ _ _ _ _ _ _ _ _ _ _ _ _ _ _ _ _)
        isplitl [HSL]
        · unfold owns; iexists _; isplitr
          swap; · iexact HSL
          ipureintro; exact View.read_writes_of_cover _ _ _ _ _ (cover_soutL_C c _ _ _ _ _ _ _ _ _ _ _ _ _ _ _ _ _ _ _ _ _ _ _ _)
        unfold owns; iexists _; isplitr
        swap; · iexact HSA
        ipureintro; exact View.read_writes_of_cover _ _ _ _ _ (cover_soutA_C c _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out_C c _ _ _ _ _ _ _ _ _ _ _ _ _ _ _ _ _ _ _ _ _ _ _ _)

set_option maxHeartbeats 4800000 in
/-- The body at a point of case D. -/
theorem sound_body_D (c : Dev nD) (t : Fin cfg1.N) (h0 : ¬t.val % 4 = 0) (h1 : ¬t.val % 4 ≤ (t.val / 4) % 4) (h2 : ¬t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [Dat.leavesExact_idle (dat1 V c) 3 t (idle_3 t (fun h => h2 ((hcond2 t).mp h))) (noFlush_3 t (fun h => h2 ((hcond2 t).mp h)))]
  rw [outsAt_D V c t h0 h1 h2]
  (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply (runD c (grid1.coords t) _ _ _ _ _ _ _ _ _ _ _ _ _ _ (fun h => h0 ((hcond0 t).mp h)) (fun h => h1 ((hcond1 t).mp h)) (fun h => h2 ((hcond2 t).mp h)) (iblk V c 0 t) (iblk V c 1 t) (iblk V c 2 t) _ _ _ _ Set.univ _)
  isplitl [H0]; · iexact H0
  isplitl [H1]; · iexact H1
  isplitl [H2]; · iexact H2
  isplitl [H3]; · iexact H3
  isplitl [HSM]; · iexact HSM
  isplitl [HSL]; · iexact HSL
  isplitl [HSA]; · iexact HSA
  iintro ⟨H0, H1, H2, H3, HSM, HSL, HSA⟩
  isplitl [HSM HSL HSA HR Hg]
  · isplitl [HSM HSL HSA HR]
    · isplitl [HSM HSL HSA]
      · isplitl [HSM]
        · iexact HSM
        isplitl [HSL]
        · iexact HSL
        iexact HSA
      iexact HR
    iexact Hg
  isplitl [Ho]; · iexact Ho
  isplitl [H0]; · iexact H0
  isplitl [H1]; · iexact H1
  isplitl [H2]; · iexact H2
  iexists _; iexact H3

set_option maxHeartbeats 4800000 in
/-- The body at a point of case E. -/
theorem sound_body_E (c : Dev nD) (t : Fin cfg1.N) (h0 : ¬t.val % 4 = 0) (h1 : ¬t.val % 4 ≤ (t.val / 4) % 4) (h2 : t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [show (dat1 V c).leavesExact 3 t = owns (c : Thread nD τ) (ms3 t) fullShare ((dat1 V c).after 3 t) from by
    unfold Dat.leavesExact; rw [live_3 t ((hcond2 t).mpr h2)], after_3]
  rw [outsAt_E V c t h0 h1 h2]
  unfold out_E; (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply ((runE c (grid1.coords t) _ _ _ _ _ _ _ _ _ _ _ _ _ _ (fun h => h0 ((hcond0 t).mp h)) (fun h => h1 ((hcond1 t).mp h)) ((hcond2 t).mpr h2) (iblk V c 0 t) (iblk V c 1 t) (iblk V c 2 t) _ _ _).2 Set.univ _)
  isplitl [H0]; · iexact H0
  isplitl [H1]; · iexact H1
  isplitl [H2]; · iexact H2
  isplitl [H3]; · iexists _; iexact H3
  isplitl [HSM]; · iexact HSM
  isplitl [HSL]; · iexact HSL
  isplitl [HSA]; · iexact HSA
  iintro ⟨H0, H1, H2, ⟨%e3, H3⟩, HSM, HSL, HSA⟩
  isplitl [HSM HSL HSA HR Hg]
  · isplitl [HSM HSL HSA HR]
    · isplitl [HSM HSL HSA]
      · isplitl [HSM]
        · iexact HSM
        isplitl [HSL]
        · iexact HSL
        iexact HSA
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out_E c _ _ _ _ _ _ _ _ _ _ _ _ _ _ _ _ _ _ _ _ _ _ _ _)

/-- The body at any point: the closed forms say which case the point is in. -/
theorem sound_body (c : Dev nD) (t : Fin cfg1.N) :
    bodyPre V c t ⊢ wp frame (wpE (defs₀ (F := F)) Variants.none c none) Set.univ (bodyAt1 t) (fun _ => bodyPost V c t) := by
  by_cases h0 : t.val % 4 = 0
  · exact sound_body_A V c t h0 (c1_of_c0 h0) (nc2_of_c0 h0)
  · by_cases h1 : t.val % 4 ≤ (t.val / 4) % 4
    · by_cases h2 : t.val % 4 = 3
      · exact sound_body_C V c t h0 h1 h2
      · exact sound_body_B V c t h0 h1 h2
    · by_cases h2 : t.val % 4 = 3
      · exact sound_body_E V c t h0 h1 h2
      · exact sound_body_D V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the carried buffers' named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_split]
  iintro ⟨⟨⟨HSM, HSL, HSA⟩, HR⟩, Hg⟩
  isplitl [HSM HSL HSA HR]
  · isplitl [HSM HSL HSA]
    · isplitl [HSM]; · iexists _; iexact HSM
      isplitl [HSL]; · iexists _; iexact HSL
      iexists _; iexact HSA
    iexact HR
  iexact Hg

/-- The same after the last point. -/
theorem hout1 (c : Dev nD) : (dat1 V c).Φ (Fin.last cfg1.N) ⊢ Pipeline.ΦA spec1 c :=
  Phi_out V c _ (by rw [Fin.val_last]; have : cfg1.N = 512 := N_1; omega)

end Cert.KernelIdeal.Reg1

end
-- ==== Proof.Reg2.lean ====
/-
  The last matrix-product region (pipeline 2): a 8×1×1 grid; at each point the body zeroes its accumulator, adds the
  product of the two input blocks to it, and stores the accumulator plus the bias row, broadcast over the rows, into
  the output block. The third grid axis has extent 1, so both conditionals of the body hold at every point, and the
  accumulator is stored whole before it is read: nothing is carried from point to point.

  Stated at a parameter V, the buffers' contents when the region is entered, and at any float interpretation F.
-/
import proofs.«144787_j3307124818573_2_alg».proof.Proof.Gen.KernelIdeal.Launch
import proofs.«144787_j3307124818573_2_alg».proof.Proof.Gen.KernelIdeal.Skeleton
import proofs.«144787_j3307124818573_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditionals hold at every point -/

/-- The first conditional's test, from the grid coordinates. -/
abbrev cond2_0 (i : grid2.Coords) : Prop :=
  (Scalar.cmpi .ne (Scalar.extui (Scalar.cmpi .eq (BitVec.ofNat 32 (i 2).val) 0#32)) 0#32) = 1#1
/-- The second conditional's test. -/
abbrev cond2_1 (i : grid2.Coords) : Prop := k2_cond2 i = 1#1

/-- The third axis has one coordinate. -/
theorem i2_zero (i : grid2.Coords) : (i 2).val = 0 := Nat.lt_one_iff.mp (i 2).isLt

theorem hcond2_0 (i : grid2.Coords) : cond2_0 i := by
  unfold cond2_0; rw [i2_zero i]; decide
theorem hcond2_1 (i : grid2.Coords) : cond2_1 i := by
  unfold cond2_1 k2_cond2; rw [i2_zero i]; decide

/-- No window is idle at any point: the second conditional holds there. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The memrefs the body is called with -/

abbrev VO2_3 : View sig .tc .vmem S512x1024 .f32 := (Memref.whole cc2_stg3_0 : Memref sig .tc .vmem S512x1024 .f32).view
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S512x1024 .f32 := Memref.whole cc2_scratch0

/-- Every other scoped buffer of the core that is no staging buffer of this call, at some contents: carried unopened. -/
abbrev Rest2 (c : Dev nD) : sProp 𝕄 :=
  Pipeline.scopedRestBut (Ix := Unit) (Name := ℕ) (U := UR sig nD τ) (Lvl := ℕ) (Val := Elt F) spec2 c [cc2_scratch0]

/-- The region invariant with the accumulator as a memref owned at some contents. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [scM2_0, owns_whole]; try rfl

/-! ## The body on any whole memrefs -/

set_option maxHeartbeats 4000000 in
/-- What the body's stores leave in the output's memref and in the accumulator, as pieces (last first), with the proof
    that on whole memrefs — the inputs' at their contents, the output's and the accumulator's at anything — the body
    runs to the continuation holding the inputs' as they were and the other two with those pieces written. -/
noncomputable def kernelRun2 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .f32) (x2 : Vec F S1x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hcond2_0 i | exact hcond2_1 i)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The pieces the body stores into the output's memref tile it. -/
theorem cover2_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .f32) (x2 : Vec F S1x1024 .f32) (y : S512x1024.Idx) :
    ∃ pc ∈ (kernelRun2 c i arg3 harg3 arg4 harg4 arg5 harg5 arg6 harg6 arg7 harg7 x0 x1 x2).1, y ∈ pc.1.set :=
  View.cover_of_tiledL (kernelRun2 c i arg3 harg3 arg4 harg4 arg5 harg5 arg6 harg6 arg7 harg7 x0 x1 x2).1 S512x1024.size (by sl_kernel_rfl) y

/-- What the body leaves in the output's staging buffer: its pieces read back. -/
def out2_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .f32) (x2 : Vec F S1x1024 .f32) : Vec F S512x1024 .f32 :=
  VO2_3.read (Elt F) (VO2_3.writes (Elt F) VO2_3.junk (kernelRun2 c i arg3 harg3 arg4 harg4 arg5 harg5 arg6 harg6 arg7 harg7 x0 x1 x2).1)

section Region
-- the buffers' contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output window's buffer at point t, from the input blocks there. -/
def outAt2 (c : Dev nD) (t : Fin cfg2.N) : Vec F S512x1024 .f32 :=
  out2_3 c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t)

/-! ## The pipeline's proof data -/

/-- The proof data of pipeline 2 on core c: the arrays as the region finds them; after the body at point t each input's
    buffer at its block and the output's at the body's result of the input blocks; the invariant: every scoped buffer
    that is no staging buffer at anything, the generator register at some state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: the inputs' memrefs hold their blocks, both conditionals hold, so the run applies; the
    invariant hands the body the accumulator at anything and takes it back at anything. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold outAt2 out2_3
  iintro ⟨⟨⟨HS0, HR⟩, Hg⟩, Ho, ⟨%d0, H0⟩, ⟨%d1, H1⟩, ⟨%d2, H2⟩, ⟨%d3, H3⟩⟩
  iapply ((kernelRun2 c (grid2.coords t) _ _ _ _ _ _ _ _ _ _ (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := Idealize.SL.BI.Entails.refl _
/-- and after the last point the invariant is handed back. -/
theorem hout2 (c : Dev nD) : (dat2 V c).Φ (Fin.last cfg2.N) ⊢ Pipeline.ΦA spec2 c := Idealize.SL.BI.Entails.refl _

end Region

end Cert.KernelIdeal.Reg2

end
-- ==== Proof.Top.lean ====
/-
  The program's run, from the launch to the return.

  @main is four stretches of host operations around three kernel regions. The buffers' contents at each boundary are a
  fold from the launch memory: a host stretch applies its operations; a region leaves each of its output arrays at
  what its write-backs leave and every other buffer as it found it. Each region is entered from the state "every
  unscoped buffer at the boundary's contents, the generator register at some state, nothing owed" and left at the
  same state over the next boundary's contents. Every weakly fair execution terminates without a fault with every
  unscoped buffer at the last boundary's contents: the argument arrays as launched (no host operation writes one and
  no region has one as an output), and the result array at the last stretch's value.
-/
import proofs.«144787_j3307124818573_2_alg».proof.Proof.Reg0
import proofs.«144787_j3307124818573_2_alg».proof.Proof.Reg1
import proofs.«144787_j3307124818573_2_alg».proof.Proof.Reg2
import proofs.«144787_j3307124818573_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Top

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev B0 : Dev nD → Valuation τ sig (Elt F) := fun c b => (s₀ m ρ).mem ((c : Dev nD), b)

/-- After the host stretch hostOps0: region 0's entry. -/
abbrev B1 : Dev nD → Valuation τ sig (Elt F) := fun c => StableHlo.after hostOps0 (B0 m ρ c)
/-- The same read at the TensorCore's references: what region 0's proof data take. -/
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (Reg0.dat0 (E1 m ρ) c).arrAt w cfg0.N
theorem B2_arr (c : Dev nD) (w : Fin cfg0.W) :
    B2 m ρ c (Proc.devRef .tc (Pipeline.arrRef spec0 w)) = (Reg0.dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (Reg0.dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host stretch hostOps1: region 1's entry. -/
abbrev B3 : Dev nD → Valuation τ sig (Elt F) := fun c => StableHlo.after hostOps1 (B2 m ρ c)
/-- The same read at the TensorCore's references: what region 1's proof data take. -/
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (Reg1.dat1 (E3 m ρ) c).arrAt w cfg1.N
theorem B4_arr (c : Dev nD) (w : Fin cfg1.W) :
    B4 m ρ c (Proc.devRef .tc (Pipeline.arrRef spec1 w)) = (Reg1.dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (Reg1.dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the host stretch hostOps2: region 2's entry. -/
abbrev B5 : Dev nD → Valuation τ sig (Elt F) := fun c => StableHlo.after hostOps2 (B4 m ρ c)
/-- The same read at the TensorCore's references: what region 2's proof data take. -/
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (Reg2.dat2 (E5 m ρ) c).arrAt w cfg2.N
theorem B6_arr (c : Dev nD) (w : Fin cfg2.W) :
    B6 m ρ c (Proc.devRef .tc (Pipeline.arrRef spec2 w)) = (Reg2.dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (Reg2.dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch: the return. -/
abbrev B7 : Dev nD → Valuation τ sig (Elt F) := fun c => StableHlo.after hostOps3 (B6 m ρ c)

/-! ## The arguments end as launched -/

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (r := main_arg4) (by decide)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

theorem B7_main_arg5 (c : Dev nD) : B7 m ρ c (Proc.devRef .tc main_arg5) = m ((c : Thread nD τ).loc main_arg5) :=
  calc B7 m ρ c (Proc.devRef .tc main_arg5)
    _ = B6 m ρ c (Proc.devRef .tc main_arg5) := StableHlo.after_of_writes_sub hostOps3 _ hostOps3_writes (r := main_arg5) (by decide)
    _ = B5 m ρ c (Proc.devRef .tc main_arg5) := B6_of_ne m ρ c main_arg5 (by decide)
    _ = B4 m ρ c (Proc.devRef .tc main_arg5) := StableHlo.after_of_writes_sub hostOps2 _ hostOps2_writes (r := main_arg5) (by decide)
    _ = B3 m ρ c (Proc.devRef .tc main_arg5) := B4_of_ne m ρ c main_arg5 (by decide)
    _ = B2 m ρ c (Proc.devRef .tc main_arg5) := StableHlo.after_of_writes_sub hostOps1 _ hostOps1_writes (r := main_arg5) (by decide)
    _ = B1 m ρ c (Proc.devRef .tc main_arg5) := B2_of_ne m ρ c main_arg5 (by decide)
    _ = B0 m ρ c (Proc.devRef .tc main_arg5) := StableHlo.after_of_writes_sub hostOps0 _ hostOps0_writes (r := main_arg5) (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat0 (E1 m ρ) c
  | ⟨1, _⟩ => fun c => Reg1.dat1 (E3 m ρ) c
  | ⟨2, _⟩ => fun c => Reg2.dat2 (E5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (B7 m ρ c) ∗ ∃ r, prngReg c r)

/-- What enters a region's invariant: the generator register and the scoped buffers no window stages. -/
theorem PhiA_in {gr W : Nat} (win : Fin W → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ (Pipeline.ΦA win c : sProp 𝕄) := by
  unfold Pipeline.ΦA
  iintro ⟨Hp, -, Hr⟩
  isplitl [Hr]; · iexact Hr
  iexact Hp

/-- What a region's invariant gives back. -/
theorem PhiA_out {gr W : Nat} (win : Fin W → Pipeline.WinSpec sig gr) (c : Dev nD) :
    (Pipeline.ΦA win c : sProp 𝕄)
      ⊢ (iprop((∃ r, prngReg c r) ∗ BI.emp ∗ Pipeline.scopedRest (Ix := Unit) (Name := ℕ) (U := UR sig nD τ) (Lvl := ℕ) (Val := Elt F) win c) : sProp 𝕄) := by
  unfold Pipeline.ΦA
  iintro ⟨Hr, Hp⟩
  isplitl [Hp]; · iexact Hp
  isplitr; · iempintro
  iexact Hr

/-- The last segment's state is the last thread state beside the core owing nothing. -/
theorem chain_last (c : Dev nD) (Wv : Valuation τ sig (Elt F)) :
    (iprop(StableHlo.held (c : Thread nD τ) (Pipeline.ucRefs τ sig) Wv ∗ R (F := F) c) : sProp 𝕄)
      ⊢ (iprop(iprop(StableHlo.held (c : Thread nD τ) (Pipeline.ucRefs τ sig) Wv ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

-- a library lemma stated over the pinned configuration unifies with the printed one only when unification may unfold
-- plain definitions in a metavariable's type
set_option backward.isDefEq.respectTransparency.types false in
/-- Region 0 over the thread state: entered from every unscoped buffer at B1, left at B2. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in spec0 c _).trans (Reg0.hin0 (E1 m ρ) c)
  hout c := by
    rw [Pipeline.ownSems0_none]
    exact (Reg0.hout0 (E1 m ρ) c).trans (PhiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at B3, left at B4. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in spec1 c _).trans (Reg1.hin1 (E3 m ρ) c)
  hout c := by
    rw [Pipeline.ownSems0_none]
    exact (Reg1.hout1 (E3 m ρ) c).trans (PhiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at B5, left at B6. Its arrays are
    split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in spec2 c _).trans (Reg2.hin2 (E5 m ρ) c)
  hout c := by
    rw [Pipeline.ownSems0_none]
    exact (Reg2.hout2 (E5 m ρ) c).trans (PhiA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsR : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]

theorem main_run (c : Dev nD) : main (F := F) c = Pipeline.Seg.run (segsR m ρ) := (main_chain c).trans (by chain_rfl)

set_option backward.isDefEq.respectTransparency.types false in
/-- THE RUN: from any memory with zero counters every weakly fair execution of @main terminates, nothing faulting,
    and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => chain_last c _⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c)⟩) (run m ρ)

end Cert.KernelIdeal.Top

end
-- ==== Proof.KReg0.lean ====
/-
  The first matrix-product region (pipeline 0): a 8×3×1 grid; at each point the body zeroes its accumulator, adds the
  product of the two input blocks to it, and stores the accumulator, narrowed, into the output block. The third grid
  axis has extent 1, so both conditionals of the body hold at every point, and the accumulator is stored whole before
  it is read: nothing is carried from point to point.

  Stated at a parameter V, the buffers' contents when the region is entered, and at any float interpretation F.
-/
import proofs.«144787_j3307124818573_2_alg».proof.Proof.Gen.Kernel.Launch
import proofs.«144787_j3307124818573_2_alg».proof.Proof.Gen.Kernel.Skeleton
import proofs.«144787_j3307124818573_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals hold at every point -/

/-- The first conditional's test, from the grid coordinates. -/
abbrev cond0_0 (i : grid0.Coords) : Prop :=
  (Scalar.cmpi .ne (Scalar.extui (Scalar.cmpi .eq (BitVec.ofNat 32 (i 2).val) 0#32)) 0#32) = 1#1
/-- The second conditional's test. -/
abbrev cond0_1 (i : grid0.Coords) : Prop := k0_cond2 i = 1#1

/-- The third axis has one coordinate. -/
theorem i2_zero (i : grid0.Coords) : (i 2).val = 0 := Nat.lt_one_iff.mp (i 2).isLt

theorem hcond0_0 (i : grid0.Coords) : cond0_0 i := by
  unfold cond0_0; rw [i2_zero i]; decide
theorem hcond0_1 (i : grid0.Coords) : cond0_1 i := by
  unfold cond0_1 k0_cond2; rw [i2_zero i]; decide

/-- The output window is live at every point: the second conditional holds there. -/
theorem liveAt0_2 : ∀ t : Fin cfg0.N, cfg0.idle 2 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel

/-! ## The memrefs the body is called with -/

abbrev VO0_2 : View sig .tc .vmem S512x1024 .bf16 := (Memref.whole cc0_stg2_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x1024 .f32 := Memref.whole cc0_scratch0

/-- Every other scoped buffer of the core that is no staging buffer of this call, at some contents: carried unopened. -/
abbrev Rest0 (c : Dev nD) : sProp 𝕄 :=
  Pipeline.scopedRestBut (Ix := Unit) (Name := ℕ) (U := UR sig nD τ) (Lvl := ℕ) (Val := Elt F) spec0 c [cc0_scratch0]

/-- The region invariant with the accumulator as a memref owned at some contents. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA
  rw [Pipeline.scopedRest_split_of_list spec0 c [cc0_scratch0] (by decide) (by decide)]
  simp only [scM0_0, owns_whole]; try rfl

/-! ## The body on any whole memrefs -/

set_option maxHeartbeats 4000000 in
/-- What the body's stores leave in the output's memref and in the accumulator, as pieces (last first), with the proof
    that on whole memrefs — the inputs' at their contents, the output's and the accumulator's at anything — the body
    runs to the continuation holding the inputs' as they were and the other two with those pieces written. -/
noncomputable def kernelRun0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec F S512x1024 .f32) (x1 : Vec F S1024x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hcond0_0 i | exact hcond0_1 i)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- The pieces the body stores into the output's memref tile it. -/
theorem cover0_2 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec F S512x1024 .f32) (x1 : Vec F S1024x1024 .f32) (y : S512x1024.Idx) :
    ∃ pc ∈ (kernelRun0 c i arg3 harg3 arg4 harg4 arg5 harg5 arg6 harg6 x0 x1).1, y ∈ pc.1.set :=
  View.cover_of_tiledL (kernelRun0 c i arg3 harg3 arg4 harg4 arg5 harg5 arg6 harg6 x0 x1).1 S512x1024.size (by sl_kernel_rfl) y

/-- What the body leaves in the output's staging buffer: its pieces read back. -/
def out0_2 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec F S512x1024 .f32) (x1 : Vec F S1024x1024 .f32) : Vec F S512x1024 .bf16 :=
  VO0_2.read (Elt F) (VO0_2.writes (Elt F) VO0_2.junk (kernelRun0 c i arg3 harg3 arg4 harg4 arg5 harg5 arg6 harg6 x0 x1).1)

section Region
-- the buffers' contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer at point t, from the input blocks there. -/
def outAt0 (c : Dev nD) (t : Fin cfg0.N) : Vec F S512x1024 .bf16 :=
  out0_2 c (grid0.coords t) (ms0_0 t) (hs0_0 t) (ms0_1 t) (hs0_1 t) (ms0_2 t) (hs0_2 t) scM0_0 (Memref.isWhole_whole _) (iblk0 V c 0 t) (iblk0 V c 1 t)

/-! ## The pipeline's proof data -/

/-- The proof data of pipeline 0 on core c: the arrays as the region finds them; after the body at point t each input's
    buffer at its block and the output's at the body's result of the input blocks; the invariant: every scoped buffer
    that is no staging buffer at anything, the generator register at some state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks, both conditionals hold, so the run applies; the
    invariant hands the body the accumulator at anything and takes it back at anything. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold outAt0 out0_2
  iintro ⟨⟨⟨HS0, HR⟩, Hg⟩, Ho, ⟨%d0, H0⟩, ⟨%d1, H1⟩, ⟨%d2, H2⟩⟩
  iapply ((kernelRun0 c (grid0.coords t) _ _ _ _ _ _ _ _ (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := Idealize.SL.BI.Entails.refl _
/-- and after the last point the invariant is handed back. -/
theorem hout0 (c : Dev nD) : (dat0 V c).Φ (Fin.last cfg0.N) ⊢ Pipeline.ΦA spec0 c := Idealize.SL.BI.Entails.refl _

end Region

end Cert.Kernel.Reg0

end
-- ==== Proof.KReg1Runs.lean ====
/-
  The attention region (the second of the program's three kernel regions), what its case runs share.

  The grid has 32 · 4 · 4 points: point t is head-and-batch t / 16, query tile (t / 4) % 4, key tile t % 4. The body
  branches three times on the coordinates: at key tile 0 it resets the three running quantities (row maxima, row
  normalisers, weighted sums); at a key tile not after the query tile it takes one step of the running softmax; at
  key tile 3 it divides and stores the output tile. Here: each window's block at a point read off the array as the
  region finds it, the three conditions in closed form over the grid, where the output window is idle, the memrefs
  the body is called with, and the region's invariant with the three carried buffers named.
-/
import proofs.«144787_j3307124818573_2_alg».proof.Proof.Gen.Kernel.Launch
import proofs.«144787_j3307124818573_2_alg».proof.Proof.Gen.Kernel.Skeleton
import proofs.«144787_j3307124818573_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, in closed form over the grid -/

/-- The reset's condition: the key tile is 0. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The step's condition: the key tile is not after the query tile. -/
abbrev cond1 (i : grid1.Coords) : Prop := k1_cond2 i = 1#1
theorem hcond1 : ∀ t : Fin cfg1.N, cond1 (grid1.coords t) ↔ t.val % 4 ≤ (t.val / 4) % 4 :=
  (by decide +kernel : ∀ t : Fin grid1.N, cond1 (grid1.coords t) ↔ t.val % 4 ≤ (t.val / 4) % 4)

/-- The store's condition: the key tile is the last, 3. -/
abbrev cond2 (i : grid1.Coords) : Prop := k1_cond3 i = 1#1
theorem hcond2 : ∀ t : Fin cfg1.N, cond2 (grid1.coords t) ↔ t.val % 4 = 3 :=
  (by decide +kernel : ∀ t : Fin grid1.N, cond2 (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last key tile the output window is idle and is not written back. -/
theorem idle_3 : ∀ t : Fin cfg1.N, ¬cond2 (grid1.coords t) → cfg1.idle 3 (grid1.coords t) = true := by decide +kernel
theorem noFlush_3 : ∀ t : Fin cfg1.N, ¬cond2 (grid1.coords t) → (cfg1.win 3).flush t = false := by decide +kernel
/-- At the last key tile it is live. -/
theorem live_3 : ∀ t : Fin cfg1.N, cond2 (grid1.coords t) → cfg1.idle 3 (grid1.coords t) = false := by decide +kernel

/-! ## The memrefs the body is called with -/

abbrev VO3 : View sig .tc .vmem S1x512x64 .bf16 := (Memref.whole cc1_stg3_0 : Memref sig .tc .vmem S1x512x64 .bf16).view
abbrev ms0 (t : Fin cfg1.N) : Memref sig .tc .vmem S1x512x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x64 .bf16 := win1_3.stage (cfg1.slots t 3)
abbrev hs3 (t : Fin cfg1.N) : (ms3 t).IsWhole := hstage1_3 ((cfg1.slots t 3).cast nbuf1_3)
/-- The three carried buffers: row maxima, row normalisers, weighted sums. -/
abbrev scM : Memref sig .tc .vmem S512x1 .f32 := Memref.whole cc1_scratch0
abbrev scL : Memref sig .tc .vmem S512x1 .f32 := Memref.whole cc1_scratch1
abbrev scA : Memref sig .tc .vmem S512x64 .f32 := Memref.whole cc1_scratch2
abbrev VSM : View sig .tc .vmem S512x1 .f32 := scM.view
abbrev VSL : View sig .tc .vmem S512x1 .f32 := scL.view
abbrev VSA : View sig .tc .vmem S512x64 .f32 := scA.view

/-- A scoped buffer of another region, whole at some contents. -/
abbrev exb (c : Dev nD) (r : Ref sig .tc) : sProp 𝕄 :=
  iprop(∃ f : Buf (Elt F) ((c : Thread nD τ).loc r), ((c : Thread nD τ).loc r) ↦{fullShare} f)

/-- The region's invariant: the other regions' scoped buffers at some contents, the three carried buffers as memrefs
    owned at some contents (in the order the layout lists the scoped buffers), and the generator register. -/
theorem PhiA_eq (c : Dev nD) :
    (Pipeline.ΦA spec1 c : sProp 𝕄)
      = iprop(iprop(exb c cc0_stg0_0 ∗ exb c cc0_stg0_1 ∗ exb c cc0_stg1_0 ∗ exb c cc0_stg1_1 ∗ exb c cc0_stg2_0 ∗ exb c cc0_stg2_1 ∗ exb c cc0_scratch0 ∗ (∃ d, owns (c : Thread nD τ) scM fullShare d) ∗ (∃ d, owns (c : Thread nD τ) scL fullShare d) ∗ (∃ d, owns (c : Thread nD τ) scA fullShare d) ∗ exb c cc2_stg0_0 ∗ exb c cc2_stg0_1 ∗ exb c cc2_stg1_0 ∗ exb c cc2_stg2_0 ∗ exb c cc2_stg3_0 ∗ exb c cc2_stg3_1 ∗ exb c cc2_scratch0) ∗ (∃ r, prngReg c r)) := by
  unfold Pipeline.ΦA; rw [scopedRest1_eq]; simp only [scM, scL, scA, owns_whole]; try rfl

end Cert.Kernel.Reg1

end
-- ==== Proof.KReg1RunA.lean ====
/-
  The attention region's body in one of its five cases — key tile 0: the three running quantities are reset, then one step of the running softmax is taken; the output tile is left alone.
  On whole memrefs, the inputs' at their contents, the body runs to its return handing the inputs' back as they were;
  what each buffer it stores into ends with is given as the list of its stores (last first), found by the run.
-/
import proofs.«144787_j3307124818573_2_alg».proof.Proof.KReg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case A: key tile 0: the three running quantities are reset, then one step of the running softmax is taken; the output tile is left alone. -/
noncomputable def runA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) :
    Σ' (LM : List (View.Piece (Elt F) S512x1 .f32)) (LL : List (View.Piece (Elt F) S512x1 .f32)), { LA : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%da, %fa, -, HA⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.Kernel.Reg1

end
-- ==== Proof.KReg1RunB.lean ====
/-
  The attention region's body in one of its five cases — a key tile after the first, not after the query tile and not the last: one step of the running softmax from the carried quantities; the output tile is left alone.
  On whole memrefs, the inputs' at their contents, the body runs to its return handing the inputs' back as they were;
  what each buffer it stores into ends with is given as the list of its stores (last first), found by the run.
-/
import proofs.«144787_j3307124818573_2_alg».proof.Proof.KReg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case B: a key tile after the first, not after the query tile and not the last: one step of the running softmax from the carried quantities; the output tile is left alone. -/
noncomputable def runB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    Σ' (LM : List (View.Piece (Elt F) S512x1 .f32)) (LL : List (View.Piece (Elt F) S512x1 .f32)), { LA : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.Kernel.Reg1

end
-- ==== Proof.KReg1RunC.lean ====
/-
  The attention region's body in one of its five cases — the last key tile on the diagonal: one step from the carried quantities, then the quotient is stored into the output tile.
  On whole memrefs, the inputs' at their contents, the body runs to its return handing the inputs' back as they were;
  what each buffer it stores into ends with is given as the list of its stores (last first), found by the run.
-/
import proofs.«144787_j3307124818573_2_alg».proof.Proof.KReg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case C: the last key tile on the diagonal: one step from the carried quantities, then the quotient is stored into the output tile. -/
noncomputable def runC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    Σ' (L3 : List (View.Piece (Elt F) S1x512x64 .bf16)) (LM : List (View.Piece (Elt F) S512x1 .f32)) (LL : List (View.Piece (Elt F) S512x1 .f32)), { LA : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]; · iexists _; iexact HM
    isplitl [HL]; · iexists _; iexact HL
    iexists _; iexact HA

end Cert.Kernel.Reg1

end
-- ==== Proof.KReg1RunD.lean ====
/-
  The attention region's body in one of its five cases — a key tile after the query tile and not the last: nothing is read or written.
  On whole memrefs, the inputs' at their contents, the body runs to its return handing the inputs' back as they were;
  what each buffer it stores into ends with is given as the list of its stores (last first), found by the run.
-/
import proofs.«144787_j3307124818573_2_alg».proof.Proof.KReg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case D: a key tile after the query tile and not the last: nothing is read or written. -/
theorem runD (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1_kernel i arg3 harg3 arg4 harg4 arg5 harg5 arg6 harg6 arg7 harg7 arg8 harg8 arg9 harg9) K := by
  refine fun xi3 E K => ?run
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]
    · iexists _; isplitr; · ipureintro; exact harg7.read_unread _
      iexact HM
    isplitl [HL]
    · iexists _; isplitr; · ipureintro; exact harg8.read_unread _
      iexact HL
    iexists _; isplitr; · ipureintro; exact harg9.read_unread _
    iexact HA

end Cert.Kernel.Reg1

end
-- ==== Proof.KReg1RunE.lean ====
/-
  The attention region's body in one of its five cases — the last key tile, after the query tile: no step; the quotient of the carried sums is stored into the output tile.
  On whole memrefs, the inputs' at their contents, the body runs to its return handing the inputs' back as they were;
  what each buffer it stores into ends with is given as the list of its stores (last first), found by the run.
-/
import proofs.«144787_j3307124818573_2_alg».proof.Proof.KReg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case E: the last key tile, after the query tile: no step; the quotient of the carried sums is stored into the output tile. -/
noncomputable def runE (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    { L3 : List (View.Piece (Elt F) S1x512x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg7.eq_unread hfm; obtain rfl := harg8.eq_unread hfl; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]
    · iexists _; isplitr; · ipureintro; exact harg7.read_unread _
      iexact HM
    isplitl [HL]
    · iexists _; isplitr; · ipureintro; exact harg8.read_unread _
      iexact HL
    iexists _; isplitr; · ipureintro; exact harg9.read_unread _
    iexact HA

end Cert.Kernel.Reg1

end
-- ==== Proof.KReg1.lean ====
/-
  The attention region: what its buffers hold point by point, its proof data and its body obligation.

  After the body at point t the output tile's buffer and the three carried buffers (row maxima, row normalisers,
  weighted sums) hold what the point's case leaves: at key tile 0 the reset followed by one step; at a later key tile
  not after the query tile one step from what the point before left; at a key tile after the query tile what the
  point before left, unchanged; and at key tile 3 the output tile holds the quotient of the weighted sums by the
  normalisers. The recursion over the points is outsAt; the region's invariant holds the three carried buffers at
  outsAt's components; the body obligation is a case split on the point's three conditions in closed form.
-/
import proofs.«144787_j3307124818573_2_alg».proof.Proof.KReg1RunA
import proofs.«144787_j3307124818573_2_alg».proof.Proof.KReg1RunB
import proofs.«144787_j3307124818573_2_alg».proof.Proof.KReg1RunC
import proofs.«144787_j3307124818573_2_alg».proof.Proof.KReg1RunD
import proofs.«144787_j3307124818573_2_alg».proof.Proof.KReg1RunE

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the stores into this buffer tile it. -/
theorem cover_soutM_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) (y : S512x1.Idx) :
    ∃ pc ∈ (runA c i arg3 harg3 arg4 harg4 arg5 harg5 arg6 harg6 arg7 harg7 arg8 harg8 arg9 harg9 hc0 hc1 hc2 x0 x1 x2).1, y ∈ pc.1.set :=
  View.cover_of_tiledL (runA c i arg3 harg3 arg4 harg4 arg5 harg5 arg6 harg6 arg7 harg7 arg8 harg8 arg9 harg9 hc0 hc1 hc2 x0 x1 x2).1 S512x1.size (by sl_kernel_rfl) y
/-- Case A: what the buffer holds afterwards, its stores read back. -/
def soutM_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) : Vec F S512x1 .f32 :=
  VSM.read (Elt F) (VSM.writes (Elt F) VSM.junk (runA c i arg3 harg3 arg4 harg4 arg5 harg5 arg6 harg6 arg7 harg7 arg8 harg8 arg9 harg9 hc0 hc1 hc2 x0 x1 x2).1)

/-- Case A: the stores into this buffer tile it. -/
theorem cover_soutL_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) (y : S512x1.Idx) :
    ∃ pc ∈ (runA c i arg3 harg3 arg4 harg4 arg5 harg5 arg6 harg6 arg7 harg7 arg8 harg8 arg9 harg9 hc0 hc1 hc2 x0 x1 x2).2.1, y ∈ pc.1.set :=
  View.cover_of_tiledL (runA c i arg3 harg3 arg4 harg4 arg5 harg5 arg6 harg6 arg7 harg7 arg8 harg8 arg9 harg9 hc0 hc1 hc2 x0 x1 x2).2.1 S512x1.size (by sl_kernel_rfl) y
/-- Case A: what the buffer holds afterwards, its stores read back. -/
def soutL_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) : Vec F S512x1 .f32 :=
  VSL.read (Elt F) (VSL.writes (Elt F) VSL.junk (runA c i arg3 harg3 arg4 harg4 arg5 harg5 arg6 harg6 arg7 harg7 arg8 harg8 arg9 harg9 hc0 hc1 hc2 x0 x1 x2).2.1)

/-- Case A: the stores into this buffer tile it. -/
theorem cover_soutA_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) (y : S512x64.Idx) :
    ∃ pc ∈ (runA c i arg3 harg3 arg4 harg4 arg5 harg5 arg6 harg6 arg7 harg7 arg8 harg8 arg9 harg9 hc0 hc1 hc2 x0 x1 x2).2.2.1, y ∈ pc.1.set :=
  View.cover_of_tiledL (runA c i arg3 harg3 arg4 harg4 arg5 harg5 arg6 harg6 arg7 harg7 arg8 harg8 arg9 harg9 hc0 hc1 hc2 x0 x1 x2).2.2.1 S512x64.size (by sl_kernel_rfl) y
/-- Case A: what the buffer holds afterwards, its stores read back. -/
def soutA_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) : Vec F S512x64 .f32 :=
  VSA.read (Elt F) (VSA.writes (Elt F) VSA.junk (runA c i arg3 harg3 arg4 harg4 arg5 harg5 arg6 harg6 arg7 harg7 arg8 harg8 arg9 harg9 hc0 hc1 hc2 x0 x1 x2).2.2.1)

/-- Case B: the stores into this buffer tile it. -/
theorem cover_soutM_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runB c i arg3 harg3 arg4 harg4 arg5 harg5 arg6 harg6 arg7 harg7 arg8 harg8 arg9 harg9 hc0 hc1 hc2 x0 x1 x2 xm xl xa).1, y ∈ pc.1.set :=
  View.cover_of_tiledL (runB c i arg3 harg3 arg4 harg4 arg5 harg5 arg6 harg6 arg7 harg7 arg8 harg8 arg9 harg9 hc0 hc1 hc2 x0 x1 x2 xm xl xa).1 S512x1.size (by sl_kernel_rfl) y
/-- Case B: what the buffer holds afterwards, its stores read back. -/
def soutM_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSM.read (Elt F) (VSM.writes (Elt F) VSM.junk (runB c i arg3 harg3 arg4 harg4 arg5 harg5 arg6 harg6 arg7 harg7 arg8 harg8 arg9 harg9 hc0 hc1 hc2 x0 x1 x2 xm xl xa).1)

/-- Case B: the stores into this buffer tile it. -/
theorem cover_soutL_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runB c i arg3 harg3 arg4 harg4 arg5 harg5 arg6 harg6 arg7 harg7 arg8 harg8 arg9 harg9 hc0 hc1 hc2 x0 x1 x2 xm xl xa).2.1, y ∈ pc.1.set :=
  View.cover_of_tiledL (runB c i arg3 harg3 arg4 harg4 arg5 harg5 arg6 harg6 arg7 harg7 arg8 harg8 arg9 harg9 hc0 hc1 hc2 x0 x1 x2 xm xl xa).2.1 S512x1.size (by sl_kernel_rfl) y
/-- Case B: what the buffer holds afterwards, its stores read back. -/
def soutL_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSL.read (Elt F) (VSL.writes (Elt F) VSL.junk (runB c i arg3 harg3 arg4 harg4 arg5 harg5 arg6 harg6 arg7 harg7 arg8 harg8 arg9 harg9 hc0 hc1 hc2 x0 x1 x2 xm xl xa).2.1)

/-- Case B: the stores into this buffer tile it. -/
theorem cover_soutA_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x64.Idx) :
    ∃ pc ∈ (runB c i arg3 harg3 arg4 harg4 arg5 harg5 arg6 harg6 arg7 harg7 arg8 harg8 arg9 harg9 hc0 hc1 hc2 x0 x1 x2 xm xl xa).2.2.1, y ∈ pc.1.set :=
  View.cover_of_tiledL (runB c i arg3 harg3 arg4 harg4 arg5 harg5 arg6 harg6 arg7 harg7 arg8 harg8 arg9 harg9 hc0 hc1 hc2 x0 x1 x2 xm xl xa).2.2.1 S512x64.size (by sl_kernel_rfl) y
/-- Case B: what the buffer holds afterwards, its stores read back. -/
def soutA_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x64 .f32 :=
  VSA.read (Elt F) (VSA.writes (Elt F) VSA.junk (runB c i arg3 harg3 arg4 harg4 arg5 harg5 arg6 harg6 arg7 harg7 arg8 harg8 arg9 harg9 hc0 hc1 hc2 x0 x1 x2 xm xl xa).2.2.1)

/-- Case C: the stores into this buffer tile it. -/
theorem cover_out_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S1x512x64.Idx) :
    ∃ pc ∈ (runC c i arg3 harg3 arg4 harg4 arg5 harg5 arg6 harg6 arg7 harg7 arg8 harg8 arg9 harg9 hc0 hc1 hc2 x0 x1 x2 xm xl xa).1, y ∈ pc.1.set :=
  View.cover_of_tiledL (runC c i arg3 harg3 arg4 harg4 arg5 harg5 arg6 harg6 arg7 harg7 arg8 harg8 arg9 harg9 hc0 hc1 hc2 x0 x1 x2 xm xl xa).1 S1x512x64.size (by sl_kernel_rfl) y
/-- Case C: what the buffer holds afterwards, its stores read back. -/
def out_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S1x512x64 .bf16 :=
  VO3.read (Elt F) (VO3.writes (Elt F) VO3.junk (runC c i arg3 harg3 arg4 harg4 arg5 harg5 arg6 harg6 arg7 harg7 arg8 harg8 arg9 harg9 hc0 hc1 hc2 x0 x1 x2 xm xl xa).1)

/-- Case C: the stores into this buffer tile it. -/
theorem cover_soutM_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runC c i arg3 harg3 arg4 harg4 arg5 harg5 arg6 harg6 arg7 harg7 arg8 harg8 arg9 harg9 hc0 hc1 hc2 x0 x1 x2 xm xl xa).2.1, y ∈ pc.1.set :=
  View.cover_of_tiledL (runC c i arg3 harg3 arg4 harg4 arg5 harg5 arg6 harg6 arg7 harg7 arg8 harg8 arg9 harg9 hc0 hc1 hc2 x0 x1 x2 xm xl xa).2.1 S512x1.size (by sl_kernel_rfl) y
/-- Case C: what the buffer holds afterwards, its stores read back. -/
def soutM_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSM.read (Elt F) (VSM.writes (Elt F) VSM.junk (runC c i arg3 harg3 arg4 harg4 arg5 harg5 arg6 harg6 arg7 harg7 arg8 harg8 arg9 harg9 hc0 hc1 hc2 x0 x1 x2 xm xl xa).2.1)

/-- Case C: the stores into this buffer tile it. -/
theorem cover_soutL_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x1.Idx) :
    ∃ pc ∈ (runC c i arg3 harg3 arg4 harg4 arg5 harg5 arg6 harg6 arg7 harg7 arg8 harg8 arg9 harg9 hc0 hc1 hc2 x0 x1 x2 xm xl xa).2.2.1, y ∈ pc.1.set :=
  View.cover_of_tiledL (runC c i arg3 harg3 arg4 harg4 arg5 harg5 arg6 harg6 arg7 harg7 arg8 harg8 arg9 harg9 hc0 hc1 hc2 x0 x1 x2 xm xl xa).2.2.1 S512x1.size (by sl_kernel_rfl) y
/-- Case C: what the buffer holds afterwards, its stores read back. -/
def soutL_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x1 .f32 :=
  VSL.read (Elt F) (VSL.writes (Elt F) VSL.junk (runC c i arg3 harg3 arg4 harg4 arg5 harg5 arg6 harg6 arg7 harg7 arg8 harg8 arg9 harg9 hc0 hc1 hc2 x0 x1 x2 xm xl xa).2.2.1)

/-- Case C: the stores into this buffer tile it. -/
theorem cover_soutA_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S512x64.Idx) :
    ∃ pc ∈ (runC c i arg3 harg3 arg4 harg4 arg5 harg5 arg6 harg6 arg7 harg7 arg8 harg8 arg9 harg9 hc0 hc1 hc2 x0 x1 x2 xm xl xa).2.2.2.1, y ∈ pc.1.set :=
  View.cover_of_tiledL (runC c i arg3 harg3 arg4 harg4 arg5 harg5 arg6 harg6 arg7 harg7 arg8 harg8 arg9 harg9 hc0 hc1 hc2 x0 x1 x2 xm xl xa).2.2.2.1 S512x64.size (by sl_kernel_rfl) y
/-- Case C: what the buffer holds afterwards, its stores read back. -/
def soutA_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S512x64 .f32 :=
  VSA.read (Elt F) (VSA.writes (Elt F) VSA.junk (runC c i arg3 harg3 arg4 harg4 arg5 harg5 arg6 harg6 arg7 harg7 arg8 harg8 arg9 harg9 hc0 hc1 hc2 x0 x1 x2 xm xl xa).2.2.2.1)

/-- Case E: the stores into this buffer tile it. -/
theorem cover_out_E (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) (y : S1x512x64.Idx) :
    ∃ pc ∈ (runE c i arg3 harg3 arg4 harg4 arg5 harg5 arg6 harg6 arg7 harg7 arg8 harg8 arg9 harg9 hc0 hc1 hc2 x0 x1 x2 xm xl xa).1, y ∈ pc.1.set :=
  View.cover_of_tiledL (runE c i arg3 harg3 arg4 harg4 arg5 harg5 arg6 harg6 arg7 harg7 arg8 harg8 arg9 harg9 hc0 hc1 hc2 x0 x1 x2 xm xl xa).1 S1x512x64.size (by sl_kernel_rfl) y
/-- Case E: what the buffer holds afterwards, its stores read back. -/
def out_E (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) : Vec F S1x512x64 .bf16 :=
  VO3.read (Elt F) (VO3.writes (Elt F) VO3.junk (runE c i arg3 harg3 arg4 harg4 arg5 harg5 arg6 harg6 arg7 harg7 arg8 harg8 arg9 harg9 hc0 hc1 hc2 x0 x1 x2 xm xl xa).1)

/-- The output tile's buffer at a point that stores nothing into it: contents nothing consults (the window is idle
    there and is not written back). -/
def junkOut : Vec F S1x512x64 .bf16 := VO3.read (Elt F) VO3.junk

/-- The output tile's buffer and the three carried buffers after a point. -/
abbrev St (F : FTy → Type) : Type := Vec F S1x512x64 .bf16 × Vec F S512x1 .f32 × Vec F S512x1 .f32 × Vec F S512x64 .f32

theorem c1_of_c0 {n : ℕ} (h0 : n % 4 = 0) : n % 4 ≤ (n / 4) % 4 := by omega
theorem nc2_of_c0 {n : ℕ} (h0 : n % 4 = 0) : ¬n % 4 = 3 := by omega

/-! ## The recursion over the points -/

/-- What the output tile's buffer and the carried buffers hold after the body at position n: the case the closed
    forms select, run at the point's memrefs and input blocks, the carried buffers at what position n - 1 left. -/
def outsAt (c : Dev nD) : (n : ℕ) → n < cfg1.N → St F
  | 0, hn => (fun (h0 : (⟨0, hn⟩ : Fin cfg1.N).val % 4 = 0) (h1 : (⟨0, hn⟩ : Fin cfg1.N).val % 4 ≤ ((⟨0, hn⟩ : Fin cfg1.N).val / 4) % 4) (h2 : ¬(⟨0, hn⟩ : Fin cfg1.N).val % 4 = 3) =>
      (junkOut, soutM_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcond0 ⟨0, hn⟩).mpr h0) ((hcond1 ⟨0, hn⟩).mpr h1) (fun h => h2 ((hcond2 ⟨0, hn⟩).mp h)) (iblk V c 0 ⟨0, hn⟩) (iblk V c 1 ⟨0, hn⟩) (iblk V c 2 ⟨0, hn⟩), soutL_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcond0 ⟨0, hn⟩).mpr h0) ((hcond1 ⟨0, hn⟩).mpr h1) (fun h => h2 ((hcond2 ⟨0, hn⟩).mp h)) (iblk V c 0 ⟨0, hn⟩) (iblk V c 1 ⟨0, hn⟩) (iblk V c 2 ⟨0, hn⟩), soutA_A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcond0 ⟨0, hn⟩).mpr h0) ((hcond1 ⟨0, hn⟩).mpr h1) (fun h => h2 ((hcond2 ⟨0, hn⟩).mp h)) (iblk V c 0 ⟨0, hn⟩) (iblk V c 1 ⟨0, hn⟩) (iblk V c 2 ⟨0, hn⟩))) (Nat.zero_mod _) (Nat.zero_le _) (by dsimp only; omega)
  | n + 1, hn =>
    if h0 : (n + 1) % 4 = 0 then
      (fun (h1 : (n + 1) % 4 ≤ ((n + 1) / 4) % 4) (h2 : ¬(n + 1) % 4 = 3) =>
        (junkOut, soutM_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcond0 ⟨n + 1, hn⟩).mpr h0) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩), soutL_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcond0 ⟨n + 1, hn⟩).mpr h0) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩), soutA_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcond0 ⟨n + 1, hn⟩).mpr h0) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩))) (c1_of_c0 h0) (nc2_of_c0 h0)
    else if h1 : (n + 1) % 4 ≤ ((n + 1) / 4) % 4 then
      if h2 : (n + 1) % 4 = 3 then
        (out_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutM_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutL_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutA_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
      else
        (junkOut, soutM_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutL_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, soutA_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) ((hcond1 ⟨n + 1, hn⟩).mpr h1) (fun h => h2 ((hcond2 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
    else
      if h2 : (n + 1) % 4 = 3 then
        (out_E c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcond0 ⟨n + 1, hn⟩).mp h)) (fun h => h1 ((hcond1 ⟨n + 1, hn⟩).mp h)) ((hcond2 ⟨n + 1, hn⟩).mpr h2) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, (outsAt c n (Nat.lt_of_succ_lt hn)).2.1, (outsAt c n (Nat.lt_of_succ_lt hn)).2.2.1, (outsAt c n (Nat.lt_of_succ_lt hn)).2.2.2)
      else
        (junkOut, (outsAt c n (Nat.lt_of_succ_lt hn)).2.1, (outsAt c n (Nat.lt_of_succ_lt hn)).2.2.1, (outsAt c n (Nat.lt_of_succ_lt hn)).2.2.2)

/-- outsAt at a point of key tile 0: the reset and one step. -/
theorem outsAt_A (c : Dev nD) (t : Fin cfg1.N) (h0 : t.val % 4 = 0) (h1 : t.val % 4 ≤ (t.val / 4) % 4) (h2 : ¬t.val % 4 = 3) :
    outsAt V c t.val t.isLt = (junkOut, soutM_A c (grid1.coords t) (ms0 t) (hs0 t) (ms1 t) (hs1 t) (ms2 t) (hs2 t) (ms3 t) (hs3 t) scM (Memref.isWhole_whole _) scL (Memref.isWhole_whole _) scA (Memref.isWhole_whole _) ((hcond0 t).mpr h0) ((hcond1 t).mpr h1) (fun h => h2 ((hcond2 t).mp h)) (iblk V c 0 t) (iblk V c 1 t) (iblk V c 2 t), soutL_A c (grid1.coords t) (ms0 t) (hs0 t) (ms1 t) (hs1 t) (ms2 t) (hs2 t) (ms3 t) (hs3 t) scM (Memref.isWhole_whole _) scL (Memref.isWhole_whole _) scA (Memref.isWhole_whole _) ((hcond0 t).mpr h0) ((hcond1 t).mpr h1) (fun h => h2 ((hcond2 t).mp h)) (iblk V c 0 t) (iblk V c 1 t) (iblk V c 2 t), soutA_A c (grid1.coords t) (ms0 t) (hs0 t) (ms1 t) (hs1 t) (ms2 t) (hs2 t) (ms3 t) (hs3 t) scM (Memref.isWhole_whole _) scL (Memref.isWhole_whole _) scA (Memref.isWhole_whole _) ((hcond0 t).mpr h0) ((hcond1 t).mpr h1) (fun h => h2 ((hcond2 t).mp h)) (iblk V c 0 t) (iblk V c 1 t) (iblk V c 2 t)) := by
  obtain ⟨n, hn⟩ := t
  cases n with
  | zero => rfl
  | succ n => exact (dif_pos h0).trans rfl

/-- outsAt at a point of case B: a key tile after the first, not after the query tile and not the last: one step of the running softmax from the carried quantities; the output tile is left alone. -/
theorem outsAt_B (c : Dev nD) (t : Fin cfg1.N) (h0 : ¬t.val % 4 = 0) (h1 : t.val % 4 ≤ (t.val / 4) % 4) (h2 : ¬t.val % 4 = 3) :
    outsAt V c t.val t.isLt = (junkOut, soutM_B c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) (fun h => h2 ((hcond2 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutL_B c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) (fun h => h2 ((hcond2 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutA_B c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) (fun h => h2 ((hcond2 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_neg h2).trans rfl))

/-- outsAt at a point of case C: the last key tile on the diagonal: one step from the carried quantities, then the quotient is stored into the output tile. -/
theorem outsAt_C (c : Dev nD) (t : Fin cfg1.N) (h0 : ¬t.val % 4 = 0) (h1 : t.val % 4 ≤ (t.val / 4) % 4) (h2 : t.val % 4 = 3) :
    outsAt V c t.val t.isLt = (out_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutM_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutL_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutA_C c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) ((hcond1 t).mpr h1) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_pos h2).trans rfl))

/-- outsAt at a point of case D: a key tile after the query tile and not the last: nothing is read or written. -/
theorem outsAt_D (c : Dev nD) (t : Fin cfg1.N) (h0 : ¬t.val % 4 = 0) (h1 : ¬t.val % 4 ≤ (t.val / 4) % 4) (h2 : ¬t.val % 4 = 3) :
    outsAt V c t.val t.isLt = (junkOut, (outsAt V c (t.val - 1) (Nat.lt_of_le_of_lt (Nat.sub_le _ _) t.isLt)).2.1, (outsAt V c (t.val - 1) (Nat.lt_of_le_of_lt (Nat.sub_le _ _) t.isLt)).2.2.1, (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_neg h2).trans rfl))

/-- outsAt at a point of case E: the last key tile, after the query tile: no step; the quotient of the carried sums is stored into the output tile. -/
theorem outsAt_E (c : Dev nD) (t : Fin cfg1.N) (h0 : ¬t.val % 4 = 0) (h1 : ¬t.val % 4 ≤ (t.val / 4) % 4) (h2 : t.val % 4 = 3) :
    outsAt V c t.val t.isLt = (out_E c (grid1.coords t) (ms0 t) (hs0 t) (ms1 t) (hs1 t) (ms2 t) (hs2 t) (ms3 t) (hs3 t) scM (Memref.isWhole_whole _) scL (Memref.isWhole_whole _) scA (Memref.isWhole_whole _) (fun h => h0 ((hcond0 t).mp h)) (fun h => h1 ((hcond1 t).mp h)) ((hcond2 t).mpr h2) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, (outsAt V c (t.val - 1) (Nat.lt_of_le_of_lt (Nat.sub_le _ _) t.isLt)).2.1, (outsAt V c (t.val - 1) (Nat.lt_of_le_of_lt (Nat.sub_le _ _) t.isLt)).2.2.1, (outsAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_pos h2).trans rfl))

/-! ## The region's invariant, point by point -/

/-- Every other scoped buffer of the core that is no staging buffer of this region, at some contents: carried unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's invariant with the three carried buffers as memrefs owned at some contents. -/
theorem PhiA_split (c : Dev nD) :
    (Pipeline.ΦA spec1 c : sProp 𝕄)
      = iprop(iprop(iprop((∃ d, owns (c : Thread nD τ) scM fullShare d) ∗ (∃ d, owns (c : Thread nD τ) scL fullShare d) ∗ (∃ d, owns (c : Thread nD τ) scA fullShare d)) ∗ Rest1 (F := F) c) ∗ (∃ r, prngReg c r)) := by
  unfold Pipeline.ΦA
  rw [Pipeline.scopedRest_split_of_list spec1 c [cc1_scratch0, cc1_scratch1, cc1_scratch2] (by decide) (by decide)]
  simp only [scM, scL, scA, owns_whole]; try rfl

/-- Before position n: before the first point the class's invariant (every scratch at anything); afterwards the three
    carried buffers at what the point before left. -/
def PhiS (c : Dev nD) : (n : ℕ) → n ≤ cfg1.N → sProp 𝕄
  | 0, _ => Pipeline.ΦA spec1 c
  | n + 1, hn => iprop(iprop(iprop(owns (c : Thread nD τ) scM fullShare ((outsAt V c n hn).2.1) ∗ owns (c : Thread nD τ) scL fullShare ((outsAt V c n hn).2.2.1) ∗ owns (c : Thread nD τ) scA fullShare ((outsAt V c n hn).2.2.2)) ∗ Rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM fullShare ((outsAt V c n hn).2.1) ∗ owns (c : Thread nD τ) scL fullShare ((outsAt V c n hn).2.2.1) ∗ owns (c : Thread nD τ) scA fullShare ((outsAt V c n hn).2.2.2)) ∗ Rest1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM fullShare ((outsAt V c (n - 1) (by omega)).2.1) ∗ owns (c : Thread nD τ) scL fullShare ((outsAt V c (n - 1) (by omega)).2.2.1) ∗ owns (c : Thread nD τ) scA fullShare ((outsAt V c (n - 1) (by omega)).2.2.2)) ∗ Rest1 (F := F) c) ∗ (∃ r, prngReg c r)) := by
  cases n with
  | zero => exact absurd rfl hz
  | succ n => rfl

/-! ## The proof data -/

/-- The region's proof data on core c: the arrays as the region finds them; after the body at point t each input's
    buffer at its block and the output tile's at outsAt's first component; the invariant PhiS; nothing owed. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = (outsAt V c t.val t.isLt).1 := by dsimp only [dat1]

theorem before_0 (c : Dev nD) (t : Fin cfg1.N) (d) : (dat1 V c).before 0 t d = iblk V c 0 t :=
  before_0_of V (dat1 V c) (A_eq1 V c 0) (after_0 V c) t d
theorem before_1 (c : Dev nD) (t : Fin cfg1.N) (d) : (dat1 V c).before 1 t d = iblk V c 1 t :=
  before_1_of V (dat1 V c) (A_eq1 V c 1) (after_1 V c) t d
theorem before_2 (c : Dev nD) (t : Fin cfg1.N) (d) : (dat1 V c).before 2 t d = iblk V c 2 t :=
  before_2_of V (dat1 V c) (A_eq1 V c 2) (after_2 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at a point of case A. -/
theorem sound_body_A (c : Dev nD) (t : Fin cfg1.N) (h0 : t.val % 4 = 0) (h1 : t.val % 4 ≤ (t.val / 4) % 4) (h2 : ¬t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [Dat.leavesExact_idle (dat1 V c) 3 t (idle_3 t (fun h => h2 ((hcond2 t).mp h))) (noFlush_3 t (fun h => h2 ((hcond2 t).mp h)))]
  rw [outsAt_A V c t h0 h1 h2]
  unfold soutM_A soutL_A soutA_A; (try dsimp only)
  by_cases hz : t.val = 0
  ·
    rw [PhiS_castSucc V c t, PhiS_zero V c _ _ hz, PhiA_split]
    iintro ⟨⟨⟨⟨HSM, HSL, HSA⟩, HR⟩, Hg⟩, Ho, ⟨%d0, H0⟩, ⟨%d1, H1⟩, ⟨%d2, H2⟩, ⟨%d3, H3⟩⟩
    iapply ((runA c (grid1.coords t) _ _ _ _ _ _ _ _ _ _ _ _ _ _ ((hcond0 t).mpr h0) ((hcond1 t).mpr h1) (fun h => h2 ((hcond2 t).mp h)) (iblk V c 0 t) (iblk V c 1 t) (iblk V c 2 t)).2.2.2 _ Set.univ _)
    isplitl [H0]; · iexact H0
    isplitl [H1]; · iexact H1
    isplitl [H2]; · iexact H2
    isplitl [H3]; · iexact H3
    isplitl [HSM]; · iexact HSM
    isplitl [HSL]; · iexact HSL
    isplitl [HSA]; · iexact HSA
    iintro ⟨H0, H1, H2, H3, ⟨%em, HSM⟩, ⟨%el, HSL⟩, ⟨%ea, HSA⟩⟩
    isplitl [HSM HSL HSA HR Hg]
    · isplitl [HSM HSL HSA HR]
      · isplitl [HSM HSL HSA]
        · isplitl [HSM]
          · unfold owns; iexists _; isplitr
            swap; · iexact HSM
            ipureintro; exact View.read_writes_of_cover _ _ _ _ _ (cover_soutM_A c _ _ _ _ _ _ _ _ _ _ _ _ _ _ _ _ _ _ _ _ _)
          isplitl [HSL]
          · unfold owns; iexists _; isplitr
            swap; · iexact HSL
            ipureintro; exact View.read_writes_of_cover _ _ _ _ _ (cover_soutL_A c _ _ _ _ _ _ _ _ _ _ _ _ _ _ _ _ _ _ _ _ _)
          unfold owns; iexists _; isplitr
          swap; · iexact HSA
          ipureintro; exact View.read_writes_of_cover _ _ _ _ _ (cover_soutA_A c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  ·
    rw [PhiS_castSucc V c t, PhiS_pos V c _ _ hz]
    iintro ⟨⟨⟨⟨HSM, HSL, HSA⟩, HR⟩, Hg⟩, Ho, ⟨%d0, H0⟩, ⟨%d1, H1⟩, ⟨%d2, H2⟩, ⟨%d3, H3⟩⟩
    iapply ((runA c (grid1.coords t) _ _ _ _ _ _ _ _ _ _ _ _ _ _ ((hcond0 t).mpr h0) ((hcond1 t).mpr h1) (fun h => h2 ((hcond2 t).mp h)) (iblk V c 0 t) (iblk V c 1 t) (iblk V c 2 t)).2.2.2 _ Set.univ _)
    isplitl [H0]; · iexact H0
    isplitl [H1]; · iexact H1
    isplitl [H2]; · iexact H2
    isplitl [H3]; · iexact H3
    isplitl [HSM]; · iexists _; iexact HSM
    isplitl [HSL]; · iexists _; iexact HSL
    isplitl [HSA]; · iexists _; iexact HSA
    iintro ⟨H0, H1, H2, H3, ⟨%em, HSM⟩, ⟨%el, HSL⟩, ⟨%ea, HSA⟩⟩
    isplitl [HSM HSL HSA HR Hg]
    · isplitl [HSM HSL HSA HR]
      · isplitl [HSM HSL HSA]
        · isplitl [HSM]
          · unfold owns; iexists _; isplitr
            swap; · iexact HSM
            ipureintro; exact View.read_writes_of_cover _ _ _ _ _ (cover_soutM_A c _ _ _ _ _ _ _ _ _ _ _ _ _ _ _ _ _ _ _ _ _)
          isplitl [HSL]
          · unfold owns; iexists _; isplitr
            swap; · iexact HSL
            ipureintro; exact View.read_writes_of_cover _ _ _ _ _ (cover_soutL_A c _ _ _ _ _ _ _ _ _ _ _ _ _ _ _ _ _ _ _ _ _)
          unfold owns; iexists _; isplitr
          swap; · iexact HSA
          ipureintro; exact View.read_writes_of_cover _ _ _ _ _ (cover_soutA_A c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3

set_option maxHeartbeats 4800000 in
/-- The body at a point of case B. -/
theorem sound_body_B (c : Dev nD) (t : Fin cfg1.N) (h0 : ¬t.val % 4 = 0) (h1 : t.val % 4 ≤ (t.val / 4) % 4) (h2 : ¬t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [Dat.leavesExact_idle (dat1 V c) 3 t (idle_3 t (fun h => h2 ((hcond2 t).mp h))) (noFlush_3 t (fun h => h2 ((hcond2 t).mp h)))]
  rw [outsAt_B V c t h0 h1 h2]
  unfold soutM_B soutL_B soutA_B; (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply ((runB c (grid1.coords t) _ _ _ _ _ _ _ _ _ _ _ _ _ _ (fun h => h0 ((hcond0 t).mp h)) ((hcond1 t).mpr h1) (fun h => h2 ((hcond2 t).mp h)) (iblk V c 0 t) (iblk V c 1 t) (iblk V c 2 t) _ _ _).2.2.2 _ Set.univ _)
  isplitl [H0]; · iexact H0
  isplitl [H1]; · iexact H1
  isplitl [H2]; · iexact H2
  isplitl [H3]; · iexact H3
  isplitl [HSM]; · iexact HSM
  isplitl [HSL]; · iexact HSL
  isplitl [HSA]; · iexact HSA
  iintro ⟨H0, H1, H2, H3, ⟨%em, HSM⟩, ⟨%el, HSL⟩, ⟨%ea, HSA⟩⟩
  isplitl [HSM HSL HSA HR Hg]
  · isplitl [HSM HSL HSA HR]
    · isplitl [HSM HSL HSA]
      · isplitl [HSM]
        · unfold owns; iexists _; isplitr
          swap; · iexact HSM
          ipureintro; exact View.read_writes_of_cover _ _ _ _ _ (cover_soutM_B c _ _ _ _ _ _ _ _ _ _ _ _ _ _ _ _ _ _ _ _ _ _ _ _)
        isplitl [HSL]
        · unfold owns; iexists _; isplitr
          swap; · iexact HSL
          ipureintro; exact View.read_writes_of_cover _ _ _ _ _ (cover_soutL_B c _ _ _ _ _ _ _ _ _ _ _ _ _ _ _ _ _ _ _ _ _ _ _ _)
        unfold owns; iexists _; isplitr
        swap; · iexact HSA
        ipureintro; exact View.read_writes_of_cover _ _ _ _ _ (cover_soutA_B c _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  iexists _; iexact H3

set_option maxHeartbeats 4800000 in
/-- The body at a point of case C. -/
theorem sound_body_C (c : Dev nD) (t : Fin cfg1.N) (h0 : ¬t.val % 4 = 0) (h1 : t.val % 4 ≤ (t.val / 4) % 4) (h2 : t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [show (dat1 V c).leavesExact 3 t = owns (c : Thread nD τ) (ms3 t) fullShare ((dat1 V c).after 3 t) from by
    unfold Dat.leavesExact; rw [live_3 t ((hcond2 t).mpr h2)], after_3]
  rw [outsAt_C V c t h0 h1 h2]
  unfold out_C soutM_C soutL_C soutA_C; (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply ((runC c (grid1.coords t) _ _ _ _ _ _ _ _ _ _ _ _ _ _ (fun h => h0 ((hcond0 t).mp h)) ((hcond1 t).mpr h1) ((hcond2 t).mpr h2) (iblk V c 0 t) (iblk V c 1 t) (iblk V c 2 t) _ _ _).2.2.2.2 Set.univ _)
  isplitl [H0]; · iexact H0
  isplitl [H1]; · iexact H1
  isplitl [H2]; · iexact H2
  isplitl [H3]; · iexists _; iexact H3
  isplitl [HSM]; · iexact HSM
  isplitl [HSL]; · iexact HSL
  isplitl [HSA]; · iexact HSA
  iintro ⟨H0, H1, H2, ⟨%e3, H3⟩, ⟨%em, HSM⟩, ⟨%el, HSL⟩, ⟨%ea, HSA⟩⟩
  isplitl [HSM HSL HSA HR Hg]
  · isplitl [HSM HSL HSA HR]
    · isplitl [HSM HSL HSA]
      · isplitl [HSM]
        · unfold owns; iexists _; isplitr
          swap; · iexact HSM
          ipureintro; exact View.read_writes_of_cover _ _ _ _ _ (cover_soutM_C c _ _ _ _ _ _ _ _ _ _ _ _ _ _ _ _ _ _ _ _ _ _ _ _)
        isplitl [HSL]
        · unfold owns; iexists _; isplitr
          swap; · iexact HSL
          ipureintro; exact View.read_writes_of_cover _ _ _ _ _ (cover_soutL_C c _ _ _ _ _ _ _ _ _ _ _ _ _ _ _ _ _ _ _ _ _ _ _ _)
        unfold owns; iexists _; isplitr
        swap; · iexact HSA
        ipureintro; exact View.read_writes_of_cover _ _ _ _ _ (cover_soutA_C c _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out_C c _ _ _ _ _ _ _ _ _ _ _ _ _ _ _ _ _ _ _ _ _ _ _ _)

set_option maxHeartbeats 4800000 in
/-- The body at a point of case D. -/
theorem sound_body_D (c : Dev nD) (t : Fin cfg1.N) (h0 : ¬t.val % 4 = 0) (h1 : ¬t.val % 4 ≤ (t.val / 4) % 4) (h2 : ¬t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [Dat.leavesExact_idle (dat1 V c) 3 t (idle_3 t (fun h => h2 ((hcond2 t).mp h))) (noFlush_3 t (fun h => h2 ((hcond2 t).mp h)))]
  rw [outsAt_D V c t h0 h1 h2]
  (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply (runD c (grid1.coords t) _ _ _ _ _ _ _ _ _ _ _ _ _ _ (fun h => h0 ((hcond0 t).mp h)) (fun h => h1 ((hcond1 t).mp h)) (fun h => h2 ((hcond2 t).mp h)) (iblk V c 0 t) (iblk V c 1 t) (iblk V c 2 t) _ _ _ _ Set.univ _)
  isplitl [H0]; · iexact H0
  isplitl [H1]; · iexact H1
  isplitl [H2]; · iexact H2
  isplitl [H3]; · iexact H3
  isplitl [HSM]; · iexact HSM
  isplitl [HSL]; · iexact HSL
  isplitl [HSA]; · iexact HSA
  iintro ⟨H0, H1, H2, H3, HSM, HSL, HSA⟩
  isplitl [HSM HSL HSA HR Hg]
  · isplitl [HSM HSL HSA HR]
    · isplitl [HSM HSL HSA]
      · isplitl [HSM]
        · iexact HSM
        isplitl [HSL]
        · iexact HSL
        iexact HSA
      iexact HR
    iexact Hg
  isplitl [Ho]; · iexact Ho
  isplitl [H0]; · iexact H0
  isplitl [H1]; · iexact H1
  isplitl [H2]; · iexact H2
  iexists _; iexact H3

set_option maxHeartbeats 4800000 in
/-- The body at a point of case E. -/
theorem sound_body_E (c : Dev nD) (t : Fin cfg1.N) (h0 : ¬t.val % 4 = 0) (h1 : ¬t.val % 4 ≤ (t.val / 4) % 4) (h2 : t.val % 4 = 3) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_0 t], after_0]
  rw [show (dat1 V c).leavesExact 1 t = owns (c : Thread nD τ) (ms1 t) fullShare ((dat1 V c).after 1 t) from by
    unfold Dat.leavesExact; rw [live_1 t], after_1]
  rw [show (dat1 V c).leavesExact 2 t = owns (c : Thread nD τ) (ms2 t) fullShare ((dat1 V c).after 2 t) from by
    unfold Dat.leavesExact; rw [live_2 t], after_2]
  rw [show (dat1 V c).leavesExact 3 t = owns (c : Thread nD τ) (ms3 t) fullShare ((dat1 V c).after 3 t) from by
    unfold Dat.leavesExact; rw [live_3 t ((hcond2 t).mpr h2)], after_3]
  rw [outsAt_E V c t h0 h1 h2]
  unfold out_E; (try dsimp only)
  have hz : t.val ≠ 0 := fun e => h0 (by rw [e])
  rw [PhiS_castSucc V c t, PhiS_pos V c _ _ hz]
  iintro ⟨⟨⟨⟨HSM, HSL, HSA⟩, HR⟩, Hg⟩, Ho, ⟨%d0, H0⟩, ⟨%d1, H1⟩, ⟨%d2, H2⟩, ⟨%d3, H3⟩⟩
  iapply ((runE c (grid1.coords t) _ _ _ _ _ _ _ _ _ _ _ _ _ _ (fun h => h0 ((hcond0 t).mp h)) (fun h => h1 ((hcond1 t).mp h)) ((hcond2 t).mpr h2) (iblk V c 0 t) (iblk V c 1 t) (iblk V c 2 t) _ _ _).2 Set.univ _)
  isplitl [H0]; · iexact H0
  isplitl [H1]; · iexact H1
  isplitl [H2]; · iexact H2
  isplitl [H3]; · iexists _; iexact H3
  isplitl [HSM]; · iexact HSM
  isplitl [HSL]; · iexact HSL
  isplitl [HSA]; · iexact HSA
  iintro ⟨H0, H1, H2, ⟨%e3, H3⟩, HSM, HSL, HSA⟩
  isplitl [HSM HSL HSA HR Hg]
  · isplitl [HSM HSL HSA HR]
    · isplitl [HSM HSL HSA]
      · isplitl [HSM]
        · iexact HSM
        isplitl [HSL]
        · iexact HSL
        iexact HSA
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out_E c _ _ _ _ _ _ _ _ _ _ _ _ _ _ _ _ _ _ _ _ _ _ _ _)

/-- The body at any point: the closed forms say which case the point is in. -/
theorem sound_body (c : Dev nD) (t : Fin cfg1.N) :
    bodyPre V c t ⊢ wp frame (wpE (defs₀ (F := F)) Variants.none c none) Set.univ (bodyAt1 t) (fun _ => bodyPost V c t) := by
  by_cases h0 : t.val % 4 = 0
  · exact sound_body_A V c t h0 (c1_of_c0 h0) (nc2_of_c0 h0)
  · by_cases h1 : t.val % 4 ≤ (t.val / 4) % 4
    · by_cases h2 : t.val % 4 = 3
      · exact sound_body_C V c t h0 h1 h2
      · exact sound_body_B V c t h0 h1 h2
    · by_cases h2 : t.val % 4 = 3
      · exact sound_body_E V c t h0 h1 h2
      · exact sound_body_D V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the carried buffers' named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_split]
  iintro ⟨⟨⟨HSM, HSL, HSA⟩, HR⟩, Hg⟩
  isplitl [HSM HSL HSA HR]
  · isplitl [HSM HSL HSA]
    · isplitl [HSM]; · iexists _; iexact HSM
      isplitl [HSL]; · iexists _; iexact HSL
      iexists _; iexact HSA
    iexact HR
  iexact Hg

/-- The same after the last point. -/
theorem hout1 (c : Dev nD) : (dat1 V c).Φ (Fin.last cfg1.N) ⊢ Pipeline.ΦA spec1 c :=
  Phi_out V c _ (by rw [Fin.val_last]; have : cfg1.N = 512 := N_1; omega)

end Cert.Kernel.Reg1

end
-- ==== Proof.KReg2.lean ====
/-
  The last matrix-product region (pipeline 2): a 8×1×1 grid; at each point the body zeroes its accumulator, adds the
  product of the two input blocks to it, and stores the accumulator plus the bias row, broadcast over the rows, into
  the output block. The third grid axis has extent 1, so both conditionals of the body hold at every point, and the
  accumulator is stored whole before it is read: nothing is carried from point to point.

  Stated at a parameter V, the buffers' contents when the region is entered, and at any float interpretation F.
-/
import proofs.«144787_j3307124818573_2_alg».proof.Proof.Gen.Kernel.Launch
import proofs.«144787_j3307124818573_2_alg».proof.Proof.Gen.Kernel.Skeleton
import proofs.«144787_j3307124818573_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals hold at every point -/

/-- The first conditional's test, from the grid coordinates. -/
abbrev cond2_0 (i : grid2.Coords) : Prop :=
  (Scalar.cmpi .ne (Scalar.extui (Scalar.cmpi .eq (BitVec.ofNat 32 (i 2).val) 0#32)) 0#32) = 1#1
/-- The second conditional's test. -/
abbrev cond2_1 (i : grid2.Coords) : Prop := k2_cond2 i = 1#1

/-- The third axis has one coordinate. -/
theorem i2_zero (i : grid2.Coords) : (i 2).val = 0 := Nat.lt_one_iff.mp (i 2).isLt

theorem hcond2_0 (i : grid2.Coords) : cond2_0 i := by
  unfold cond2_0; rw [i2_zero i]; decide
theorem hcond2_1 (i : grid2.Coords) : cond2_1 i := by
  unfold cond2_1 k2_cond2; rw [i2_zero i]; decide

/-- No window is idle at any point: the second conditional holds there. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The memrefs the body is called with -/

abbrev VO2_3 : View sig .tc .vmem S512x1024 .f32 := (Memref.whole cc2_stg3_0 : Memref sig .tc .vmem S512x1024 .f32).view
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S512x1024 .f32 := Memref.whole cc2_scratch0

/-- Every other scoped buffer of the core that is no staging buffer of this call, at some contents: carried unopened. -/
abbrev Rest2 (c : Dev nD) : sProp 𝕄 :=
  Pipeline.scopedRestBut (Ix := Unit) (Name := ℕ) (U := UR sig nD τ) (Lvl := ℕ) (Val := Elt F) spec2 c [cc2_scratch0]

/-- The region invariant with the accumulator as a memref owned at some contents. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [scM2_0, owns_whole]; try rfl

/-! ## The body on any whole memrefs -/

set_option maxHeartbeats 4000000 in
/-- What the body's stores leave in the output's memref and in the accumulator, as pieces (last first), with the proof
    that on whole memrefs — the inputs' at their contents, the output's and the accumulator's at anything — the body
    runs to the continuation holding the inputs' as they were and the other two with those pieces written. -/
noncomputable def kernelRun2 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .f32) (x2 : Vec F S1x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hcond2_0 i | exact hcond2_1 i)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The pieces the body stores into the output's memref tile it. -/
theorem cover2_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .f32) (x2 : Vec F S1x1024 .f32) (y : S512x1024.Idx) :
    ∃ pc ∈ (kernelRun2 c i arg3 harg3 arg4 harg4 arg5 harg5 arg6 harg6 arg7 harg7 x0 x1 x2).1, y ∈ pc.1.set :=
  View.cover_of_tiledL (kernelRun2 c i arg3 harg3 arg4 harg4 arg5 harg5 arg6 harg6 arg7 harg7 x0 x1 x2).1 S512x1024.size (by sl_kernel_rfl) y

/-- What the body leaves in the output's staging buffer: its pieces read back. -/
def out2_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .bf16) (x1 : Vec F S1024x1024 .f32) (x2 : Vec F S1x1024 .f32) : Vec F S512x1024 .f32 :=
  VO2_3.read (Elt F) (VO2_3.writes (Elt F) VO2_3.junk (kernelRun2 c i arg3 harg3 arg4 harg4 arg5 harg5 arg6 harg6 arg7 harg7 x0 x1 x2).1)

section Region
-- the buffers' contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output window's buffer at point t, from the input blocks there. -/
def outAt2 (c : Dev nD) (t : Fin cfg2.N) : Vec F S512x1024 .f32 :=
  out2_3 c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t)

/-! ## The pipeline's proof data -/

/-- The proof data of pipeline 2 on core c: the arrays as the region finds them; after the body at point t each input's
    buffer at its block and the output's at the body's result of the input blocks; the invariant: every scoped buffer
    that is no staging buffer at anything, the generator register at some state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: the inputs' memrefs hold their blocks, both conditionals hold, so the run applies; the
    invariant hands the body the accumulator at anything and takes it back at anything. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold outAt2 out2_3
  iintro ⟨⟨⟨HS0, HR⟩, Hg⟩, Ho, ⟨%d0, H0⟩, ⟨%d1, H1⟩, ⟨%d2, H2⟩, ⟨%d3, H3⟩⟩
  iapply ((kernelRun2 c (grid2.coords t) _ _ _ _ _ _ _ _ _ _ (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := Idealize.SL.BI.Entails.refl _
/-- and after the last point the invariant is handed back. -/
theorem hout2 (c : Dev nD) : (dat2 V c).Φ (Fin.last cfg2.N) ⊢ Pipeline.ΦA spec2 c := Idealize.SL.BI.Entails.refl _

end Region

end Cert.Kernel.Reg2

end
-- ==== Proof.KTop.lean ====
/-
  The program's run, from the launch to the return.

  @main is four stretches of host operations around three kernel regions. The buffers' contents at each boundary are a
  fold from the launch memory: a host stretch applies its operations; a region leaves each of its output arrays at
  what its write-backs leave and every other buffer as it found it. Each region is entered from the state "every
  unscoped buffer at the boundary's contents, the generator register at some state, nothing owed" and left at the
  same state over the next boundary's contents. Every weakly fair execution terminates without a fault with every
  unscoped buffer at the last boundary's contents: the argument arrays as launched (no host operation writes one and
  no region has one as an output), and the result array at the last stretch's value.
-/
import proofs.«144787_j3307124818573_2_alg».proof.Proof.KReg0
import proofs.«144787_j3307124818573_2_alg».proof.Proof.KReg1
import proofs.«144787_j3307124818573_2_alg».proof.Proof.KReg2
import proofs.«144787_j3307124818573_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Top

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev B0 : Dev nD → Valuation τ sig (Elt F) := fun c b => (s₀ m ρ).mem ((c : Dev nD), b)

/-- After the host stretch hostOps0: region 0's entry. -/
abbrev B1 : Dev nD → Valuation τ sig (Elt F) := fun c => StableHlo.after hostOps0 (B0 m ρ c)
/-- The same read at the TensorCore's references: what region 0's proof data take. -/
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (Reg0.dat0 (E1 m ρ) c).arrAt w cfg0.N
theorem B2_arr (c : Dev nD) (w : Fin cfg0.W) :
    B2 m ρ c (Proc.devRef .tc (Pipeline.arrRef spec0 w)) = (Reg0.dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (Reg0.dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host stretch hostOps1: region 1's entry. -/
abbrev B3 : Dev nD → Valuation τ sig (Elt F) := fun c => StableHlo.after hostOps1 (B2 m ρ c)
/-- The same read at the TensorCore's references: what region 1's proof data take. -/
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (Reg1.dat1 (E3 m ρ) c).arrAt w cfg1.N
theorem B4_arr (c : Dev nD) (w : Fin cfg1.W) :
    B4 m ρ c (Proc.devRef .tc (Pipeline.arrRef spec1 w)) = (Reg1.dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (Reg1.dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the host stretch hostOps2: region 2's entry. -/
abbrev B5 : Dev nD → Valuation τ sig (Elt F) := fun c => StableHlo.after hostOps2 (B4 m ρ c)
/-- The same read at the TensorCore's references: what region 2's proof data take. -/
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (Reg2.dat2 (E5 m ρ) c).arrAt w cfg2.N
theorem B6_arr (c : Dev nD) (w : Fin cfg2.W) :
    B6 m ρ c (Proc.devRef .tc (Pipeline.arrRef spec2 w)) = (Reg2.dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (Reg2.dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch: the return. -/
abbrev B7 : Dev nD → Valuation τ sig (Elt F) := fun c => StableHlo.after hostOps3 (B6 m ρ c)

/-! ## The arguments end as launched -/

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (r := main_arg4) (by decide)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

theorem B7_main_arg5 (c : Dev nD) : B7 m ρ c (Proc.devRef .tc main_arg5) = m ((c : Thread nD τ).loc main_arg5) :=
  calc B7 m ρ c (Proc.devRef .tc main_arg5)
    _ = B6 m ρ c (Proc.devRef .tc main_arg5) := StableHlo.after_of_writes_sub hostOps3 _ hostOps3_writes (r := main_arg5) (by decide)
    _ = B5 m ρ c (Proc.devRef .tc main_arg5) := B6_of_ne m ρ c main_arg5 (by decide)
    _ = B4 m ρ c (Proc.devRef .tc main_arg5) := StableHlo.after_of_writes_sub hostOps2 _ hostOps2_writes (r := main_arg5) (by decide)
    _ = B3 m ρ c (Proc.devRef .tc main_arg5) := B4_of_ne m ρ c main_arg5 (by decide)
    _ = B2 m ρ c (Proc.devRef .tc main_arg5) := StableHlo.after_of_writes_sub hostOps1 _ hostOps1_writes (r := main_arg5) (by decide)
    _ = B1 m ρ c (Proc.devRef .tc main_arg5) := B2_of_ne m ρ c main_arg5 (by decide)
    _ = B0 m ρ c (Proc.devRef .tc main_arg5) := StableHlo.after_of_writes_sub hostOps0 _ hostOps0_writes (r := main_arg5) (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat0 (E1 m ρ) c
  | ⟨1, _⟩ => fun c => Reg1.dat1 (E3 m ρ) c
  | ⟨2, _⟩ => fun c => Reg2.dat2 (E5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (B7 m ρ c) ∗ ∃ r, prngReg c r)

/-- What enters a region's invariant: the generator register and the scoped buffers no window stages. -/
theorem PhiA_in {gr W : Nat} (win : Fin W → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ (Pipeline.ΦA win c : sProp 𝕄) := by
  unfold Pipeline.ΦA
  iintro ⟨Hp, -, Hr⟩
  isplitl [Hr]; · iexact Hr
  iexact Hp

/-- What a region's invariant gives back. -/
theorem PhiA_out {gr W : Nat} (win : Fin W → Pipeline.WinSpec sig gr) (c : Dev nD) :
    (Pipeline.ΦA win c : sProp 𝕄)
      ⊢ (iprop((∃ r, prngReg c r) ∗ BI.emp ∗ Pipeline.scopedRest (Ix := Unit) (Name := ℕ) (U := UR sig nD τ) (Lvl := ℕ) (Val := Elt F) win c) : sProp 𝕄) := by
  unfold Pipeline.ΦA
  iintro ⟨Hr, Hp⟩
  isplitl [Hp]; · iexact Hp
  isplitr; · iempintro
  iexact Hr

/-- The last segment's state is the last thread state beside the core owing nothing. -/
theorem chain_last (c : Dev nD) (Wv : Valuation τ sig (Elt F)) :
    (iprop(StableHlo.held (c : Thread nD τ) (Pipeline.ucRefs τ sig) Wv ∗ R (F := F) c) : sProp 𝕄)
      ⊢ (iprop(iprop(StableHlo.held (c : Thread nD τ) (Pipeline.ucRefs τ sig) Wv ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

-- a library lemma stated over the pinned configuration unifies with the printed one only when unification may unfold
-- plain definitions in a metavariable's type
set_option backward.isDefEq.respectTransparency.types false in
/-- Region 0 over the thread state: entered from every unscoped buffer at B1, left at B2. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in spec0 c _).trans (Reg0.hin0 (E1 m ρ) c)
  hout c := by
    rw [Pipeline.ownSems0_none]
    exact (Reg0.hout0 (E1 m ρ) c).trans (PhiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at B3, left at B4. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in spec1 c _).trans (Reg1.hin1 (E3 m ρ) c)
  hout c := by
    rw [Pipeline.ownSems0_none]
    exact (Reg1.hout1 (E3 m ρ) c).trans (PhiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at B5, left at B6. Its arrays are
    split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in spec2 c _).trans (Reg2.hin2 (E5 m ρ) c)
  hout c := by
    rw [Pipeline.ownSems0_none]
    exact (Reg2.hout2 (E5 m ρ) c).trans (PhiA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsR : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]

theorem main_run (c : Dev nD) : main (F := F) c = Pipeline.Seg.run (segsR m ρ) := (main_chain c).trans (by chain_rfl)

set_option backward.isDefEq.respectTransparency.types false in
/-- THE RUN: from any memory with zero counters every weakly fair execution of @main terminates, nothing faulting,
    and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => chain_last c _⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c)⟩) (run m ρ)

end Cert.Kernel.Top

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.Reg0Value.lean ====
/-
  The first matrix-product region's result array in closed form at the ideal values: entry (r, s) of the [4096, 3072]
  result is the sum over k of entry (r, k) of the left array times entry (k, s) of the right array. At the ideal values
  narrowing to a shorter format is the identity and the zeroed accumulator adds nothing.

  The steps: what the body's stores leave in the output block, read at an index (the last store's payload; the
  accumulator read back through its own stores); the printed index maps related over the grid; what a point writes
  back as a block of the one whole-array function; the blocks cover the array.
-/
import proofs.«144787_j3307124818573_2_alg».proof.Proof.Reg0
import proofs.«144787_j3307124818573_2_alg».proof.Proof.LibPlainMatmul
import Idealize.ShloMosaic.PureOps.Ideal
import Idealize.ShloMosaic.PureOps.Ideal.Laws
import Idealize.ShloMosaic.Lib.ValueIdx
import Idealize.ShloMosaic.Lib.Pipeline.Value
import Idealize.ShloMosaic.Lib.WholeRead

set_option maxRecDepth 16384

noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The payloads at the ideal values -/

theorem zeros2 : (![0, 0] : Fin 2 → Nat) = fun _ => 0 := funext fun a => by fin_cases a <;> rfl

/-- Narrowing is the identity. -/
theorem pay3_eq (v : Vec Ideal S512x1024 .f32) : k0_pay3 (F := Ideal) v = v := rfl

/-- The accumulator's reset value is zero everywhere. -/
theorem pay1_apply (y : S512x1024.Idx) : k0_pay1 (F := Ideal) y = 0 := by
  unfold k0_pay1
  simp only [shapeCast_self]
  exact Ideal.ofBits_zero_f32

/-- The accumulated value at (p, q): what was there plus the product's entry. -/
theorem pay2_apply (v3 : Vec Ideal S512x1024 .f32) (v6 : Vec Ideal S1024x1024 .f32) (v9 : Vec Ideal S512x1024 .f32) (p : Fin 512) (q : Fin 1024) :
    k0_pay2 (F := Ideal) v3 v6 v9 (ix2 p q) = v9 (ix2 p q) + ∑ k : Fin 1024, v3 (ix2 p k) * v6 (ix2 k q) := by
  unfold k0_pay2
  simp only [shapeCast_self]
  exact congrArg (v9 (ix2 p q) + ·) (Cert.PlainMatmul.matmul_zero_apply dot_S512x1024_S1024x1024_S512x1024_1_0_0_1_n_n_wf none v3 v6 p q)

/-- A load of a whole buffer held at the contents that read X, through the whole-shape rectangle at zero offsets, reads X. -/
theorem readAt_whole_unread {sig : RefSig} {κ : Kind} {sp : Space} {S : Shape} {e : EltTy} {Val : EltTy → Type}
    (m : Memref sig κ sp S e) (h : m.IsWhole) {off : Fin S.rank → Nat} (hz : off = fun _ => 0)
    (inb : ∀ a, off a + S.size a ≤ S.size a) (X : S.Idx → Val e) :
    View.readAt Val m.view (Rect.unit off S.size inb).toLoadRect (h.unread X) = X :=
  (funext fun x => h.readAt_unread X _ x).trans (View.ld_unit_zero hz inb X)

/-! ## What the body leaves in the output block -/

/-- The output block after the body, read at an index: the product of the two input blocks there. -/
theorem out0_2_at (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S512x1024 .f32) (harg6 : arg6.IsWhole)
    (x0 : Vec Ideal S512x1024 .f32) (x1 : Vec Ideal S1024x1024 .f32) (y : S512x1024.Idx) :
    out0_2 c i arg3 harg3 arg4 harg4 arg5 harg5 arg6 harg6 x0 x1 y = ∑ k : Fin 1024, x0 (ix2 (y 0) k) * x1 (ix2 k (y 1)) := by
  obtain ⟨p, q, rfl⟩ : ∃ (p : Fin 512) (q : Fin 1024), y = ix2 p q := ⟨y 0, y 1, eq_ix2 y⟩
  unfold out0_2
  rw [View.read_writes_eq_canon _ _ _ (cover0_2 c i arg3 harg3 arg4 harg4 arg5 harg5 arg6 harg6 x0 x1)]
  rw [show (kernelRun0 c i arg3 harg3 arg4 harg4 arg5 harg5 arg6 harg6 x0 x1).1
      = [⟨Rect.unit ![0, 0] S512x1024.size inb_S512x1024_S512x1024_0_0, k0_pay3 (kernelRun0.sl.v18 c arg3 harg3 arg4 harg4 arg6 x0 x1)⟩] from rfl]
  rw [View.canon_unit_zero zeros2, pay3_eq]
  unfold kernelRun0.sl.v18 kernelRun0.sl.HS0_2
  rw [View.readCov_cons_toLoadRect, pay2_apply]
  unfold kernelRun0.sl.v9 kernelRun0.sl.HS0_1
  rw [View.readCov_unit_zero _ zeros2, pay1_apply, zero_add]
  rw [readAt_whole_unread arg3 harg3 zeros2, readAt_whole_unread arg4 harg4 zeros2]

/-! ## From blocks to the array -/

section Region
variable (V : (c : Dev nD) → (b : Ref sig .tc) → Buf (Elt Ideal) ((c : Thread nD τ).loc b))

/-- The whole-array function: the matrix product of the left and the right array, entry by entry. -/
def G0 (a0 : S4096x1024.Idx → EReal) (a1 : S1024x3072.Idx → EReal) : S4096x3072.Idx → EReal :=
  fun i => ∑ k : Fin 1024, a0 (ix2 (i 0) k) * a1 (ix2 k (i 1))

/-- The whole-array function at an index. -/
theorem G0_apply (a0 : S4096x1024.Idx → EReal) (a1 : S1024x3072.Idx → EReal) (i : S4096x3072.Idx) :
    G0 a0 a1 i = ∑ k : Fin 1024, a0 (ix2 (i 0) k) * a1 (ix2 k (i 1)) := rfl

/-- The printed index maps over the grid: the left block moves with the output's rows and spans all columns, the right
    block spans all rows and moves with the output's columns, and the output's block indices stay in range. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 2 :=
  (by decide +kernel : ∀ t : Fin grid0.N, _)

/-- Every block of the output array is some point's. -/
theorem idx_onto0 : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- Block t of the two arrays, multiplied, is block t of their product: the left block's rows are the output block's
    rows, the right block's columns the output block's columns, and both span the whole contracted axis. -/
theorem block_eq0 (a0 : S4096x1024.Idx → EReal) (a1 : S1024x3072.Idx → EReal) (t : Fin cfg0.N) (j : S512x1024.Idx) :
    (∑ k : Fin 1024, a0 (((cfg0.win 0).blk t).view.emb (ix2 (j 0) k)) * a1 (((cfg0.win 1).blk t).view.emb (ix2 k (j 1))))
      = G0 a0 a1 (((cfg0.win 2).blk t).view.emb j) := by
  obtain ⟨e0, e1, e2, e3, e4, e5⟩ := idx_facts0 t
  unfold G0
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  rw [h0, h1]
  rfl

/-- What point t writes back is block t of the whole-array function of the arrays as the region finds them. -/
theorem flushed0_eq (c : Dev nD) (t : Fin cfg0.N) :
    (dat0 (F := Ideal) V c).flushed 2 t = ((cfg0.win 2).blk t).view.read (Elt Ideal) (G0 (V c main_v0) (V c main_v2)) := by
  show (cfg0.win 2).cut (grid0.coords t) ((dat0 V c).after 2 t) = _
  rw [after0_2]
  unfold outAt0
  funext j
  refine (out0_2_at c _ _ _ _ _ _ _ _ _ (iblk0 V c 0 t) (iblk0 V c 1 t) j).trans ?_
  exact block_eq0 (V c main_v0) (V c main_v2) t j

/-- An index of the array is in point t's block iff each coordinate is in the block's range on its axis. -/
theorem mem_blk0 (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- The output's blocks cover its array: row r is in block r / 512, column s in block s / 1024. -/
theorem cover0 (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The region's result array after the run: the matrix product of the two arrays it was entered with. -/
theorem final0 (c : Dev nD) : (dat0 (F := Ideal) V c).arrAt 2 cfg0.N
    = G0 (V c main_v0) (V c main_v2) :=
  (dat0 V c).arrAt_eq_of_cover 2 (G0 (V c main_v0) (V c main_v2)) (fun t _ => flushed0_eq V c t) cover0

end Region

end Cert.KernelIdeal.Reg0

end
-- ==== Proof.Reg1Pieces.lean ====
/-
  The attention region's found pieces read back as values: what each case leaves in the carried buffers and in
  the output tile is the body's arithmetic (the skeleton's payloads) of the point's input blocks and of what the
  carried buffers held. At key tile 0 the step reads the reset's constants; at a later key tile it reads the carried
  contents; the stored quotient reads the sums the same point left (on the diagonal) or the carried sums (after it).
-/
import proofs.«144787_j3307124818573_2_alg».proof.Proof.Reg1
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The key tile's 512 rows of a resident [1,2048,64] block: the rows from the tile's offset. -/
def tileRows (i : grid1.Coords) (h : ∀ a, (k1_off1 i) a + S1x512x64.size a ≤ S1x2048x64.size a) (x : Vec F S1x2048x64 .bf16) : Vec F S1x512x64 .bf16 :=
  View.ld x (Rect.unit (s := S1x2048x64) (k1_off1 i) S1x512x64.size h)

/-! ## A later key tile, not the last: one step from the carried contents -/

theorem soutM_B_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    soutM_B c i arg3 harg3 arg4 harg4 arg5 harg5 arg6 harg6 arg7 harg7 arg8 harg8 arg9 harg9 hc0 hc1 hc2 x0 x1 x2 xm xl xa = k1_pay6 (k1_pay10 (BitVec.ofNat 32 (i 1).val) (BitVec.ofNat 32 (i 2).val) x0 (tileRows i (k1_off1_inb i hc1) x1) xm) := by
  unfold soutM_B
  rw [View.read_writes_eq_canon _ _ _ (cover_soutM_B c i arg3 harg3 arg4 harg4 arg5 harg5 arg6 harg6 arg7 harg7 arg8 harg8 arg9 harg9 hc0 hc1 hc2 x0 x1 x2 xm xl xa)]
  unfold runB
  dsimp only
  sl_unfold_words
  rw [View.canon_unit_zero hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem soutL_B_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    soutL_B c i arg3 harg3 arg4 harg4 arg5 harg5 arg6 harg6 arg7 harg7 arg8 harg8 arg9 harg9 hc0 hc1 hc2 x0 x1 x2 xm xl xa = k1_pay4 (k1_pay13 (BitVec.ofNat 32 (i 1).val) (BitVec.ofNat 32 (i 2).val) x0 (tileRows i (k1_off1_inb i hc1) x1) xm xl) := by
  unfold soutL_B
  rw [View.read_writes_eq_canon _ _ _ (cover_soutL_B c i arg3 harg3 arg4 harg4 arg5 harg5 arg6 harg6 arg7 harg7 arg8 harg8 arg9 harg9 hc0 hc1 hc2 x0 x1 x2 xm xl xa)]
  unfold runB
  dsimp only
  sl_unfold_words
  rw [View.canon_unit_zero hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem soutA_B_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : ¬cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    soutA_B c i arg3 harg3 arg4 harg4 arg5 harg5 arg6 harg6 arg7 harg7 arg8 harg8 arg9 harg9 hc0 hc1 hc2 x0 x1 x2 xm xl xa = k1_pay5 (k1_pay8 (tileRows i (k1_off1_inb i hc1) x2)) (k1_pay11 (BitVec.ofNat 32 (i 1).val) (BitVec.ofNat 32 (i 2).val) x0 (tileRows i (k1_off1_inb i hc1) x1) xm) (k1_pay12 (BitVec.ofNat 32 (i 1).val) (BitVec.ofNat 32 (i 2).val) x0 (tileRows i (k1_off1_inb i hc1) x1) xm) xa := by
  unfold soutA_B
  rw [View.read_writes_eq_canon _ _ _ (cover_soutA_B c i arg3 harg3 arg4 harg4 arg5 harg5 arg6 harg6 arg7 harg7 arg8 harg8 arg9 harg9 hc0 hc1 hc2 x0 x1 x2 xm xl xa)]
  unfold runB
  dsimp only
  sl_unfold_words
  rw [View.canon_unit_zero hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

/-! ## Key tile 0: the reset, then one step from the reset's constants -/

theorem soutM_A_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) :
    soutM_A c i arg3 harg3 arg4 harg4 arg5 harg5 arg6 harg6 arg7 harg7 arg8 harg8 arg9 harg9 hc0 hc1 hc2 x0 x1 x2 = k1_pay6 (k1_pay10 (BitVec.ofNat 32 (i 1).val) (BitVec.ofNat 32 (i 2).val) x0 (tileRows i (k1_off1_inb i hc1) x1) (k1_pay1 (F := F))) := by
  unfold soutM_A
  rw [View.read_writes_eq_canon _ _ _ (cover_soutM_A c i arg3 harg3 arg4 harg4 arg5 harg5 arg6 harg6 arg7 harg7 arg8 harg8 arg9 harg9 hc0 hc1 hc2 x0 x1 x2)]
  unfold runA
  dsimp only
  sl_unfold_words
  rw [View.canon_cons_unit_zero (S := S512x1) hz2]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem soutL_A_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) :
    soutL_A c i arg3 harg3 arg4 harg4 arg5 harg5 arg6 harg6 arg7 harg7 arg8 harg8 arg9 harg9 hc0 hc1 hc2 x0 x1 x2 = k1_pay4 (k1_pay13 (BitVec.ofNat 32 (i 1).val) (BitVec.ofNat 32 (i 2).val) x0 (tileRows i (k1_off1_inb i hc1) x1) (k1_pay1 (F := F)) (k1_pay2 (F := F))) := by
  unfold soutL_A
  rw [View.read_writes_eq_canon _ _ _ (cover_soutL_A c i arg3 harg3 arg4 harg4 arg5 harg5 arg6 harg6 arg7 harg7 arg8 harg8 arg9 harg9 hc0 hc1 hc2 x0 x1 x2)]
  unfold runA
  dsimp only
  sl_unfold_words
  rw [View.canon_cons_unit_zero (S := S512x1) hz2]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem soutA_A_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0 i) (hc1 : cond1 i) (hc2 : ¬cond2 i)
    (x0 : Vec F S1x512x64 .bf16) (x1 : Vec F S1x2048x64 .bf16) (x2 : Vec F S1x2048x64 .bf16) :
    soutA_A c i arg3 harg3 arg4 harg4 arg5 harg5 arg6 harg6 arg7 harg7 arg8 harg8 arg9 harg9 hc0 hc1 hc2 x0 x1 x2 = k1_pay5 (k1_pay8 (tileRows i (k1_off1_inb i hc1) x2)) (k1_pay11 (BitVec.ofNat 32 (i 1).val) (BitVec.ofNat 32 (i 2).val) x0 (tileRows i (k1_off1_inb i hc1) x1) (k1_pay1 (F := F))) (k1_pay12 (BitVec.ofNat 32 (i 1).val) (BitVec.ofNat 32 (i 2).val) x0 (tileRows i (k1_off1_inb i hc1) x1) (k1_pay1 (F := F))) (k1_pay3 (F := F)) := by
  unfold soutA_A
  rw [View.read_writes_eq_canon _ _ _ (cover_soutA_A c i arg3 harg3 arg4 harg4 arg5 harg5 arg6 harg6 arg7 harg7 arg8 harg8 arg9 harg9 hc0 hc1 hc2 x0 x1 x2)]
  unfold runA
  dsimp only
  sl_unfold_words
  rw [View.canon_cons_unit_zero (S := S512x64) hz2]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

/-! ## The last key tile on the diagonal: one step, then the quotient of the new sums -/

theorem soutM_C_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    soutM_C c i arg3 harg3 arg4 harg4 arg5 harg5 arg6 harg6 arg7 harg7 arg8 harg8 arg9 harg9 hc0 hc1 hc2 x0 x1 x2 xm xl xa = k1_pay6 (k1_pay10 (BitVec.ofNat 32 (i 1).val) (BitVec.ofNat 32 (i 2).val) x0 (tileRows i (k1_off1_inb i hc1) x1) xm) := by
  unfold soutM_C
  rw [View.read_writes_eq_canon _ _ _ (cover_soutM_C c i arg3 harg3 arg4 harg4 arg5 harg5 arg6 harg6 arg7 harg7 arg8 harg8 arg9 harg9 hc0 hc1 hc2 x0 x1 x2 xm xl xa)]
  unfold runC
  dsimp only
  sl_unfold_words
  rw [View.canon_unit_zero hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem soutL_C_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    soutL_C c i arg3 harg3 arg4 harg4 arg5 harg5 arg6 harg6 arg7 harg7 arg8 harg8 arg9 harg9 hc0 hc1 hc2 x0 x1 x2 xm xl xa = k1_pay4 (k1_pay13 (BitVec.ofNat 32 (i 1).val) (BitVec.ofNat 32 (i 2).val) x0 (tileRows i (k1_off1_inb i hc1) x1) xm xl) := by
  unfold soutL_C
  rw [View.read_writes_eq_canon _ _ _ (cover_soutL_C c i arg3 harg3 arg4 harg4 arg5 harg5 arg6 harg6 arg7 harg7 arg8 harg8 arg9 harg9 hc0 hc1 hc2 x0 x1 x2 xm xl xa)]
  unfold runC
  dsimp only
  sl_unfold_words
  rw [View.canon_unit_zero hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem soutA_C_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    soutA_C c i arg3 harg3 arg4 harg4 arg5 harg5 arg6 harg6 arg7 harg7 arg8 harg8 arg9 harg9 hc0 hc1 hc2 x0 x1 x2 xm xl xa = k1_pay5 (k1_pay8 (tileRows i (k1_off1_inb i hc1) x2)) (k1_pay11 (BitVec.ofNat 32 (i 1).val) (BitVec.ofNat 32 (i 2).val) x0 (tileRows i (k1_off1_inb i hc1) x1) xm) (k1_pay12 (BitVec.ofNat 32 (i 1).val) (BitVec.ofNat 32 (i 2).val) x0 (tileRows i (k1_off1_inb i hc1) x1) xm) xa := by
  unfold soutA_C
  rw [View.read_writes_eq_canon _ _ _ (cover_soutA_C c i arg3 harg3 arg4 harg4 arg5 harg5 arg6 harg6 arg7 harg7 arg8 harg8 arg9 harg9 hc0 hc1 hc2 x0 x1 x2 xm xl xa)]
  unfold runC
  dsimp only
  sl_unfold_words
  rw [View.canon_unit_zero hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

theorem out_C_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    out_C c i arg3 harg3 arg4 harg4 arg5 harg5 arg6 harg6 arg7 harg7 arg8 harg8 arg9 harg9 hc0 hc1 hc2 x0 x1 x2 xm xl xa = k1_pay7 (k1_pay5 (k1_pay8 (tileRows i (k1_off1_inb i hc1) x2)) (k1_pay11 (BitVec.ofNat 32 (i 1).val) (BitVec.ofNat 32 (i 2).val) x0 (tileRows i (k1_off1_inb i hc1) x1) xm) (k1_pay12 (BitVec.ofNat 32 (i 1).val) (BitVec.ofNat 32 (i 2).val) x0 (tileRows i (k1_off1_inb i hc1) x1) xm) xa) (k1_pay4 (k1_pay13 (BitVec.ofNat 32 (i 1).val) (BitVec.ofNat 32 (i 2).val) x0 (tileRows i (k1_off1_inb i hc1) x1) xm xl)) := by
  unfold out_C
  rw [View.read_writes_eq_canon _ _ _ (cover_out_C c i arg3 harg3 arg4 harg4 arg5 harg5 arg6 harg6 arg7 harg7 arg8 harg8 arg9 harg9 hc0 hc1 hc2 x0 x1 x2 xm xl xa)]
  unfold runC
  dsimp only
  sl_unfold_words
  rw [View.canon_unit_zero hz3]
  simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]
  rfl

/-! ## The last key tile after the diagonal: the quotient of the carried sums -/

theorem out_E_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0 i) (hc1 : ¬cond1 i) (hc2 : cond2 i)
    (x0 : Vec F S1x512x64 .bf16) (x1 : Vec F S1x2048x64 .bf16) (x2 : Vec F S1x2048x64 .bf16) (xm : Vec F S512x1 .f32) (xl : Vec F S512x1 .f32) (xa : Vec F S512x64 .f32) :
    out_E c i arg3 harg3 arg4 harg4 arg5 harg5 arg6 harg6 arg7 harg7 arg8 harg8 arg9 harg9 hc0 hc1 hc2 x0 x1 x2 xm xl xa = k1_pay7 xa xl := by
  unfold out_E
  rw [View.read_writes_eq_canon _ _ _ (cover_out_E c i arg3 harg3 arg4 harg4 arg5 harg5 arg6 harg6 arg7 harg7 arg8 harg8 arg9 harg9 hc0 hc1 hc2 x0 x1 x2 xm xl xa)]
  unfold runE
  dsimp only
  sl_unfold_words
  rw [View.canon_unit_zero hz3]
  simp only [View.readAt_eq_ld, harg3.read_unread, harg4.read_unread, harg5.read_unread, harg7.read_unread, harg8.read_unread, harg9.read_unread, View.ld_unit_zero (S := S1x512x64) hz3, View.ld_unit_zero (S := S512x1) hz2, View.ld_unit_zero (S := S512x64) hz2]

end Cert.KernelIdeal.Reg1

end
-- ==== Proof.Reg1Blocks.lean ====
/-
  The attention region's windows read at coordinates.

  Point t of the grid is head-and-batch t / 16, query tile (t / 4) % 4, key tile t % 4. The query window's block at t is
  rows [512 · qtile, 512 · qtile + 512) of head t / 16 of the queries' array; the keys' and values' windows hold the
  head's whole 2048 rows; the output window's block is placed like the query window's. The key tile's offset into the
  resident rows is 512 · ktile.
-/
import proofs.«144787_j3307124818573_2_alg».proof.Proof.Reg1Runs
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem N512 : cfg1.N = 512 := N_1

/-- The point's coordinates and the key tile's offset, in closed form. -/
theorem coords_facts : ∀ t : Fin cfg1.N, ((grid1.coords t) 1).val = (t.val / 4) % 4 ∧ ((grid1.coords t) 2).val = t.val % 4
    ∧ k1_off1 (grid1.coords t) = ![0, (t.val % 4) * 512, 0] :=
  (by decide +kernel : ∀ t : Fin grid1.N, ((grid1.coords t) 1).val = (t.val / 4) % 4 ∧ ((grid1.coords t) 2).val = t.val % 4
    ∧ k1_off1 (grid1.coords t) = ![0, (t.val % 4) * 512, 0])

/-- The windows' block indices, in closed form. -/
theorem idx_facts : ∀ t : Fin cfg1.N,
    (win1_0.index t 0 = t.val / 16 ∧ win1_0.index t 1 = (t.val / 4) % 4 ∧ win1_0.index t 2 = 0)
    ∧ (win1_1.index t 0 = t.val / 16 ∧ win1_1.index t 1 = 0 ∧ win1_1.index t 2 = 0)
    ∧ (win1_2.index t 0 = t.val / 16 ∧ win1_2.index t 1 = 0 ∧ win1_2.index t 2 = 0)
    ∧ (win1_3.index t 0 = t.val / 16 ∧ win1_3.index t 1 = (t.val / 4) % 4 ∧ win1_3.index t 2 = 0) :=
  (by decide +kernel : ∀ t : Fin grid1.N,
    (win1_0.index t 0 = t.val / 16 ∧ win1_0.index t 1 = (t.val / 4) % 4 ∧ win1_0.index t 2 = 0)
    ∧ (win1_1.index t 0 = t.val / 16 ∧ win1_1.index t 1 = 0 ∧ win1_1.index t 2 = 0)
    ∧ (win1_2.index t 0 = t.val / 16 ∧ win1_2.index t 1 = 0 ∧ win1_2.index t 2 = 0)
    ∧ (win1_3.index t 0 = t.val / 16 ∧ win1_3.index t 1 = (t.val / 4) % 4 ∧ win1_3.index t 2 = 0))

/-- The head of a point. -/
def hd (t : Fin cfg1.N) : Fin 32 := ⟨t.val / 16, by have := t.isLt; have hN : cfg1.N = 512 := N_1; omega⟩
/-- Row p of the point's query tile, as a row of the head's 2048. -/
def qrow (t : Fin cfg1.N) (p : Fin 512) : Fin 2048 := ⟨((t.val / 4) % 4) * 512 + p.val, by have := p.isLt; omega⟩

/-- The query block at a point: the rows of its query tile. -/
theorem iblk0_apply (c : Dev nD) (t : Fin cfg1.N) (p : Fin 512) (d : Fin 64) :
    (iblk V c 0 t : Vec F S1x512x64 .bf16) (ix3 0 p d) = V c main_v9 (ix3 (hd t) (qrow t p) d) := by
  obtain ⟨⟨h0, h1, h2⟩, -⟩ := idx_facts t
  unfold iblk
  rw [View.read_apply]
  show V c main_v9 _ = V c main_v9 _
  congr 1
  funext a
  apply Fin.ext
  match a with
  | ⟨0, _⟩ => show win1_0.index t 0 * 1 + 1 * 0 = t.val / 16; rw [h0]; omega
  | ⟨1, _⟩ => show win1_0.index t 1 * 512 + 1 * p.val = ((t.val / 4) % 4) * 512 + p.val; rw [h1]; omega
  | ⟨2, _⟩ => show win1_0.index t 2 * 64 + 1 * d.val = d.val; rw [h2]; omega

/-- The keys' block at a point: the head's 2048 rows. -/
theorem iblk1_apply (c : Dev nD) (t : Fin cfg1.N) (r : Fin 2048) (d : Fin 64) :
    (iblk V c 1 t : Vec F S1x2048x64 .bf16) (ix3 0 r d) = V c main_v12 (ix3 (hd t) r d) := by
  obtain ⟨-, ⟨h0, h1, h2⟩, -⟩ := idx_facts t
  unfold iblk
  rw [View.read_apply]
  show V c main_v12 _ = V c main_v12 _
  congr 1
  funext a
  apply Fin.ext
  match a with
  | ⟨0, _⟩ => show win1_1.index t 0 * 1 + 1 * 0 = t.val / 16; rw [h0]; omega
  | ⟨1, _⟩ => show win1_1.index t 1 * 2048 + 1 * r.val = r.val; rw [h1]; omega
  | ⟨2, _⟩ => show win1_1.index t 2 * 64 + 1 * d.val = d.val; rw [h2]; omega

/-- The values' block at a point: the head's 2048 rows. -/
theorem iblk2_apply (c : Dev nD) (t : Fin cfg1.N) (r : Fin 2048) (d : Fin 64) :
    (iblk V c 2 t : Vec F S1x2048x64 .bf16) (ix3 0 r d) = V c main_v15 (ix3 (hd t) r d) := by
  obtain ⟨-, -, ⟨h0, h1, h2⟩, -⟩ := idx_facts t
  unfold iblk
  rw [View.read_apply]
  show V c main_v15 _ = V c main_v15 _
  congr 1
  funext a
  apply Fin.ext
  match a with
  | ⟨0, _⟩ => show win1_2.index t 0 * 1 + 1 * 0 = t.val / 16; rw [h0]; omega
  | ⟨1, _⟩ => show win1_2.index t 1 * 2048 + 1 * r.val = r.val; rw [h1]; omega
  | ⟨2, _⟩ => show win1_2.index t 2 * 64 + 1 * d.val = d.val; rw [h2]; omega

end Cert.KernelIdeal.Reg1

end
-- ==== Proof.LibSoftmaxRow.lean ====
/-
  One row of softmax attention on the extended reals: normalising the weights before or after the weighted sum.

  A row of scores `t k` (k over the keys) and a column of values `v k` give the output
  `∑ₖ softmax(t)ₖ · vₖ`, where `softmax(t)ₖ = exp (tₖ - M) / L`, `M = maxₖ tₖ` (taken from `-∞`) and `L = ∑ₖ exp (tₖ - M)`.
  The quotient by `L` may be taken of every weight before the weighted sum (`attnNormalised`), or once of the weighted
  sum (`attnDeferred`): on the extended reals the two agree as soon as every score and every value is a real number
  (`attnNormalised_eq_attnDeferred`), because then `M` is a real (a maximum of at least one real), every weight
  `exp (tₖ - M)` is a positive real, `L` is a positive real, and a quotient by a nonzero real is the product with its
  reciprocal, which distributes over a finite sum of reals. (At an infinite entry the two can differ, which is why the
  hypothesis is there.) Also: `IsReal`, the extended reals that are real numbers, closed under sums and products; the
  coercion of a finite sum; the f32 pattern of `-∞` is `⊥`. Nothing here mentions a program.
-/
import Idealize.ShloMosaic.PureOps.Ideal
import Idealize.ShloMosaic.PureOps.Ideal.Laws

noncomputable section

namespace Cert.SoftmaxRow

open Idealize.ShloMosaic

/-! ## Reals inside the extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The pattern of `-∞` -/

/-- The pattern of `-∞` is the bottom of the extended reals. -/
theorem ofBits_negInf : Ideal.ofBits .f32 0xFF800000#32 = ⊥ := by
  simp [Ideal.ofBits, Ideal.ieee]

/-! ## One row -/

variable {n : ℕ}

/-- The row's maximum, from `-∞`. -/
def rowMax (t : Fin n → EReal) : EReal := (Finset.univ : Finset (Fin n)).fold max ⊥ t

/-- The unnormalised weight of key `k`. -/
def rowWt (t : Fin n → EReal) (k : Fin n) : EReal := Ideal.exp (t k - rowMax t)

/-- The normaliser: the sum of the weights. -/
def rowDen (t : Fin n → EReal) : EReal := ∑ k, rowWt t k

/-- The weighted sum of the values, divided once by the normaliser. -/
def attnDeferred (t v : Fin n → EReal) : EReal := Ideal.div (∑ k, rowWt t k * v k) (rowDen t)

/-- Every weight divided by the normaliser, then the weighted sum. -/
def attnNormalised (t v : Fin n → EReal) : EReal := ∑ k, Ideal.div (rowWt t k) (rowDen t) * v k

/-- The maximum of at least one real is a real. -/
theorem rowMax_coe (hn : 0 < n) (t : Fin n → ℝ) : IsReal (rowMax fun k => (t k : EReal)) := by
  unfold rowMax
  have hlt : (Finset.univ : Finset (Fin n)).fold max (⊥ : EReal) (fun k => (t k : EReal)) < ⊤ :=
    (Finset.fold_max_lt _).mpr ⟨bot_lt_top, fun k _ => EReal.coe_lt_top _⟩
  have hge : ((t ⟨0, hn⟩ : ℝ) : EReal) ≤ (Finset.univ : Finset (Fin n)).fold max (⊥ : EReal) (fun k => (t k : EReal)) :=
    (Finset.le_fold_max _).mpr (Or.inr ⟨⟨0, hn⟩, Finset.mem_univ _, le_rfl⟩)
  have hne : (Finset.univ : Finset (Fin n)).fold max (⊥ : EReal) (fun k => (t k : EReal)) ≠ ⊥ := fun h => by
    rw [h] at hge
    exact EReal.coe_ne_bot _ (le_bot_iff.mp hge)
  exact ⟨_, (EReal.coe_toReal hlt.ne hne).symm⟩

/-- THE LAW: with real scores and real values, normalising the weights first or the weighted sum afterwards
    is the same extended real. -/
theorem attnNormalised_eq_attnDeferred (hn : 0 < n) (t v : Fin n → EReal) (ht : ∀ k, IsReal (t k)) (hv : ∀ k, IsReal (v k)) :
    attnNormalised t v = attnDeferred t v := by
  choose t' ht' using ht
  choose v' hv' using hv
  obtain rfl : t = fun k => (t' k : EReal) := funext ht'
  obtain rfl : v = fun k => (v' k : EReal) := funext hv'
  obtain ⟨M, hM⟩ := rowMax_coe hn t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin n, Real.exp (t' k - M)) ≠ 0 :=
    (Finset.sum_pos (fun k _ => Real.exp_pos _) ⟨⟨0, hn⟩, Finset.mem_univ _⟩).ne'
  unfold attnNormalised attnDeferred
  rw [hL, Ideal.div_coe hpos]
  simp only [hw, Ideal.div_coe hpos, ← EReal.coe_mul, ← coe_sum]
  congr 1
  rw [Finset.sum_mul]
  exact Finset.sum_congr rfl fun k _ => by ring

end Cert.SoftmaxRow

end
-- ==== Proof.LibOnlineSoftmax.lean ====
/-
  Softmax attention of one row computed block by block ("online softmax"), on the extended reals.

  The keys are cut into consecutive blocks of `B`. A state is a triple (m, l, o): the running maximum of the scores seen
  so far (from `-∞`), the running normaliser and the running weighted sum of the values, both taken relative to the running
  maximum. One block with scores `s q` and values `v q` (q over the block) moves the state to
      m' = max m (max_q s q),   a = exp (m - m'),
      l' = a · l + Σ_q exp (s q - m'),        o' = a · o + Σ_q exp (s q - m') · v q :
  the old sums are rescaled from the old maximum to the new one and the block's terms added. From the state (-∞, 0, 0),
  after all `nb` blocks, with real scores and values, `m` is the row's maximum `M`, `l = Σ_k exp (t k - M)` and
  `o = Σ_k exp (t k - M) · v k` over all `N = nb · B` keys, because `exp (M₁ - M₂) · exp (x - M₁) = exp (x - M₂)` on the
  reals and, at the first block, `exp (-∞ - M) = 0` annihilates the (zero) initial sums. So `o / l` is the row's attention
  output with the weighted sum divided once by the normaliser (`run_quotient`). Nothing here mentions a program.
-/
import Idealize.ShloMosaic.PureOps.Ideal
import Idealize.ShloMosaic.PureOps.Ideal.Laws
import proofs.«144787_j3307124818573_2_alg».proof.Proof.LibSoftmaxRow

noncomputable section

namespace Cert.OnlineSoftmax

open Idealize.ShloMosaic Cert.SoftmaxRow

variable {B : ℕ}

/-- The maximum of one block's scores, from `-∞`. -/
def blockMax (s : Fin B → EReal) : EReal := (Finset.univ : Finset (Fin B)).fold max ⊥ s

/-- One block: the state (m, l, o) moved to the new running maximum, the block's terms added. -/
def step (s v : Fin B → EReal) (st : EReal × EReal × EReal) : EReal × EReal × EReal :=
  (max st.1 (blockMax s),
   Ideal.exp (st.1 - max st.1 (blockMax s)) * st.2.1 + ∑ q, Ideal.exp (s q - max st.1 (blockMax s)),
   Ideal.exp (st.1 - max st.1 (blockMax s)) * st.2.2 + ∑ q, Ideal.exp (s q - max st.1 (blockMax s)) * v q)

/-- The state after the first `j` blocks, from (-∞, 0, 0); block `j` has scores `s j` and values `v j`. -/
def run (s v : ℕ → Fin B → EReal) : ℕ → EReal × EReal × EReal
  | 0 => (⊥, 0, 0)
  | j + 1 => step (s j) (v j) (run s v j)

theorem run_zero (s v : ℕ → Fin B → EReal) : run s v 0 = (⊥, 0, 0) := rfl

theorem run_succ (s v : ℕ → Fin B → EReal) (j : ℕ) : run s v (j + 1) = step (s j) (v j) (run s v j) := rfl

/-! ## Real blocks -/

/-- The coercion of the reals commutes with the maximum of two. -/
theorem coe_max (a b : ℝ) : ((max a b : ℝ) : EReal) = max (a : EReal) (b : EReal) :=
  EReal.coe_strictMono.monotone.map_max

/-- The maximum of a nonempty block of reals is one of them, and bounds them all. -/
theorem blockMax_coe (hB : 0 < B) (x : Fin B → ℝ) :
    ∃ q0 : Fin B, blockMax (fun q => (x q : EReal)) = (x q0 : EReal) ∧ ∀ q, x q ≤ x q0 := by
  obtain ⟨q0, -, hq0⟩ :=
    Finset.exists_max_image (Finset.univ : Finset (Fin B)) x ⟨⟨0, hB⟩, Finset.mem_univ _⟩
  refine ⟨q0, le_antisymm ?_ ?_, fun q => hq0 q (Finset.mem_univ _)⟩
  · exact (Finset.fold_max_le _).mpr
      ⟨bot_le, fun q _ => EReal.coe_le_coe_iff.mpr (hq0 q (Finset.mem_univ _))⟩
  · exact (Finset.le_fold_max _).mpr (Or.inr ⟨q0, Finset.mem_univ _, le_rfl⟩)

/-- The first block: from (-∞, 0, 0) the factor exp (-∞ - b) multiplies the zero sums, and the new state is the block's
    own maximum b and the block's two sums relative to b. -/
theorem step_bot (x y : Fin B → ℝ) (b : ℝ) (hb : blockMax (fun q => (x q : EReal)) = (b : EReal)) :
    step (fun q => (x q : EReal)) (fun q => (y q : EReal)) (⊥, 0, 0) =
      ((b : EReal), ((∑ q, Real.exp (x q - b) : ℝ) : EReal), ((∑ q, Real.exp (x q - b) * y q : ℝ) : EReal)) := by
  unfold step
  simp only [hb, max_eq_right bot_le, mul_zero, zero_add, coe_sum, ← EReal.coe_sub, Ideal.exp_coe, EReal.coe_mul]

/-- A later block: from a real state (M, L, O) the new maximum is max M b, the old sums are multiplied by
    exp (M - max M b) and the block's terms, relative to the new maximum, are added: all inside the reals. -/
theorem step_coe (x y : Fin B → ℝ) (b M L O : ℝ) (hb : blockMax (fun q => (x q : EReal)) = (b : EReal)) :
    step (fun q => (x q : EReal)) (fun q => (y q : EReal)) ((M : EReal), (L : EReal), (O : EReal)) =
      (((max M b : ℝ) : EReal),
       ((Real.exp (M - max M b) * L + ∑ q, Real.exp (x q - max M b) : ℝ) : EReal),
       ((Real.exp (M - max M b) * O + ∑ q, Real.exp (x q - max M b) * y q : ℝ) : EReal)) := by
  unfold step
  simp only [hb, ← coe_max, EReal.coe_add, EReal.coe_mul, coe_sum, ← EReal.coe_sub, Ideal.exp_coe]

/-! ## The sums over the keys seen so far -/

/-- Moving the sum over the first n keys from the maximum M to M' and adding the next block's terms gives the sum over
    the first n + B keys relative to M', because exp (M - M') · exp (x - M) = exp (x - M'). -/
theorem rescale_sum (τ c : ℕ → ℝ) (n : ℕ) (M M' : ℝ) :
    Real.exp (M - M') * ∑ k ∈ Finset.range n, Real.exp (τ k - M) * c k
        + ∑ q : Fin B, Real.exp (τ (n + q.val) - M') * c (n + q.val)
      = ∑ k ∈ Finset.range (n + B), Real.exp (τ k - M') * c k := by
  rw [Finset.sum_range_add, Fin.sum_univ_eq_sum_range (fun q => Real.exp (τ (n + q) - M') * c (n + q)) B,
    Finset.mul_sum]
  congr 1
  refine Finset.sum_congr rfl fun k _ => ?_
  rw [← mul_assoc, ← Real.exp_add]
  congr 2
  ring

/-- The same without the values. -/
theorem rescale_sum_one (τ : ℕ → ℝ) (n : ℕ) (M M' : ℝ) :
    Real.exp (M - M') * ∑ k ∈ Finset.range n, Real.exp (τ k - M) + ∑ q : Fin B, Real.exp (τ (n + q.val) - M')
      = ∑ k ∈ Finset.range (n + B), Real.exp (τ k - M') := by
  simpa using rescale_sum (B := B) τ (fun _ => 1) n M M'

/-! ## The invariant -/

/-- After the first n keys (scores τ k, values ν k): the running maximum is a real M that bounds the scores seen and is
    one of them, and the two running sums are the sums over those keys relative to M. -/
def Inv (τ ν : ℕ → ℝ) (n : ℕ) (st : EReal × EReal × EReal) : Prop :=
  ∃ M : ℝ, st = ((M : EReal), ((∑ k ∈ Finset.range n, Real.exp (τ k - M) : ℝ) : EReal),
      ((∑ k ∈ Finset.range n, Real.exp (τ k - M) * ν k : ℝ) : EReal)) ∧
    (∀ k, k < n → τ k ≤ M) ∧ ∃ k, k < n ∧ τ k = M

/-- The invariant holds after the first block. -/
theorem inv_first (hB : 0 < B) (τ ν : ℕ → ℝ) (s w : Fin B → EReal)
    (hs : ∀ q : Fin B, s q = ((τ q.val : ℝ) : EReal)) (hw : ∀ q : Fin B, w q = ((ν q.val : ℝ) : EReal)) :
    Inv τ ν B (step s w (⊥, 0, 0)) := by
  obtain rfl : s = fun q : Fin B => ((τ q.val : ℝ) : EReal) := funext hs
  obtain rfl : w = fun q : Fin B => ((ν q.val : ℝ) : EReal) := funext hw
  obtain ⟨q0, hq0, hle⟩ := blockMax_coe hB fun q : Fin B => τ q.val
  refine ⟨τ q0.val, ?_, fun k hk => hle ⟨k, hk⟩, q0.val, q0.isLt, rfl⟩
  rw [step_bot (fun q : Fin B => τ q.val) (fun q : Fin B => ν q.val) (τ q0.val) hq0,
    Fin.sum_univ_eq_sum_range (fun k => Real.exp (τ k - τ q0.val)) B,
    Fin.sum_univ_eq_sum_range (fun k => Real.exp (τ k - τ q0.val) * ν k) B]

/-- One more block keeps the invariant. -/
theorem inv_next (hB : 0 < B) (τ ν : ℕ → ℝ) (n : ℕ) (s w : Fin B → EReal)
    (hs : ∀ q : Fin B, s q = ((τ (n + q.val) : ℝ) : EReal)) (hw : ∀ q : Fin B, w q = ((ν (n + q.val) : ℝ) : EReal))
    (st : EReal × EReal × EReal) (h : Inv τ ν n st) : Inv τ ν (n + B) (step s w st) := by
  obtain rfl : s = fun q : Fin B => ((τ (n + q.val) : ℝ) : EReal) := funext hs
  obtain rfl : w = fun q : Fin B => ((ν (n + q.val) : ℝ) : EReal) := funext hw
  obtain ⟨M, rfl, hle, k1, hk1, hk1M⟩ := h
  obtain ⟨q0, hq0, hq0le⟩ := blockMax_coe hB fun q : Fin B => τ (n + q.val)
  refine ⟨max M (τ (n + q0.val)), ?_, ?_, ?_⟩
  · rw [step_coe (fun q : Fin B => τ (n + q.val)) (fun q : Fin B => ν (n + q.val)) (τ (n + q0.val)) M _ _ hq0,
      rescale_sum_one, rescale_sum]
  · intro k hk
    by_cases hkn : k < n
    · exact (hle k hkn).trans (le_max_left _ _)
    · have hq : k - n < B := by omega
      have := hq0le ⟨k - n, hq⟩
      have hkk : n + (k - n) = k := by omega
      simp only [hkk] at this
      exact this.trans (le_max_right _ _)
  · rcases le_total M (τ (n + q0.val)) with hc | hc
    · exact ⟨n + q0.val, by have := q0.isLt; omega, (max_eq_right hc).symm⟩
    · exact ⟨k1, by omega, by rw [max_eq_left hc]; exact hk1M⟩

/-- The invariant after every block up to the last. -/
theorem inv_run (hB : 0 < B) (τ ν : ℕ → ℝ) (s w : ℕ → Fin B → EReal) (nb : ℕ)
    (hs : ∀ j, j < nb → ∀ q : Fin B, s j q = ((τ (j * B + q.val) : ℝ) : EReal))
    (hw : ∀ j, j < nb → ∀ q : Fin B, w j q = ((ν (j * B + q.val) : ℝ) : EReal)) :
    ∀ j, j < nb → Inv τ ν ((j + 1) * B) (run s w (j + 1)) := by
  intro j
  induction j with
  | zero =>
    intro h0
    rw [run_succ, run_zero, zero_add, one_mul]
    exact inv_first hB τ ν (s 0) (w 0) (fun q => by simpa using hs 0 h0 q) (fun q => by simpa using hw 0 h0 q)
  | succ j ih =>
    intro hj
    have hmul : (j + 1 + 1) * B = (j + 1) * B + B := by ring
    rw [run_succ, hmul]
    exact inv_next hB τ ν ((j + 1) * B) (s (j + 1)) (w (j + 1)) (hs (j + 1) hj) (hw (j + 1) hj) _
      (ih (Nat.lt_of_succ_lt hj))

/-- THE LAW: the row's `N = nb · B` keys taken block by block (block `j`, position `q` is key `j * B + q`) end, after all
    `nb` blocks, in a state whose quotient `o / l` is the row's attention output with the weighted sum divided once by the
    normaliser — when every score and every value is a real. -/
theorem run_quotient {nb N : ℕ} (hN : N = nb * B) (hnb : 0 < nb) (hB : 0 < B) (t v : Fin N → EReal)
    (ht : ∀ k, IsReal (t k)) (hv : ∀ k, IsReal (v k)) (s w : ℕ → Fin B → EReal)
    (hs : ∀ (j : ℕ) (q : Fin B) (h : j * B + q.val < N), s j q = t ⟨j * B + q.val, h⟩)
    (hw : ∀ (j : ℕ) (q : Fin B) (h : j * B + q.val < N), w j q = v ⟨j * B + q.val, h⟩) :
    Ideal.div (run s w nb).2.2 (run s w nb).2.1 = attnDeferred t v := by
  choose t' ht' using ht
  choose v' hv' using hv
  obtain rfl : t = fun k => (t' k : EReal) := funext ht'
  obtain rfl : v = fun k => (v' k : EReal) := funext hv'
  -- the scores and the values as functions of a natural-number key (zero past the row)
  let τ : ℕ → ℝ := fun k => if h : k < N then t' ⟨k, h⟩ else 0
  let ν : ℕ → ℝ := fun k => if h : k < N then v' ⟨k, h⟩ else 0
  have hτ : ∀ k : Fin N, τ k.val = t' k := fun k => dif_pos k.isLt
  have hν : ∀ k : Fin N, ν k.val = v' k := fun k => dif_pos k.isLt
  have hkey : ∀ j, j < nb → ∀ q : Fin B, j * B + q.val < N := fun j hj q => by
    rw [hN]
    calc j * B + q.val < j * B + B := Nat.add_lt_add_left q.isLt _
      _ = (j + 1) * B := by ring
      _ ≤ nb * B := Nat.mul_le_mul_right B hj
  have hs' : ∀ j, j < nb → ∀ q : Fin B, s j q = ((τ (j * B + q.val) : ℝ) : EReal) := fun j hj q => by
    rw [hs j q (hkey j hj q)]
    exact congrArg Real.toEReal (hτ ⟨j * B + q.val, hkey j hj q⟩).symm
  have hw' : ∀ j, j < nb → ∀ q : Fin B, w j q = ((ν (j * B + q.val) : ℝ) : EReal) := fun j hj q => by
    rw [hw j q (hkey j hj q)]
    exact congrArg Real.toEReal (hν ⟨j * B + q.val, hkey j hj q⟩).symm
  -- the invariant after the last block
  obtain ⟨M, hst, hle, k1, hk1, hk1M⟩ := inv_run hB τ ν s w nb hs' hw' (nb - 1) (by omega)
  have hnb1 : nb - 1 + 1 = nb := by omega
  rw [hnb1, ← hN] at hst hle hk1
  -- the running maximum is the row's maximum
  have hN0 : 0 < N := by rw [hN]; exact Nat.mul_pos hnb hB
  obtain ⟨k0, hk0, hk0le⟩ := blockMax_coe hN0 t'
  have hM : rowMax (fun k => (t' k : EReal)) = (M : EReal) := by
    have : t' k0 = M := le_antisymm (by rw [← hτ k0]; exact hle k0.val k0.isLt)
      (by rw [← hk1M]; exact (hτ ⟨k1, hk1⟩).le.trans (hk0le ⟨k1, hk1⟩))
    rw [← this]; exact hk0
  -- the two sums of the row are the two running sums
  have hden : rowDen (fun k => (t' k : EReal)) = ((∑ k ∈ Finset.range N, Real.exp (τ k - M) : ℝ) : EReal) := by
    unfold rowDen rowWt
    rw [hM, ← Fin.sum_univ_eq_sum_range (fun k => Real.exp (τ k - M)) N, coe_sum]
    exact Finset.sum_congr rfl fun k _ => by rw [hτ k, ← EReal.coe_sub, Ideal.exp_coe]
  have hnum : (∑ k, rowWt (fun k => (t' k : EReal)) k * (v' k : EReal))
      = ((∑ k ∈ Finset.range N, Real.exp (τ k - M) * ν k : ℝ) : EReal) := by
    unfold rowWt
    rw [hM, ← Fin.sum_univ_eq_sum_range (fun k => Real.exp (τ k - M) * ν k) N, coe_sum]
    exact Finset.sum_congr rfl fun k _ => by rw [hτ k, hν k, ← EReal.coe_sub, Ideal.exp_coe, EReal.coe_mul]
  unfold attnDeferred
  rw [hden, hnum, hst]

end Cert.OnlineSoftmax

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.Reg1PayScore.lean ====
/-
  The score tile of one step of the blockwise softmax, read entry by entry.

  For the query tile qi and the key tile ki (512 rows each, 64 coordinates per row) the tile's entry (p, c) is the inner
  product of query row p and key row c over the 64 coordinates, times 1/8, when key position ki·512 + c is at or before
  query position qi·512 + p, and -∞ otherwise. The inner product is a matrix product of the query block with the transposed
  key block into a zero accumulator; the two positions are 32-bit words (a tile offset plus a coordinate) compared as signed
  integers, and since every word here is below 2^31 the signed comparison is the comparison of the natural numbers.
-/
import proofs.«144787_j3307124818573_2_alg».proof.Proof.Gen.KernelIdeal.Skeleton
import proofs.«144787_j3307124818573_2_alg».proof.Proof.LibPlainMatmul
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.IdealRules

noncomputable section

namespace Cert.KernelIdeal.Reg1Pay

open Cert.KernelIdeal Cert.KernelIdeal.Gen Idealize.ShloMosaic Idealize.ShloMosaic.ValueIdx

/-- The masked, scaled score of row p of the query tile against key c of the key tile. -/
def tileScore (qi ki : ℕ) (q kb : Vec Ideal S1x512x64 .bf16) (p c : Fin 512) : EReal :=
  if ki * 512 + c.val ≤ qi * 512 + p.val then (∑ d : Fin 64, q (ix3 0 p d) * kb (ix3 0 c d)) * ((1 / 8 : ℝ) : EReal) else ⊥

/-- The pattern 0x3E000000 denotes 1/8. -/
theorem ofBits_eighth : Ideal.ofBits .f32 0x3E000000#32 = ((1 / 8 : ℝ) : EReal) := by
  simp [Ideal.ofBits, Ideal.ieee, -EReal.coe_mul]; norm_num

/-- The mask's fill value is -∞ at the ideal values, by the table of named constants. -/
theorem negBig : Named.named (F := Ideal) Cert.KernelIdeal.κ "neg_big" (φ := .f32) 0xFF333332#32 = ⊥ :=
  IdealRules.named_const.ideal_named_scalar _ _ _ _ rfl

/-- A tile offset plus a coordinate, as a 32-bit word read as a signed integer, is the natural number. -/
theorem pos_toInt (t : Fin 4) (r : Fin 512) :
    (IntOp.addi (Scalar.muli (BitVec.ofNat 32 t.val) 512#32) (BitVec.ofNat 32 r.val)).toInt = ((t.val * 512 + r.val : ℕ) : ℤ) := by
  have ht := t.isLt
  have hr := r.isLt
  have e : IntOp.addi (Scalar.muli (BitVec.ofNat 32 t.val) 512#32) (BitVec.ofNat 32 r.val) = BitVec.ofNat 32 (t.val * 512 + r.val) := by
    show BitVec.ofNat 32 t.val * 512#32 + BitVec.ofNat 32 r.val = _
    rw [BitVec.ofNat_add, BitVec.ofNat_mul]
  rw [e, BitVec.toInt_eq_toNat_of_lt (by rw [BitVec.toNat_ofNat]; omega), BitVec.toNat_ofNat]
  congr 1
  omega

/-- The mask's bit: key position at or before query position. -/
theorem mask_bit (qi ki : Fin 4) (p c : Fin 512) :
    IntOp.cmpi .sle (IntOp.addi (Scalar.muli (BitVec.ofNat 32 ki.val) 512#32) (BitVec.ofNat 32 c.val))
        (IntOp.addi (Scalar.muli (BitVec.ofNat 32 qi.val) 512#32) (BitVec.ofNat 32 p.val)) = 1#1
      ↔ ki.val * 512 + c.val ≤ qi.val * 512 + p.val := by
  rw [IntOp.cmpi_sle, pos_toInt, pos_toInt]
  exact Int.ofNat_le

/-- The inner product of query row p and key row c: the product of the query block with the transposed key block. -/
theorem dot_apply (q kb : Vec Ideal S1x512x64 .bf16) (p c : Fin 512) :
    matmul (F := Ideal) (φ₁ := .bf16) (φ₂ := .bf16) dot_S512x64_S64x512_S512x512_1_0_0_1_n_n none
        (shapeCast S512x64 q shapeCasts_S1x512x64_S512x64)
        (transpose S64x512 [1, 0] (shapeCast S512x64 kb shapeCasts_S1x512x64_S512x64) transposes_S512x64_p1_0_S64x512)
        (constant S512x512 .f32 0x00000000#32) (ix2 p c)
      = ∑ d : Fin 64, q (ix3 0 p d) * kb (ix3 0 c d) := by
  refine (Cert.PlainMatmul.matmul_zero_apply _ none _ _ p c).trans (Finset.sum_congr rfl fun d _ => ?_)
  refine congrArg₂ (· * ·) (shapeCast_1ab_ab_apply q _ p d) ?_
  exact (transpose_ix2_apply _ _ d c).trans (shapeCast_1ab_ab_apply kb _ c d)

/-- The score tile at (p, c). -/
theorem pay9_apply (qi ki : Fin 4) (q kb : Vec Ideal S1x512x64 .bf16) (p c : Fin 512) :
    k1_pay9 (F := Ideal) (BitVec.ofNat 32 qi.val) (BitVec.ofNat 32 ki.val) q kb (ix2 p c) = tileScore qi.val ki.val q kb p c := by
  unfold k1_pay9 tileScore
  refine (select_apply _ _ _ (ix2 p c)).trans ?_
  show Scalar.select (IntOp.cmpi .sle (IntOp.addi (Scalar.muli (BitVec.ofNat 32 ki.val) 512#32) (iota .tc S512x512 32 [1] iota_S512x512_d1_w32 (ix2 p c)))
      (IntOp.addi (Scalar.muli (BitVec.ofNat 32 qi.val) 512#32) (iota .tc S512x512 32 [0] iota_S512x512_d0_w32 (ix2 p c)))) _ _ = _
  rw [iota_single_apply, iota_single_apply]
  show (if _ = 1#1 then _ else _) = _
  refine (if_congr (mask_bit qi ki p c) ?_ negBig)
  exact congrArg₂ (· * ·) (dot_apply q kb p c) ofBits_eighth

end Cert.KernelIdeal.Reg1Pay

end
-- ==== Proof.Reg1PayStep.lean ====
/-
  One step of the blockwise softmax of a 512-row query tile against a 512-row key tile, read entry by entry.

  For row p of the query tile the carried state is (m, l, a): the running maximum, the running normaliser and the running
  weighted sums (one per coordinate d of the values). With s c the masked, scaled score of row p against key c of the tile
  and v c d the tile's value rows, the step computes
      m' = max m (max_c s c),   α = exp (m - m'),   w c = exp (s c - m'),
      l' = α · l + Σ_c w c,     a' d = α · a d + Σ_c w c · v c d :
  the row maximum is a lane maximum from -∞ kept as a column, the row sum a lane sum from zero kept as a column, the
  weighted sum a matrix product of the weights with the value block into a zero accumulator, and a column is spread over
  the lanes of its row. These are the three components of one step of the blockwise softmax on the extended reals. Before
  the first key tile the state is (-∞, 0, 0); after the last one the result is a d / l.
-/
import proofs.«144787_j3307124818573_2_alg».proof.Proof.Gen.KernelIdeal.Skeleton
import proofs.«144787_j3307124818573_2_alg».proof.Proof.LibOnlineSoftmax
import proofs.«144787_j3307124818573_2_alg».proof.Proof.LibRowOps
import proofs.«144787_j3307124818573_2_alg».proof.Proof.LibKeepdims
import proofs.«144787_j3307124818573_2_alg».proof.Proof.LibPlainMatmul
import proofs.«144787_j3307124818573_2_alg».proof.Proof.Reg1PayScore
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg1Pay

open Cert.KernelIdeal Cert.KernelIdeal.Gen Cert.OnlineSoftmax Idealize.ShloMosaic Idealize.ShloMosaic.ValueIdx

section Step

variable (qi ki : Fin 4) (q kb vblk : Vec Ideal S1x512x64 .bf16) (mp lp : Vec Ideal S512x1 .f32)
  (ap : Vec Ideal S512x64 .f32) (p : Fin 512) (d : Fin 64)

/-- Row p's new running maximum: the old one against the maximum of the row's scores in this tile. -/
theorem pay10_apply :
    k1_pay10 (F := Ideal) (BitVec.ofNat 32 qi.val) (BitVec.ofNat 32 ki.val) q kb mp (ix2 p 0)
      = max (mp (ix2 p 0)) (blockMax fun c => tileScore qi.val ki.val q kb p c) := by
  unfold k1_pay10
  refine (maximumf_apply _ _ (ix2 p 0)).trans ?_
  refine congrArg (max (mp (ix2 p 0))) ?_
  refine (Cert.Keepdims.shapeCast_a_a1_apply _ _ p 0).trans ?_
  refine (Cert.RowOps.laneMax_apply _ _ _ _ _ p).trans ?_
  unfold blockMax
  rw [Cert.SoftmaxRow.ofBits_negInf]
  exact congrArg (fun f => (Finset.univ : Finset (Fin 512)).fold max ⊥ f) (funext fun c => pay9_apply qi ki q kb p c)

/-- The factor that moves row p's old sums to the new maximum. -/
theorem pay11_apply :
    k1_pay11 (F := Ideal) (BitVec.ofNat 32 qi.val) (BitVec.ofNat 32 ki.val) q kb mp (ix2 p 0)
      = Ideal.exp (mp (ix2 p 0) - max (mp (ix2 p 0)) (blockMax fun c => tileScore qi.val ki.val q kb p c)) := by
  unfold k1_pay11
  show Ideal.exp (mp (ix2 p 0) - k1_pay10 (F := Ideal) (BitVec.ofNat 32 qi.val) (BitVec.ofNat 32 ki.val) q kb mp (ix2 p 0)) = _
  exact congrArg (fun x => Ideal.exp (mp (ix2 p 0) - x)) (pay10_apply qi ki q kb mp p)

/-- The weight of key c in row p, relative to the new maximum. -/
theorem pay12_apply (c : Fin 512) :
    k1_pay12 (F := Ideal) (BitVec.ofNat 32 qi.val) (BitVec.ofNat 32 ki.val) q kb mp (ix2 p c)
      = Ideal.exp (tileScore qi.val ki.val q kb p c
          - max (mp (ix2 p 0)) (blockMax fun c => tileScore qi.val ki.val q kb p c)) := by
  unfold k1_pay12
  show Ideal.exp (k1_pay9 (F := Ideal) (BitVec.ofNat 32 qi.val) (BitVec.ofNat 32 ki.val) q kb (ix2 p c)
      - broadcastTo S512x512 (k1_pay10 (F := Ideal) (BitVec.ofNat 32 qi.val) (BitVec.ofNat 32 ki.val) q kb mp)
          broadcasts_S512x1_S512x512 (ix2 p c)) = _
  exact congrArg₂ (fun x y => Ideal.exp (x - y)) (pay9_apply qi ki q kb p c)
    ((Cert.Keepdims.broadcastTo_a1_ab_apply _ _ p c).trans (pay10_apply qi ki q kb mp p))

/-- The stored running maximum is the first component of the step. -/
theorem step_m :
    k1_pay6 (F := Ideal) (k1_pay10 (BitVec.ofNat 32 qi.val) (BitVec.ofNat 32 ki.val) q kb mp) (ix2 p 0)
      = (step (fun c => tileScore qi.val ki.val q kb p c) (fun c : Fin 512 => vblk (ix3 0 c d))
          (mp (ix2 p 0), lp (ix2 p 0), ap (ix2 p d))).1 := by
  unfold k1_pay6
  refine (congrFun (shapeCast_self _ _) (ix2 p 0)).trans ?_
  exact pay10_apply qi ki q kb mp p

/-- The stored running normaliser is the second component of the step. -/
theorem step_l :
    k1_pay4 (F := Ideal) (k1_pay13 (BitVec.ofNat 32 qi.val) (BitVec.ofNat 32 ki.val) q kb mp lp) (ix2 p 0)
      = (step (fun c => tileScore qi.val ki.val q kb p c) (fun c : Fin 512 => vblk (ix3 0 c d))
          (mp (ix2 p 0), lp (ix2 p 0), ap (ix2 p d))).2.1 := by
  unfold k1_pay4
  refine (congrFun (shapeCast_self _ _) (ix2 p 0)).trans ?_
  unfold k1_pay13
  show k1_pay11 (F := Ideal) (BitVec.ofNat 32 qi.val) (BitVec.ofNat 32 ki.val) q kb mp (ix2 p 0) * lp (ix2 p 0)
      + shapeCast S512x1 (multiReduction (F := Ideal) .add [1] S512
          (k1_pay12 (F := Ideal) (BitVec.ofNat 32 qi.val) (BitVec.ofNat 32 ki.val) q kb mp) 0x00000000#32
          reduces_S512x512_S512 (.inl rfl) rfl) shapeCasts_S512_S512x1 (ix2 p 0)
    = Ideal.exp (mp (ix2 p 0) - max (mp (ix2 p 0)) (blockMax fun c => tileScore qi.val ki.val q kb p c)) * lp (ix2 p 0)
      + ∑ c : Fin 512, Ideal.exp (tileScore qi.val ki.val q kb p c
          - max (mp (ix2 p 0)) (blockMax fun c => tileScore qi.val ki.val q kb p c))
  refine congrArg₂ (· + ·) (congrArg (· * lp (ix2 p 0)) (pay11_apply qi ki q kb mp p)) ?_
  refine (Cert.Keepdims.shapeCast_a_a1_apply _ _ p 0).trans ((Cert.RowOps.laneSum_apply _ _ _ _ _ p).trans ?_)
  exact Finset.sum_congr rfl fun c _ => pay12_apply qi ki q kb mp p c

/-- The stored running weighted sum, at coordinate d, is the third component of the step. -/
theorem step_a :
    k1_pay5 (F := Ideal) (k1_pay8 vblk) (k1_pay11 (BitVec.ofNat 32 qi.val) (BitVec.ofNat 32 ki.val) q kb mp)
        (k1_pay12 (BitVec.ofNat 32 qi.val) (BitVec.ofNat 32 ki.val) q kb mp) ap (ix2 p d)
      = (step (fun c => tileScore qi.val ki.val q kb p c) (fun c : Fin 512 => vblk (ix3 0 c d))
          (mp (ix2 p 0), lp (ix2 p 0), ap (ix2 p d))).2.2 := by
  unfold k1_pay5
  refine (congrFun (shapeCast_self _ _) (ix2 p d)).trans ?_
  show broadcastTo S512x64 (k1_pay11 (F := Ideal) (BitVec.ofNat 32 qi.val) (BitVec.ofNat 32 ki.val) q kb mp)
          broadcasts_S512x1_S512x64 (ix2 p d) * ap (ix2 p d)
      + matmul (F := Ideal) (φ₁ := .bf16) (φ₂ := .bf16) dot_S512x512_S512x64_S512x64_1_0_0_1_n_n none
          (truncf .bf16 (k1_pay12 (F := Ideal) (BitVec.ofNat 32 qi.val) (BitVec.ofNat 32 ki.val) q kb mp) bitsLt_bf16_f32)
          (k1_pay8 (F := Ideal) vblk) (constant S512x64 .f32 0x00000000#32) (ix2 p d)
    = Ideal.exp (mp (ix2 p 0) - max (mp (ix2 p 0)) (blockMax fun c => tileScore qi.val ki.val q kb p c)) * ap (ix2 p d)
      + ∑ c : Fin 512, Ideal.exp (tileScore qi.val ki.val q kb p c
          - max (mp (ix2 p 0)) (blockMax fun c => tileScore qi.val ki.val q kb p c)) * vblk (ix3 0 c d)
  refine congrArg₂ (· + ·) (congrArg (· * ap (ix2 p d))
    ((Cert.Keepdims.broadcastTo_a1_ab_apply _ _ p d).trans (pay11_apply qi ki q kb mp p))) ?_
  refine (Cert.PlainMatmul.matmul_zero_apply _ none _ _ p d).trans (Finset.sum_congr rfl fun c _ => ?_)
  refine congrArg₂ (· * ·) ((truncf_apply (ψ := .bf16) (φ := .f32) _ bitsLt_bf16_f32 (ix2 p c)).trans (pay12_apply qi ki q kb mp p c)) ?_
  unfold k1_pay8
  exact shapeCast_1ab_ab_apply vblk _ c d

end Step

/-! ## The state before the first key tile, and the quotient after the last -/

/-- The running maximum starts at -∞. -/
theorem reset_m (p : Fin 512) : k1_pay1 (F := Ideal) (ix2 p 0) = ⊥ := by
  unfold k1_pay1
  refine (congrFun (shapeCast_self _ _) (ix2 p 0)).trans ?_
  exact Cert.SoftmaxRow.ofBits_negInf

/-- The running normaliser starts at zero. -/
theorem reset_l (p : Fin 512) : k1_pay2 (F := Ideal) (ix2 p 0) = 0 := by
  unfold k1_pay2
  refine (congrFun (shapeCast_self _ _) (ix2 p 0)).trans ?_
  exact Ideal.ofBits_zero_f32

/-- The running weighted sums start at zero. -/
theorem reset_a (p : Fin 512) (d : Fin 64) : k1_pay3 (F := Ideal) (ix2 p d) = 0 := by
  unfold k1_pay3
  refine (congrFun (shapeCast_self _ _) (ix2 p d)).trans ?_
  exact Ideal.ofBits_zero_f32

/-- The result row: each weighted sum divided by the row's normaliser. -/
theorem quot_apply (ap : Vec Ideal S512x64 .f32) (lp : Vec Ideal S512x1 .f32) (p : Fin 512) (d : Fin 64) :
    k1_pay7 (F := Ideal) ap lp (ix3 0 p d) = Ideal.div (ap (ix2 p d)) (lp (ix2 p 0)) := by
  unfold k1_pay7
  refine (shapeCast_ab_1ab_apply _ _ 0 p d).trans ?_
  show Ideal.div (ap (ix2 p d)) (broadcastTo S512x64 lp broadcasts_S512x1_S512x64 (ix2 p d)) = _
  exact congrArg (Ideal.div (ap (ix2 p d))) (Cert.Keepdims.broadcastTo_a1_ab_apply _ _ p d)

end Cert.KernelIdeal.Reg1Pay

end
-- ==== Proof.AttnRow.lean ====
/-
  One row of causal attention computed tile by tile, over plain arrays.

  Q, K, V are arrays [32, 2048, 64]: 32 heads, 2048 positions, 64 coordinates. For head h and query row r, the scores
  against the 512 keys of tile j are the inner products of Q's row r with K's rows j · 512 + c, times 1/8, where that
  key is not after r, and -∞ where it is; the values in column d are V's rows j · 512 + c. The running softmax (running
  maximum, normaliser, weighted sum) taken over the tiles 0 … r / 512 — the later tiles hold only keys after r — ends
  in a state whose weighted sum divided by its normaliser is the row's output in column d.
-/
import Idealize.ShloMosaic.PureOps.Ideal
import Idealize.ShloMosaic.Lib.ValueIdx
import proofs.«144787_j3307124818573_2_alg».proof.Proof.LibOnlineSoftmax

noncomputable section

namespace Cert.AttnRow

open Idealize.ShloMosaic Idealize.ShloMosaic.ValueIdx Cert.OnlineSoftmax

/-- The shape of the per-head arrays. -/
abbrev SH : Shape := ⟨3, ![32, 2048, 64]⟩

/-- Row j · 512 + c of a head's 2048 rows; the tile number is taken mod 4. -/
def krow (j : ℕ) (cidx : Fin 512) : Fin 2048 :=
  ⟨(j % 4) * 512 + cidx.val, by have := cidx.isLt; have := Nat.mod_lt j (by decide : 0 < 4); omega⟩

/-- The scores of query row r of head h against the keys of tile j: scaled inner products, -∞ after the row. -/
def rowS (Q K : SH.Idx → EReal) (h : Fin 32) (r : Fin 2048) (j : ℕ) (cidx : Fin 512) : EReal :=
  if j * 512 + cidx.val ≤ r.val then
    (∑ d : Fin 64, Q (ix3 h r d) * K (ix3 h (krow j cidx) d)) * ((1 / 8 : ℝ) : EReal)
  else ⊥

/-- Column d of the values of tile j in head h. -/
def rowW (Vv : SH.Idx → EReal) (h : Fin 32) (d : Fin 64) (j : ℕ) (cidx : Fin 512) : EReal := Vv (ix3 h (krow j cidx) d)

/-- The row's output in column d: after the tiles 0 … r / 512, the weighted sum divided by the normaliser. -/
def outG (Q K Vv : SH.Idx → EReal) (h : Fin 32) (r : Fin 2048) (d : Fin 64) : EReal :=
  Ideal.div (run (rowS Q K h r) (rowW Vv h d) (r.val / 512 + 1)).2.2 (run (rowS Q K h r) (rowW Vv h d) (r.val / 512 + 1)).2.1

end Cert.AttnRow

end
-- ==== Proof.Reg1Step.lean ====
/-
  The attention region at the extended reals: one point's step is one step of the running softmax of each row.

  For head h, query row r (of the head's 2048) and key tile j, the row's scores against the tile's 512 keys are the
  scaled inner products of row r of the queries with the keys' rows j · 512 + c where that key is not after r, and -∞
  where it is; the row's values in column d are the values' rows j · 512 + c. At a point (head, query tile, key tile)
  the body's step payloads, read at row p and column d of the carried buffers, are one step of the running softmax
  (running maximum, normaliser, weighted sum) over exactly these scores and values of the point's key tile.
-/
import proofs.«144787_j3307124818573_2_alg».proof.Proof.Reg1Pieces
import proofs.«144787_j3307124818573_2_alg».proof.Proof.Reg1Blocks
import proofs.«144787_j3307124818573_2_alg».proof.Proof.Reg1PayStep
import proofs.«144787_j3307124818573_2_alg».proof.Proof.AttnRow
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.OnlineSoftmax Cert.KernelIdeal.Reg1Pay
open Cert.AttnRow (krow)

variable (V : (c : Dev nD) → (b : Ref sig .tc) → Buf (Elt Ideal) ((c : Thread nD τ).loc b)) (c : Dev nD)

/-- The row's scores against tile j, over the region's queries' and keys' arrays. -/
abbrev rowS (h : Fin 32) (r : Fin 2048) (j : ℕ) (cidx : Fin 512) : EReal := Cert.AttnRow.rowS (V c main_v9) (V c main_v12) h r j cidx
/-- The row's values in column d of tile j, over the region's values' array. -/
abbrev rowW (h : Fin 32) (d : Fin 64) (j : ℕ) (cidx : Fin 512) : EReal := Cert.AttnRow.rowW (V c main_v15) h d j cidx

/-- The key tile's rows of a resident block, at coordinates: row c of the tile is row 512 · ktile + c. -/
theorem tileRows_apply (t : Fin cfg1.N) (h) (x : Vec Ideal S1x2048x64 .bf16) (cidx : Fin 512) (d : Fin 64) :
    tileRows (grid1.coords t) h x (ix3 0 cidx d) = x (ix3 0 (krow (t.val % 4) cidx) d) := by
  obtain ⟨-, -, hoff⟩ := coords_facts t
  unfold tileRows
  show x _ = x _
  congr 1
  funext a
  apply Fin.ext
  match a with
  | ⟨0, _⟩ => show (k1_off1 (grid1.coords t)) 0 + 1 * 0 = 0; rw [hoff]; rfl
  | ⟨1, _⟩ => show (k1_off1 (grid1.coords t)) 1 + 1 * cidx.val = (t.val % 4 % 4) * 512 + cidx.val; rw [hoff]; show (t.val % 4) * 512 + 1 * cidx.val = _; omega
  | ⟨2, _⟩ => show (k1_off1 (grid1.coords t)) 2 + 1 * d.val = d.val; rw [hoff]; show 0 + 1 * d.val = _; omega

/-- The tile's scores of row p at a point are the row's scores against the point's key tile. -/
theorem score_eq (t : Fin cfg1.N) (h) (p cidx : Fin 512) :
    tileScore ((t.val / 4) % 4) (t.val % 4) (iblk V c 0 t) (tileRows (grid1.coords t) h (iblk V c 1 t)) p cidx
      = rowS V c (hd t) (qrow t p) (t.val % 4) cidx := by
  unfold tileScore rowS Cert.AttnRow.rowS
  by_cases hle : (t.val % 4) * 512 + cidx.val ≤ ((t.val / 4) % 4) * 512 + p.val
  · rw [if_pos hle, if_pos (show (t.val % 4) * 512 + cidx.val ≤ (qrow t p).val from hle)]
    congr 1
    refine Finset.sum_congr rfl fun d _ => ?_
    rw [iblk0_apply, tileRows_apply, iblk1_apply]
  · rw [if_neg hle, if_neg (show ¬(t.val % 4) * 512 + cidx.val ≤ (qrow t p).val from hle)]

/-- The tile's values in column d at a point are the row's values of the point's key tile. -/
theorem val_eq (t : Fin cfg1.N) (h) (cidx : Fin 512) (d : Fin 64) :
    tileRows (grid1.coords t) h (iblk V c 2 t) (ix3 0 cidx d) = rowW V c (hd t) d (t.val % 4) cidx := by
  unfold rowW Cert.AttnRow.rowW
  rw [tileRows_apply, iblk2_apply]

/-- ONE STEP AT A POINT: the body's step payloads of the point's blocks and of carried contents (mp, lp, ap), read at
    row p and column d, are one step of the running softmax over the row's scores and values of the point's key tile. -/
theorem step_at (t : Fin cfg1.N) (h) (mp lp : Vec Ideal S512x1 .f32) (ap : Vec Ideal S512x64 .f32) (p : Fin 512) (d : Fin 64) :
    (k1_pay6 (F := Ideal) (k1_pay10 (BitVec.ofNat 32 ((grid1.coords t) 1).val) (BitVec.ofNat 32 ((grid1.coords t) 2).val) (iblk V c 0 t) (tileRows (grid1.coords t) h (iblk V c 1 t)) mp) (ix2 p 0),
     k1_pay4 (F := Ideal) (k1_pay13 (BitVec.ofNat 32 ((grid1.coords t) 1).val) (BitVec.ofNat 32 ((grid1.coords t) 2).val) (iblk V c 0 t) (tileRows (grid1.coords t) h (iblk V c 1 t)) mp lp) (ix2 p 0),
     k1_pay5 (F := Ideal) (k1_pay8 (tileRows (grid1.coords t) h (iblk V c 2 t))) (k1_pay11 (BitVec.ofNat 32 ((grid1.coords t) 1).val) (BitVec.ofNat 32 ((grid1.coords t) 2).val) (iblk V c 0 t) (tileRows (grid1.coords t) h (iblk V c 1 t)) mp)
        (k1_pay12 (BitVec.ofNat 32 ((grid1.coords t) 1).val) (BitVec.ofNat 32 ((grid1.coords t) 2).val) (iblk V c 0 t) (tileRows (grid1.coords t) h (iblk V c 1 t)) mp) ap (ix2 p d))
      = step (rowS V c (hd t) (qrow t p) (t.val % 4)) (rowW V c (hd t) d (t.val % 4)) (mp (ix2 p 0), lp (ix2 p 0), ap (ix2 p d)) := by
  obtain ⟨h1, h2, -⟩ := coords_facts t
  rw [h1, h2]
  have hS : (fun cidx => tileScore ((t.val / 4) % 4) (t.val % 4) (iblk V c 0 t) (tileRows (grid1.coords t) h (iblk V c 1 t)) p cidx)
      = rowS V c (hd t) (qrow t p) (t.val % 4) := funext fun cidx => score_eq V c t h p cidx
  have hW : (fun cidx : Fin 512 => tileRows (grid1.coords t) h (iblk V c 2 t) (ix3 0 cidx d)) = rowW V c (hd t) d (t.val % 4) :=
    funext fun cidx => val_eq V c t h cidx d
  have qlt : (t.val / 4) % 4 < 4 := Nat.mod_lt _ (by decide)
  have klt : t.val % 4 < 4 := Nat.mod_lt _ (by decide)
  rw [← hS, ← hW]
  refine Prod.ext ?_ (Prod.ext ?_ ?_)
  · exact step_m ⟨(t.val / 4) % 4, qlt⟩ ⟨t.val % 4, klt⟩ (iblk V c 0 t) (tileRows (grid1.coords t) h (iblk V c 1 t)) (tileRows (grid1.coords t) h (iblk V c 2 t)) mp lp ap p d
  · exact step_l ⟨(t.val / 4) % 4, qlt⟩ ⟨t.val % 4, klt⟩ (iblk V c 0 t) (tileRows (grid1.coords t) h (iblk V c 1 t)) (tileRows (grid1.coords t) h (iblk V c 2 t)) mp lp ap p d
  · exact step_a ⟨(t.val / 4) % 4, qlt⟩ ⟨t.val % 4, klt⟩ (iblk V c 0 t) (tileRows (grid1.coords t) h (iblk V c 1 t)) (tileRows (grid1.coords t) h (iblk V c 2 t)) mp lp ap p d

end Cert.KernelIdeal.Reg1

end
-- ==== Proof.Reg1Inv.lean ====
/-
  The attention region at the extended reals: what the carried buffers hold after each point.

  Fix a row p of the query tile and a column d. After the body at a point the triple (running maximum of row p,
  normaliser of row p, weighted sum at (p, d)) is: at key tile 0, one step from (-∞, 0, 0); at a later key tile not
  after the query tile, one step from the triple the point before left; at a key tile after the query tile, the
  triple the point before left. So after the point with key tile k of query tile q it is the running softmax of the
  row over the tiles 0 … min k q.
-/
import proofs.«144787_j3307124818573_2_alg».proof.Proof.Reg1Step

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.OnlineSoftmax Cert.KernelIdeal.Reg1Pay

variable (V : (c : Dev nD) → (b : Ref sig .tc) → Buf (Elt Ideal) ((c : Thread nD τ).loc b)) (c : Dev nD)
open Cert.AttnRow (krow)

/-- Row p's running maximum and normaliser and the weighted sum at (p, d), after the body at position n. -/
def triple (n : ℕ) (hn : n < cfg1.N) (p : Fin 512) (d : Fin 64) : EReal × EReal × EReal :=
  ((outsAt V c n hn).2.1 (ix2 p 0), (outsAt V c n hn).2.2.1 (ix2 p 0), (outsAt V c n hn).2.2.2 (ix2 p d))

theorem triple_A (t : Fin cfg1.N) (h0 : t.val % 4 = 0) (h1 : t.val % 4 ≤ (t.val / 4) % 4) (h2 : ¬t.val % 4 = 3) (p : Fin 512) (d : Fin 64) :
    triple V c t.val t.isLt p d = step (rowS V c (hd t) (qrow t p) (t.val % 4)) (rowW V c (hd t) d (t.val % 4)) (⊥, 0, 0) := by
  unfold triple
  rw [outsAt_A V c t h0 h1 h2]
  dsimp only
  rw [soutM_A_eq, soutL_A_eq, soutA_A_eq]
  refine (step_at V c t _ (k1_pay1 (F := Ideal)) (k1_pay2 (F := Ideal)) (k1_pay3 (F := Ideal)) p d).trans ?_
  rw [reset_m, reset_l, reset_a]

theorem triple_B (t : Fin cfg1.N) (h0 : ¬t.val % 4 = 0) (h1 : t.val % 4 ≤ (t.val / 4) % 4) (h2 : ¬t.val % 4 = 3) (p : Fin 512) (d : Fin 64) :
    triple V c t.val t.isLt p d = step (rowS V c (hd t) (qrow t p) (t.val % 4)) (rowW V c (hd t) d (t.val % 4)) (triple V c (t.val - 1) (Nat.lt_of_le_of_lt (Nat.sub_le _ _) t.isLt) p d) := by
  unfold triple
  rw [outsAt_B V c t h0 h1 h2]
  dsimp only
  rw [soutM_B_eq, soutL_B_eq, soutA_B_eq]
  exact step_at V c t _ _ _ _ p d

theorem triple_C (t : Fin cfg1.N) (h0 : ¬t.val % 4 = 0) (h1 : t.val % 4 ≤ (t.val / 4) % 4) (h2 : t.val % 4 = 3) (p : Fin 512) (d : Fin 64) :
    triple V c t.val t.isLt p d = step (rowS V c (hd t) (qrow t p) (t.val % 4)) (rowW V c (hd t) d (t.val % 4)) (triple V c (t.val - 1) (Nat.lt_of_le_of_lt (Nat.sub_le _ _) t.isLt) p d) := by
  unfold triple
  rw [outsAt_C V c t h0 h1 h2]
  dsimp only
  rw [soutM_C_eq, soutL_C_eq, soutA_C_eq]
  exact step_at V c t _ _ _ _ p d

theorem triple_D (t : Fin cfg1.N) (h0 : ¬t.val % 4 = 0) (h1 : ¬t.val % 4 ≤ (t.val / 4) % 4) (h2 : ¬t.val % 4 = 3) (p : Fin 512) (d : Fin 64) :
    triple V c t.val t.isLt p d = (triple V c (t.val - 1) (Nat.lt_of_le_of_lt (Nat.sub_le _ _) t.isLt) p d) := by
  unfold triple
  rw [outsAt_D V c t h0 h1 h2]

theorem triple_E (t : Fin cfg1.N) (h0 : ¬t.val % 4 = 0) (h1 : ¬t.val % 4 ≤ (t.val / 4) % 4) (h2 : t.val % 4 = 3) (p : Fin 512) (d : Fin 64) :
    triple V c t.val t.isLt p d = (triple V c (t.val - 1) (Nat.lt_of_le_of_lt (Nat.sub_le _ _) t.isLt) p d) := by
  unfold triple
  rw [outsAt_E V c t h0 h1 h2]

/-- THE INVARIANT: after the point at position n (key tile n % 4 of query tile (n / 4) % 4) the triple is the running
    softmax of the row over the key tiles 0 … min (n % 4) ((n / 4) % 4). -/
theorem inv : ∀ (n : ℕ) (hn : n < cfg1.N) (p : Fin 512) (d : Fin 64),
    triple V c n hn p d
      = run (rowS V c (hd ⟨n, hn⟩) (qrow ⟨n, hn⟩ p)) (rowW V c (hd ⟨n, hn⟩) d) (min (n % 4) ((n / 4) % 4) + 1)
  | 0, hn, p, d => by
    rw [triple_A V c ⟨0, hn⟩ (Nat.zero_mod _) (Nat.zero_le _) (by dsimp only; omega) p d]
    show step _ _ (⊥, 0, 0) = run _ _ (0 + 1)
    rw [run_succ, run_zero]
    rfl
  | n + 1, hn, p, d => by
    have ih := inv n (Nat.lt_of_succ_lt hn) p d
    by_cases h0 : (n + 1) % 4 = 0
    · rw [triple_A V c ⟨n + 1, hn⟩ h0 (c1_of_c0 h0) (nc2_of_c0 h0) p d]
      have hm : min ((n + 1) % 4) (((n + 1) / 4) % 4) + 1 = 0 + 1 := by rw [h0]; simp
      rw [hm, run_succ, run_zero]
      show step (rowS V c _ _ ((n + 1) % 4)) (rowW V c _ d ((n + 1) % 4)) (⊥, 0, 0) = _
      rw [h0]
    · have hhd : hd (⟨n + 1, hn⟩ : Fin cfg1.N) = hd ⟨n, Nat.lt_of_succ_lt hn⟩ := Fin.ext (by show (n + 1) / 16 = n / 16; omega)
      have hqr : qrow (⟨n + 1, hn⟩ : Fin cfg1.N) p = qrow ⟨n, Nat.lt_of_succ_lt hn⟩ p := Fin.ext (by show ((n + 1) / 4) % 4 * 512 + p.val = (n / 4) % 4 * 512 + p.val; have h4 : (n + 1) / 4 = n / 4 := (by omega); rw [h4])
      have hq : ((n + 1) / 4) % 4 = (n / 4) % 4 := by have h4 : (n + 1) / 4 = n / 4 := (by omega); rw [h4]
      have hk : n % 4 + 1 = (n + 1) % 4 := by omega
      have hprev : triple V c ((⟨n + 1, hn⟩ : Fin cfg1.N).val - 1) (Nat.lt_of_le_of_lt (Nat.sub_le _ _) (⟨n + 1, hn⟩ : Fin cfg1.N).isLt) p d
          = triple V c n (Nat.lt_of_succ_lt hn) p d := rfl
      by_cases h1 : (n + 1) % 4 ≤ ((n + 1) / 4) % 4
      · have hstep : triple V c (n + 1) hn p d
            = step (rowS V c (hd ⟨n + 1, hn⟩) (qrow ⟨n + 1, hn⟩ p) ((n + 1) % 4)) (rowW V c (hd ⟨n + 1, hn⟩) d ((n + 1) % 4))
                (triple V c n (Nat.lt_of_succ_lt hn) p d) := by
          by_cases h2 : (n + 1) % 4 = 3
          · exact (triple_C V c ⟨n + 1, hn⟩ h0 h1 h2 p d).trans (by rw [hprev])
          · exact (triple_B V c ⟨n + 1, hn⟩ h0 h1 h2 p d).trans (by rw [hprev])
        rw [hstep, ih, hhd, hqr]
        have hm1 : min (n % 4) ((n / 4) % 4) + 1 = (n + 1) % 4 := by rw [hq] at h1; omega
        have hm2 : min ((n + 1) % 4) (((n + 1) / 4) % 4) + 1 = (n + 1) % 4 + 1 := by omega
        rw [hm1, hm2, run_succ]
      · have hkeep : triple V c (n + 1) hn p d = triple V c n (Nat.lt_of_succ_lt hn) p d := by
          by_cases h2 : (n + 1) % 4 = 3
          · exact (triple_E V c ⟨n + 1, hn⟩ h0 h1 h2 p d).trans hprev
          · exact (triple_D V c ⟨n + 1, hn⟩ h0 h1 h2 p d).trans hprev
        rw [hkeep, ih, hhd, hqr]
        have hm : min (n % 4) ((n / 4) % 4) + 1 = min ((n + 1) % 4) (((n + 1) / 4) % 4) + 1 := by rw [hq] at h1 ⊢; omega
        rw [hm]

end Cert.KernelIdeal.Reg1

end
-- ==== Proof.Reg1Final.lean ====
/-
  The attention region's result array, index by index.

  At the last key tile of a query tile the body stores, at (p, d) of the output tile, the weighted sum at (p, d) divided
  by the normaliser of row p, both as the same point leaves them; by the invariant these are the running softmax of the
  row over the key tiles 0 … query tile. The tile is written back to rows [512 · qtile, 512 · qtile + 512) of the
  head, and these blocks cover the array: entry (h, r, d) is written by the point (h, r / 512, 3).
-/
import proofs.«144787_j3307124818573_2_alg».proof.Proof.Reg1Inv

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.OnlineSoftmax Cert.KernelIdeal.Reg1Pay

variable (V : (c : Dev nD) → (b : Ref sig .tc) → Buf (Elt Ideal) ((c : Thread nD τ).loc b)) (c : Dev nD)

/-- The region's result array as one function of the three arrays it is entered with. -/
def G1 (Q K Vv : Cert.AttnRow.SH.Idx → EReal) : Cert.AttnRow.SH.Idx → EReal :=
  fun i => Cert.AttnRow.outG Q K Vv (i 0) (i 1) (i 2)

/-- At the last key tile the output tile holds the quotient of the sums the same point leaves. -/
theorem out_eq_quot (t : Fin cfg1.N) (h2 : t.val % 4 = 3) :
    (outsAt V c t.val t.isLt).1
      = k1_pay7 (F := Ideal) (outsAt V c t.val t.isLt).2.2.2 (outsAt V c t.val t.isLt).2.2.1 := by
  have h0 : ¬t.val % 4 = 0 := by omega
  by_cases h1 : t.val % 4 ≤ (t.val / 4) % 4
  · rw [outsAt_C V c t h0 h1 h2]
    dsimp only
    rw [out_C_eq, soutA_C_eq, soutL_C_eq]
  · rw [outsAt_E V c t h0 h1 h2]
    dsimp only
    rw [out_E_eq]

/-- The output window's block of a whole-array function, at coordinates. -/
theorem blk3_read (G : S32x2048x64.Idx → EReal) (t : Fin cfg1.N) (p : Fin 512) (d : Fin 64) :
    (((cfg1.win 3).blk t).view.read (Elt Ideal) G : S1x512x64.Idx → EReal) (ix3 0 p d) = G (ix3 (hd t) (qrow t p) d) := by
  obtain ⟨-, -, -, ⟨h0, h1, h2⟩⟩ := idx_facts t
  rw [View.read_apply]
  refine congrArg G ?_
  funext a
  apply Fin.ext
  match a with
  | ⟨0, _⟩ => show win1_3.index t 0 * 1 + 1 * 0 = t.val / 16; rw [h0]; omega
  | ⟨1, _⟩ => show win1_3.index t 1 * 512 + 1 * p.val = ((t.val / 4) % 4) * 512 + p.val; rw [h1]; omega
  | ⟨2, _⟩ => show win1_3.index t 2 * 64 + 1 * d.val = d.val; rw [h2]; omega

/-- What a point of the last key tile writes back is its block of the whole-array function. -/
theorem flushed1_eq (t : Fin cfg1.N) (hf : (cfg1.win 3).flush t = true) :
    (dat1 (F := Ideal) V c).flushed 3 t
      = ((cfg1.win 3).blk t).view.read (Elt Ideal) (G1 (V c main_v9) (V c main_v12) (V c main_v15)) := by
  have h2 : t.val % 4 = 3 := (flush1_3 t).mp hf
  show (cfg1.win 3).cut (grid1.coords t) ((dat1 V c).after 3 t) = _
  rw [after_3, out_eq_quot V c t h2]
  funext (y : S1x512x64.Idx)
  obtain ⟨z, p, d, rfl⟩ : ∃ (z : Fin 1) (p : Fin 512) (d : Fin 64), y = ix3 z p d := ⟨y 0, y 1, y 2, eq_ix3 y⟩
  obtain rfl : z = 0 := Subsingleton.elim _ _
  refine (quot_apply _ _ p d).trans ?_
  refine Eq.trans ?_ (blk3_read (G1 (V c main_v9) (V c main_v12) (V c main_v15)) t p d).symm
  have hinv := inv V c t.val t.isLt p d
  unfold triple at hinv
  have hq : (t.val / 4) % 4 < 4 := Nat.mod_lt _ (by decide)
  have hn : min (t.val % 4) ((t.val / 4) % 4) + 1 = (qrow t p).val / 512 + 1 := by
    have hp := p.isLt
    show _ = (((t.val / 4) % 4) * 512 + p.val) / 512 + 1
    have : (((t.val / 4) % 4) * 512 + p.val) / 512 = (t.val / 4) % 4 := by omega
    rw [this, h2]; omega
  rw [hn] at hinv
  show Ideal.div _ _ = Cert.AttnRow.outG (V c main_v9) (V c main_v12) (V c main_v15) (hd t) (qrow t p) d
  unfold Cert.AttnRow.outG
  have e := hinv.symm
  unfold rowS rowW at e
  rw [show (fun j cidx => Cert.AttnRow.rowS (V c main_v9) (V c main_v12) (hd ⟨t.val, t.isLt⟩) (qrow ⟨t.val, t.isLt⟩ p) j cidx) = Cert.AttnRow.rowS (V c main_v9) (V c main_v12) (hd t) (qrow t p) from rfl,
    show (fun j cidx => Cert.AttnRow.rowW (V c main_v15) (hd ⟨t.val, t.isLt⟩) d j cidx) = Cert.AttnRow.rowW (V c main_v15) (hd t) d from rfl] at e
  rw [e]

/-- An index of the array is in a point's block iff each coordinate is in the block's range on its axis. -/
theorem mem_blk3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v16).slice (win1_3.rect t)).set ↔ _
  rw [View.set_slice_whole, Rect.mem_set_unit]
  exact Iff.rfl

/-- The written-back tiles cover the array: entry (h, r, d) is in the block of the point (h, r / 512, 3). -/
theorem cover1 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : cfg1.N = 512 := N_1
  have hlt : (i 0).val * 16 + ((i 1).val / 512) * 4 + 3 < cfg1.N := by rw [hN]; omega
  obtain ⟨-, -, -, ⟨q0, q1, q2⟩⟩ := idx_facts ⟨(i 0).val * 16 + ((i 1).val / 512) * 4 + 3, hlt⟩
  refine ⟨⟨(i 0).val * 16 + ((i 1).val / 512) * 4 + 3, hlt⟩, (flush1_3 _).mpr (by show ((i 0).val * 16 + ((i 1).val / 512) * 4 + 3) % 4 = 3; omega), ?_⟩
  rw [mem_blk3]
  intro a
  match a with
  | ⟨0, _⟩ =>
    show win1_3.index ⟨(i 0).val * 16 + ((i 1).val / 512) * 4 + 3, hlt⟩ (0 : Fin 3) * 1 ≤ (i 0).val ∧ (i 0).val < win1_3.index ⟨(i 0).val * 16 + ((i 1).val / 512) * 4 + 3, hlt⟩ (0 : Fin 3) * 1 + 1
    rw [q0]; show ((i 0).val * 16 + ((i 1).val / 512) * 4 + 3) / 16 * 1 ≤ (i 0).val ∧ (i 0).val < ((i 0).val * 16 + ((i 1).val / 512) * 4 + 3) / 16 * 1 + 1; omega
  | ⟨1, _⟩ =>
    show win1_3.index ⟨(i 0).val * 16 + ((i 1).val / 512) * 4 + 3, hlt⟩ (1 : Fin 3) * 512 ≤ (i 1).val ∧ (i 1).val < win1_3.index ⟨(i 0).val * 16 + ((i 1).val / 512) * 4 + 3, hlt⟩ (1 : Fin 3) * 512 + 512
    rw [q1]; show (((i 0).val * 16 + ((i 1).val / 512) * 4 + 3) / 4) % 4 * 512 ≤ (i 1).val ∧ (i 1).val < (((i 0).val * 16 + ((i 1).val / 512) * 4 + 3) / 4) % 4 * 512 + 512; omega
  | ⟨2, _⟩ =>
    show win1_3.index ⟨(i 0).val * 16 + ((i 1).val / 512) * 4 + 3, hlt⟩ (2 : Fin 3) * 64 ≤ (i 2).val ∧ (i 2).val < win1_3.index ⟨(i 0).val * 16 + ((i 1).val / 512) * 4 + 3, hlt⟩ (2 : Fin 3) * 64 + 64
    rw [q2]; omega

/-- The region's result array after the run: every row's causal attention output, tile by tile. -/
theorem final1 : (dat1 (F := Ideal) V c).arrAt 3 cfg1.N = G1 (V c main_v9) (V c main_v12) (V c main_v15) :=
  (dat1 V c).arrAt_eq_of_cover 3 (G1 (V c main_v9) (V c main_v12) (V c main_v15)) (fun t hf => flushed1_eq V c t hf) (cover1)

end Cert.KernelIdeal.Reg1

end
-- ==== Proof.Reg2Value.lean ====
/-
  The last matrix-product region's result array in closed form at the ideal values: entry (r, s) of the [4096, 1024]
  result is the sum over k of entry (r, k) of the left array times entry (k, s) of the right array, plus entry s of the
  bias row. At the ideal values narrowing to a shorter format is the identity and the zeroed accumulator adds nothing.

  The steps: what the body's stores leave in the output block, read at an index (the last store's payload; the
  accumulator read back through its own stores); the printed index maps related over the grid; what a point writes
  back as a block of the one whole-array function; the blocks cover the array.
-/
import proofs.«144787_j3307124818573_2_alg».proof.Proof.Reg2
import proofs.«144787_j3307124818573_2_alg».proof.Proof.LibPlainMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.WholeRead

set_option maxRecDepth 16384

noncomputable section

namespace Cert.KernelIdeal.Reg2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The payloads at the ideal values -/

theorem zeros2 : (![0, 0] : Fin 2 → Nat) = fun _ => 0 := funext fun a => by fin_cases a <;> rfl

/-- The accumulator's reset value is zero everywhere. -/
theorem pay1_apply (y : S512x1024.Idx) : k2_pay1 (F := Ideal) y = 0 := by
  unfold k2_pay1
  simp only [shapeCast_self]
  exact Ideal.ofBits_zero_f32

/-- The accumulated value at (p, q): what was there plus the product's entry. -/
theorem pay2_apply (v3 : Vec Ideal S512x1024 .bf16) (v5 : Vec Ideal S1024x1024 .f32) (v8 : Vec Ideal S512x1024 .f32) (p : Fin 512) (q : Fin 1024) :
    k2_pay2 (F := Ideal) v3 v5 v8 (ix2 p q) = v8 (ix2 p q) + ∑ k : Fin 1024, v3 (ix2 p k) * v5 (ix2 k q) := by
  unfold k2_pay2
  simp only [shapeCast_self]
  exact congrArg (v8 (ix2 p q) + ·) (Cert.PlainMatmul.matmul_zero_apply (φ₁ := .bf16) (φ₂ := .bf16) dot_S512x1024_S1024x1024_S512x1024_1_0_0_1_n_n_wf none v3 v5 p q)

/-- The stored value at (p, q): the accumulator's entry plus the bias row's entry q. -/
theorem pay3_apply (v17 : Vec Ideal S512x1024 .f32) (v18 : Vec Ideal S1x1024 .f32) (p : Fin 512) (q : Fin 1024) :
    k2_pay3 (F := Ideal) v17 v18 (ix2 p q) = v17 (ix2 p q) + v18 (ix2 (0 : Fin 1) q) := by
  unfold k2_pay3
  simp only [shapeCast_self]
  exact congrArg (v17 (ix2 p q) + ·) (broadcastTo_1b_ab_apply v18 broadcasts_S1x1024_S512x1024 p q)

/-- A load of a whole buffer held at the contents that read X, through the whole-shape rectangle at zero offsets, reads X. -/
theorem readAt_whole_unread {sig : RefSig} {κ : Kind} {sp : Space} {S : Shape} {e : EltTy} {Val : EltTy → Type}
    (m : Memref sig κ sp S e) (h : m.IsWhole) {off : Fin S.rank → Nat} (hz : off = fun _ => 0)
    (inb : ∀ a, off a + S.size a ≤ S.size a) (X : S.Idx → Val e) :
    View.readAt Val m.view (Rect.unit off S.size inb).toLoadRect (h.unread X) = X :=
  (funext fun x => h.readAt_unread X _ x).trans (View.ld_unit_zero hz inb X)

/-! ## What the body leaves in the output block -/

/-- The output block after the body, read at an index: the product of the two input blocks there plus the bias row's entry. -/
theorem out2_3_at (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec Ideal S512x1024 .bf16) (x1 : Vec Ideal S1024x1024 .f32) (x2 : Vec Ideal S1x1024 .f32) (y : S512x1024.Idx) :
    out2_3 c i arg3 harg3 arg4 harg4 arg5 harg5 arg6 harg6 arg7 harg7 x0 x1 x2 y
      = (∑ k : Fin 1024, x0 (ix2 (y 0) k) * x1 (ix2 k (y 1))) + x2 (ix2 (0 : Fin 1) (y 1)) := by
  obtain ⟨p, q, rfl⟩ : ∃ (p : Fin 512) (q : Fin 1024), y = ix2 p q := ⟨y 0, y 1, eq_ix2 y⟩
  unfold out2_3
  rw [View.read_writes_eq_canon _ _ _ (cover2_3 c i arg3 harg3 arg4 harg4 arg5 harg5 arg6 harg6 arg7 harg7 x0 x1 x2)]
  rw [show (kernelRun2 c i arg3 harg3 arg4 harg4 arg5 harg5 arg6 harg6 arg7 harg7 x0 x1 x2).1
      = [⟨Rect.unit ![0, 0] S512x1024.size inb_S512x1024_S512x1024_0_0, k2_pay3 (kernelRun2.sl.v17 c arg3 harg3 arg4 harg4 arg7 x0 x1)
          (View.readAt (Elt Ideal) arg5.view (Rect.unit ![0, 0] S1x1024.size inb_S1x1024_S1x1024_0_0).toLoadRect (harg5.unread x2))⟩] from rfl]
  rw [View.canon_unit_zero zeros2, pay3_apply]
  unfold kernelRun2.sl.v17 kernelRun2.sl.HS0_2
  rw [View.readCov_cons_toLoadRect, pay2_apply]
  unfold kernelRun2.sl.v8 kernelRun2.sl.HS0_1
  rw [View.readCov_unit_zero _ zeros2, pay1_apply, zero_add]
  rw [readAt_whole_unread arg3 harg3 zeros2, readAt_whole_unread arg4 harg4 zeros2, readAt_whole_unread arg5 harg5 zeros2]

/-! ## From blocks to the array -/

section Region
variable (V : (c : Dev nD) → (b : Ref sig .tc) → Buf (Elt Ideal) ((c : Thread nD τ).loc b))

/-- The whole-array function: the matrix product of the left and the right array plus the bias row, entry by entry. -/
def G2 (a0 : S4096x1024.Idx → EReal) (a1 : S1024x1024.Idx → EReal) (a2 : S1x1024.Idx → EReal) : S4096x1024.Idx → EReal :=
  fun i => (∑ k : Fin 1024, a0 (ix2 (i 0) k) * a1 (ix2 k (i 1))) + a2 (ix2 (0 : Fin 1) (i 1))

/-- The whole-array function at an index. -/
theorem G2_apply (a0 : S4096x1024.Idx → EReal) (a1 : S1024x1024.Idx → EReal) (a2 : S1x1024.Idx → EReal) (i : S4096x1024.Idx) :
    G2 a0 a1 a2 i = (∑ k : Fin 1024, a0 (ix2 (i 0) k) * a1 (ix2 k (i 1))) + a2 (ix2 (0 : Fin 1) (i 1)) := rfl

/-- The printed index maps over the grid: the left block moves with the output's rows and spans all columns, the right
    block and the bias row are their whole arrays, the output's blocks span all columns and their row index stays in range. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 7 ∧ win2_3.index t (1 : Fin 2) = 0 :=
  (by decide +kernel : ∀ t : Fin grid2.N, _)

/-- Every block of the output array is some point's. -/
theorem idx_onto2 : ∀ (q0 : Fin 8), ∃ t : Fin cfg2.N, win2_3.index t = ![q0.val, 0] :=
  (by decide +kernel : ∀ (q0 : Fin 8), ∃ t : Fin grid2.N, win2_3.index t = ![q0.val, 0])

/-- Block t of the arrays, multiplied and the bias row added, is block t of the whole-array function. -/
theorem block_eq2 (a0 : S4096x1024.Idx → EReal) (a1 : S1024x1024.Idx → EReal) (a2 : S1x1024.Idx → EReal) (t : Fin cfg2.N) (j : S512x1024.Idx) :
    (∑ k : Fin 1024, a0 (((cfg2.win 0).blk t).view.emb (ix2 (j 0) k)) * a1 (((cfg2.win 1).blk t).view.emb (ix2 k (j 1))))
        + a2 (((cfg2.win 2).blk t).view.emb (ix2 (0 : Fin 1) (j 1)))
      = G2 a0 a1 a2 (((cfg2.win 3).blk t).view.emb j) := by
  obtain ⟨e0, e1, e2, e3, e4, e5, e6, e7⟩ := idx_facts2 t
  unfold G2
  have h2 : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega
  rw [h2]
  refine congrArg (· + a2 (ix2 (0 : Fin 1) ((((cfg2.win 3).blk t).view.emb j) 1))) (Finset.sum_congr rfl fun k _ => ?_)
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  have h1 : ((cfg2.win 1).blk t).view.emb (ix2 k (j 1)) = ix2 k ((((cfg2.win 3).blk t).view.emb j) 1) := by
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_3.index t (1 : Fin 2) * 1024 + 1 * (j 1).val; omega
  rw [h0, h1]
  rfl

/-- What point t writes back is block t of the whole-array function of the arrays as the region finds them. -/
theorem flushed2_eq (c : Dev nD) (t : Fin cfg2.N) :
    (dat2 (F := Ideal) V c).flushed 3 t = ((cfg2.win 3).blk t).view.read (Elt Ideal) (G2 (V c main_v19) (V c main_v20) (V c main_v21)) := by
  show (cfg2.win 3).cut (grid2.coords t) ((dat2 V c).after 3 t) = _
  rw [after2_3]
  unfold outAt2
  funext j
  refine (out2_3_at c _ _ _ _ _ _ _ _ _ _ _ (iblk2 V c 0 t) (iblk2 V c 1 t) (iblk2 V c 2 t) j).trans ?_
  exact block_eq2 (V c main_v19) (V c main_v20) (V c main_v21) t j

/-- An index of the array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v22).slice (win2_3.rect t)).set ↔ _
  rw [View.set_slice_whole, Rect.mem_set_unit]
  exact Iff.rfl

/-- The output's blocks cover its array: row r is in block r / 512, and a block spans all columns. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The region's result array after the run: the matrix product of the two arrays it was entered with, plus the bias row. -/
theorem final2 (c : Dev nD) : (dat2 (F := Ideal) V c).arrAt 3 cfg2.N = G2 (V c main_v19) (V c main_v20) (V c main_v21) :=
  (dat2 V c).arrAt_eq_of_cover 3 (G2 (V c main_v19) (V c main_v20) (V c main_v21)) (fun t _ => flushed2_eq V c t) cover2

end Region

end Cert.KernelIdeal.Reg2

end
-- ==== Proof.HostVals.lean ====
/-
  The layout stretches of the kernel program, read index by index.

  Between its three kernel regions the program moves data by reshapes, slices, transposes and one concatenation: no
  arithmetic. For arbitrary buffer contents before a stretch, each theorem here says which entry of which earlier
  buffer an entry of a buffer the next region reads is. Every index is spelt by its coordinates.
-/
import proofs.«144787_j3307124818573_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVals

open Cert.KernelIdeal Cert.KernelIdeal.Gen Idealize.ShloMosaic Idealize.ShloMosaic.TcCoe
open Idealize.ShloMosaic.ValueIdx Idealize.ShloMosaic.StableHlo

/-! ## Row-major reshapes and one transpose of rank 4, read at an index given by coordinates

A reshape keeps the row-major position. Between [A,B,C] and [N,C] with N = A·B the row r of the flat form is the pair
(a,b) with a·B + b = r; between [N,M] and [A,B,H,D] with N = A·B and M = H·D both the row and the column split; between
[A,H,T,D] and [N,T,D] with N = A·H the leading coordinate splits. Each lemma takes the coordinates on both sides and
the equation(s) that relate them. -/

section Layout
variable {α : Type}

/-- [A,B,C] read as [N,C]: entry (r,k) is entry (a,b,k) when a·B + b = r. -/
theorem shapeCast_abc_nc_apply {A B C N : Nat} (X : (⟨3, ![A, B, C]⟩ : Shape).Idx → α)
    (h : (⟨3, ![A, B, C]⟩ : Shape).ShapeCasts ⟨2, ![N, C]⟩) (r : Fin N) (k : Fin C) (a : Fin A) (b : Fin B)
    (hr : a.val * B + b.val = r.val) :
    shapeCast ⟨2, ![N, C]⟩ X h (ix2 r k) = X (ix3 a b k) :=
  shapeCast_apply X h _ _ (by
    rw [Shape.rowMajor_val_two, Shape.rowMajor_val_three]
    show (a.val * B + b.val) * C + k.val = r.val * C + k.val
    rw [hr])

/-- [N,C] read as [A,B,C]: entry (a,b,k) is entry (r,k) when a·B + b = r. -/
theorem shapeCast_nc_abc_apply {A B C N : Nat} (X : (⟨2, ![N, C]⟩ : Shape).Idx → α)
    (h : (⟨2, ![N, C]⟩ : Shape).ShapeCasts ⟨3, ![A, B, C]⟩) (a : Fin A) (b : Fin B) (k : Fin C) (r : Fin N)
    (hr : a.val * B + b.val = r.val) :
    shapeCast ⟨3, ![A, B, C]⟩ X h (ix3 a b k) = X (ix2 r k) :=
  shapeCast_apply X h _ _ (by
    rw [Shape.rowMajor_val_two, Shape.rowMajor_val_three]
    show r.val * C + k.val = (a.val * B + b.val) * C + k.val
    rw [hr])

/-- [N,M] read as [A,B,H,D]: entry (a,b,g,d) is entry (r,e) when a·B + b = r and g·D + d = e (and M = H·D). -/
theorem shapeCast_nm_abhd_apply {A B H D N M : Nat} (hM : M = H * D) (X : (⟨2, ![N, M]⟩ : Shape).Idx → α)
    (h : (⟨2, ![N, M]⟩ : Shape).ShapeCasts ⟨4, ![A, B, H, D]⟩) (a : Fin A) (b : Fin B) (g : Fin H) (d : Fin D)
    (r : Fin N) (e : Fin M) (hr : a.val * B + b.val = r.val) (he : g.val * D + d.val = e.val) :
    shapeCast ⟨4, ![A, B, H, D]⟩ X h (ix4 a b g d) = X (ix2 r e) :=
  shapeCast_apply X h _ _ (by
    rw [Shape.rowMajor_val_two, Shape.rowMajor_val_four]
    show r.val * M + e.val = ((a.val * B + b.val) * H + g.val) * D + d.val
    rw [← hr, ← he, hM]
    ring)

/-- [A,B,H,D] read as [N,M]: entry (r,e) is entry (a,b,g,d) when a·B + b = r and g·D + d = e (and M = H·D). -/
theorem shapeCast_abhd_nm_apply {A B H D N M : Nat} (hM : M = H * D) (X : (⟨4, ![A, B, H, D]⟩ : Shape).Idx → α)
    (h : (⟨4, ![A, B, H, D]⟩ : Shape).ShapeCasts ⟨2, ![N, M]⟩) (r : Fin N) (e : Fin M)
    (a : Fin A) (b : Fin B) (g : Fin H) (d : Fin D) (hr : a.val * B + b.val = r.val) (he : g.val * D + d.val = e.val) :
    shapeCast ⟨2, ![N, M]⟩ X h (ix2 r e) = X (ix4 a b g d) :=
  shapeCast_apply X h _ _ (by
    rw [Shape.rowMajor_val_two, Shape.rowMajor_val_four]
    show ((a.val * B + b.val) * H + g.val) * D + d.val = r.val * M + e.val
    rw [← hr, ← he, hM]
    ring)

/-- [A,H,T,D] read as [N,T,D]: entry (n,t,d) is entry (a,g,t,d) when a·H + g = n. -/
theorem shapeCast_ahtd_ntd_apply {A H T D N : Nat} (X : (⟨4, ![A, H, T, D]⟩ : Shape).Idx → α)
    (h : (⟨4, ![A, H, T, D]⟩ : Shape).ShapeCasts ⟨3, ![N, T, D]⟩) (n : Fin N) (t : Fin T) (d : Fin D)
    (a : Fin A) (g : Fin H) (hn : a.val * H + g.val = n.val) :
    shapeCast ⟨3, ![N, T, D]⟩ X h (ix3 n t d) = X (ix4 a g t d) :=
  shapeCast_apply X h _ _ (by
    rw [Shape.rowMajor_val_three, Shape.rowMajor_val_four]
    show ((a.val * H + g.val) * T + t.val) * D + d.val = (n.val * T + t.val) * D + d.val
    rw [hn])

/-- [N,T,D] read as [A,H,T,D]: entry (a,g,t,d) is entry (n,t,d) when a·H + g = n. -/
theorem shapeCast_ntd_ahtd_apply {A H T D N : Nat} (X : (⟨3, ![N, T, D]⟩ : Shape).Idx → α)
    (h : (⟨3, ![N, T, D]⟩ : Shape).ShapeCasts ⟨4, ![A, H, T, D]⟩) (a : Fin A) (g : Fin H) (t : Fin T) (d : Fin D)
    (n : Fin N) (hn : a.val * H + g.val = n.val) :
    shapeCast ⟨4, ![A, H, T, D]⟩ X h (ix4 a g t d) = X (ix3 n t d) :=
  shapeCast_apply X h _ _ (by
    rw [Shape.rowMajor_val_three, Shape.rowMajor_val_four]
    show (n.val * T + t.val) * D + d.val = ((a.val * H + g.val) * T + t.val) * D + d.val
    rw [hn])

/-- The two middle axes of a rank-4 array swapped (permutation [0,2,1,3]): entry (i,k,j,l) is the operand's (i,j,k,l). -/
theorem transpose_ix4_0213_apply {a b c d : Nat} (x : (⟨4, ![a, b, c, d]⟩ : Shape).Idx → α)
    (h : (⟨4, ![a, b, c, d]⟩ : Shape).Transposes [0, 2, 1, 3] ⟨4, ![a, c, b, d]⟩)
    (i : Fin a) (k : Fin c) (j : Fin b) (l : Fin d) :
    transpose ⟨4, ![a, c, b, d]⟩ [0, 2, 1, 3] x h (ix4 i k j l) = x (ix4 i j k l) :=
  transpose_apply _ x h _ _ fun q => match q with | ⟨0, _⟩ => rfl | ⟨1, _⟩ => rfl | ⟨2, _⟩ => rfl | ⟨3, _⟩ => rfl

end Layout

/-! ## Three square matrices stacked along the rows, read at an index -/

section Stack
variable {α : Type}

/-- A row of the stack in the first matrix's span: that matrix's row. -/
theorem stack3_apply_0 (x0 x1 x2 : S1024x1024.Idx → α)
    (h : Shape.Concatenates [S1024x1024, S1024x1024, S1024x1024] S3072x1024 0)
    (e : Fin 3072) (k : Fin 1024) (c : Fin 1024) (he : e.val = c.val) :
    concatenate S3072x1024 0 [⟨S1024x1024, x0⟩, ⟨S1024x1024, x1⟩, ⟨S1024x1024, x2⟩] h (ix2 e k) = x0 (ix2 c k) :=
  concatenate_apply_piece (t := S3072x1024) 0 [⟨S1024x1024, x0⟩, ⟨S1024x1024, x1⟩, ⟨S1024x1024, x2⟩] h (ix2 e k) 0 (by simp) S1024x1024 x0 rfl rfl 0 rfl (ix2 c k)
    (fun b hb => match b, hb with | ⟨0, _⟩, hb => absurd rfl hb | ⟨1, _⟩, _ => rfl)
    (by show 0 + c.val = e.val; omega)

/-- A row of the stack in the second matrix's span: that matrix's row, 1024 less. -/
theorem stack3_apply_1 (x0 x1 x2 : S1024x1024.Idx → α)
    (h : Shape.Concatenates [S1024x1024, S1024x1024, S1024x1024] S3072x1024 0)
    (e : Fin 3072) (k : Fin 1024) (c : Fin 1024) (he : e.val = 1024 + c.val) :
    concatenate S3072x1024 0 [⟨S1024x1024, x0⟩, ⟨S1024x1024, x1⟩, ⟨S1024x1024, x2⟩] h (ix2 e k) = x1 (ix2 c k) :=
  concatenate_apply_piece (t := S3072x1024) 0 [⟨S1024x1024, x0⟩, ⟨S1024x1024, x1⟩, ⟨S1024x1024, x2⟩] h (ix2 e k) 1 (by simp) S1024x1024 x1 rfl rfl 1024 rfl (ix2 c k)
    (fun b hb => match b, hb with | ⟨0, _⟩, hb => absurd rfl hb | ⟨1, _⟩, _ => rfl)
    (by show 1024 + c.val = e.val; omega)

/-- A row of the stack in the third matrix's span: that matrix's row, 2048 less. -/
theorem stack3_apply_2 (x0 x1 x2 : S1024x1024.Idx → α)
    (h : Shape.Concatenates [S1024x1024, S1024x1024, S1024x1024] S3072x1024 0)
    (e : Fin 3072) (k : Fin 1024) (c : Fin 1024) (he : e.val = 2048 + c.val) :
    concatenate S3072x1024 0 [⟨S1024x1024, x0⟩, ⟨S1024x1024, x1⟩, ⟨S1024x1024, x2⟩] h (ix2 e k) = x2 (ix2 c k) :=
  concatenate_apply_piece (t := S3072x1024) 0 [⟨S1024x1024, x0⟩, ⟨S1024x1024, x1⟩, ⟨S1024x1024, x2⟩] h (ix2 e k) 2 (by simp) S1024x1024 x2 rfl rfl 2048 rfl (ix2 c k)
    (fun b hb => match b, hb with | ⟨0, _⟩, hb => absurd rfl hb | ⟨1, _⟩, _ => rfl)
    (by show 2048 + c.val = e.val; omega)

end Stack

/-! ## The first stretch: the input flattened, and the three weight matrices stacked and transposed -/

/-- After the first stretch, row r of the flat input is row (r / 2048, r % 2048) of the input. -/
theorem H0a (W : Valuation τ sig (Elt Ideal)) (r : Fin 4096) (k : Fin 1024) :
    (StableHlo.after (hostOps0 (F := Ideal)) W main_v0 : S4096x1024.Idx → EReal) (ix2 r k)
      = (W main_arg0 : S2x2048x1024.Idx → EReal) (ix3 ⟨r.val / 2048, by omega⟩ ⟨r.val % 2048, by omega⟩ k) := by
  have e : (StableHlo.after (hostOps0 (F := Ideal)) W main_v0 : S4096x1024.Idx → EReal)
      = shapeCast S4096x1024 (W main_arg0 : S2x2048x1024.Idx → EReal) shapeCasts_S2x2048x1024_S4096x1024 := by
    after_results; rfl
  rw [e]
  exact shapeCast_abc_nc_apply _ _ r k _ _ (by show r.val / 2048 * 2048 + r.val % 2048 = r.val; omega)

/-- The stacked and transposed weights as one term of the three matrices. -/
theorem v2_eq (W : Valuation τ sig (Elt Ideal)) :
    (StableHlo.after (hostOps0 (F := Ideal)) W main_v2 : S1024x3072.Idx → EReal)
      = transpose S1024x3072 [1, 0]
          (concatenate S3072x1024 0
            [⟨S1024x1024, (W main_arg1 : S1024x1024.Idx → EReal)⟩, ⟨S1024x1024, (W main_arg2 : S1024x1024.Idx → EReal)⟩,
             ⟨S1024x1024, (W main_arg3 : S1024x1024.Idx → EReal)⟩]
            concatenates_S1024x1024_S1024x1024_S1024x1024_S3072x1024_d0)
          transposes_S3072x1024_S1024x3072_1_0 := by
  after_results; rfl

/-- Column e of the stacked and transposed weights, for e = c below 1024: row c of the first matrix. -/
theorem H0b_q (W : Valuation τ sig (Elt Ideal)) (k : Fin 1024) (e : Fin 3072) (c : Fin 1024) (he : e.val = c.val) :
    (StableHlo.after (hostOps0 (F := Ideal)) W main_v2 : S1024x3072.Idx → EReal) (ix2 k e)
      = (W main_arg1 : S1024x1024.Idx → EReal) (ix2 c k) := by
  rw [v2_eq]
  refine (transpose_ix2_apply _ _ k e).trans ?_
  exact stack3_apply_0 _ _ _ _ e k c he

/-- Column e = 1024 + c: row c of the second matrix. -/
theorem H0b_k (W : Valuation τ sig (Elt Ideal)) (k : Fin 1024) (e : Fin 3072) (c : Fin 1024) (he : e.val = 1024 + c.val) :
    (StableHlo.after (hostOps0 (F := Ideal)) W main_v2 : S1024x3072.Idx → EReal) (ix2 k e)
      = (W main_arg2 : S1024x1024.Idx → EReal) (ix2 c k) := by
  rw [v2_eq]
  refine (transpose_ix2_apply _ _ k e).trans ?_
  exact stack3_apply_1 _ _ _ _ e k c he

/-- Column e = 2048 + c: row c of the third matrix. -/
theorem H0b_v (W : Valuation τ sig (Elt Ideal)) (k : Fin 1024) (e : Fin 3072) (c : Fin 1024) (he : e.val = 2048 + c.val) :
    (StableHlo.after (hostOps0 (F := Ideal)) W main_v2 : S1024x3072.Idx → EReal) (ix2 k e)
      = (W main_arg3 : S1024x1024.Idx → EReal) (ix2 c k) := by
  rw [v2_eq]
  refine (transpose_ix2_apply _ _ k e).trans ?_
  exact stack3_apply_2 _ _ _ _ e k c he

/-- The three cases as one statement: column e is a row of the first, second or third matrix as e falls below 1024,
    below 2048, or not. -/
theorem H0b (W : Valuation τ sig (Elt Ideal)) (k : Fin 1024) (e : Fin 3072) :
    (StableHlo.after (hostOps0 (F := Ideal)) W main_v2 : S1024x3072.Idx → EReal) (ix2 k e)
      = if h1 : e.val < 1024 then (W main_arg1 : S1024x1024.Idx → EReal) (ix2 ⟨e.val, h1⟩ k)
        else if h2 : e.val < 2048 then (W main_arg2 : S1024x1024.Idx → EReal) (ix2 ⟨e.val - 1024, by omega⟩ k)
        else (W main_arg3 : S1024x1024.Idx → EReal) (ix2 ⟨e.val - 2048, by omega⟩ k) := by
  by_cases h1 : e.val < 1024
  · rw [dif_pos h1]; exact H0b_q W k e ⟨e.val, h1⟩ rfl
  · rw [dif_neg h1]
    by_cases h2 : e.val < 2048
    · rw [dif_pos h2]; exact H0b_k W k e ⟨e.val - 1024, by omega⟩ (by show e.val = 1024 + (e.val - 1024); omega)
    · rw [dif_neg h2]; exact H0b_v W k e ⟨e.val - 2048, by omega⟩ (by show e.val = 2048 + (e.val - 2048); omega)

/-! ## The second stretch: the projected columns cut into queries, keys and values, each regrouped by head -/

section Heads
variable {α : Type}

/-- A [4096,1024] matrix regrouped by head — read as [2,2048,16,64], the two middle axes swapped, read as
    [32,2048,64]: entry (bh,t,d) is the matrix's entry ((bh / 16)·2048 + t, (bh % 16)·64 + d). -/
theorem toHeads_apply (X : S4096x1024.Idx → α) (h1 : S4096x1024.ShapeCasts S2x2048x16x64)
    (h2 : S2x2048x16x64.Transposes [0, 2, 1, 3] S2x16x2048x64) (h3 : S2x16x2048x64.ShapeCasts S32x2048x64)
    (bh : Fin 32) (t : Fin 2048) (d : Fin 64) :
    shapeCast S32x2048x64 (transpose S2x16x2048x64 [0, 2, 1, 3] (shapeCast S2x2048x16x64 X h1) h2) h3 (ix3 bh t d)
      = X (ix2 ⟨(bh.val / 16) * 2048 + t.val, by omega⟩ ⟨(bh.val % 16) * 64 + d.val, by omega⟩) := by
  refine (shapeCast_ahtd_ntd_apply (A := 2) (H := 16) _ _ bh t d ⟨bh.val / 16, by omega⟩ ⟨bh.val % 16, by omega⟩
    (by show bh.val / 16 * 16 + bh.val % 16 = bh.val; omega)).trans ?_
  refine (transpose_ix4_0213_apply _ _ _ _ _ _).trans ?_
  exact shapeCast_nm_abhd_apply (A := 2) (B := 2048) (H := 16) (D := 64) rfl _ _ _ _ _ _ _ _ rfl rfl

end Heads

/-- The queries' buffer as one term of the projected buffer. -/
theorem v9_eq (W : Valuation τ sig (Elt Ideal)) :
    (StableHlo.after (hostOps1 (F := Ideal)) W main_v9 : S32x2048x64.Idx → EReal)
      = shapeCast S32x2048x64
          (transpose S2x16x2048x64 [0, 2, 1, 3]
            (shapeCast S2x2048x16x64
              (extractStridedSlice S4096x1024 ![0, 0] (W main_v3 : S4096x3072.Idx → EReal) slices_S4096x3072_S4096x1024_0_0)
              shapeCasts_S4096x1024_S2x2048x16x64)
            transposes_S2x2048x16x64_S2x16x2048x64_0_2_1_3)
          shapeCasts_S2x16x2048x64_S32x2048x64 := by
  after_results; rfl

/-- The keys' buffer as one term of the projected buffer. -/
theorem v12_eq (W : Valuation τ sig (Elt Ideal)) :
    (StableHlo.after (hostOps1 (F := Ideal)) W main_v12 : S32x2048x64.Idx → EReal)
      = shapeCast S32x2048x64
          (transpose S2x16x2048x64 [0, 2, 1, 3]
            (shapeCast S2x2048x16x64
              (extractStridedSlice S4096x1024 ![0, 1024] (W main_v3 : S4096x3072.Idx → EReal) slices_S4096x3072_S4096x1024_0_1024)
              shapeCasts_S4096x1024_S2x2048x16x64)
            transposes_S2x2048x16x64_S2x16x2048x64_0_2_1_3)
          shapeCasts_S2x16x2048x64_S32x2048x64 := by
  after_results; rfl

/-- The values' buffer as one term of the projected buffer. -/
theorem v15_eq (W : Valuation τ sig (Elt Ideal)) :
    (StableHlo.after (hostOps1 (F := Ideal)) W main_v15 : S32x2048x64.Idx → EReal)
      = shapeCast S32x2048x64
          (transpose S2x16x2048x64 [0, 2, 1, 3]
            (shapeCast S2x2048x16x64
              (extractStridedSlice S4096x1024 ![0, 2048] (W main_v3 : S4096x3072.Idx → EReal) slices_S4096x3072_S4096x1024_0_2048)
              shapeCasts_S4096x1024_S2x2048x16x64)
            transposes_S2x2048x16x64_S2x16x2048x64_0_2_1_3)
          shapeCasts_S2x16x2048x64_S32x2048x64 := by
  after_results; rfl

/-- After the second stretch, entry (bh,t,d) of the queries is the projected buffer's entry
    ((bh / 16)·2048 + t, (bh % 16)·64 + d). -/
theorem H1q (W : Valuation τ sig (Elt Ideal)) (bh : Fin 32) (t : Fin 2048) (d : Fin 64) :
    (StableHlo.after (hostOps1 (F := Ideal)) W main_v9 : S32x2048x64.Idx → EReal) (ix3 bh t d)
      = (W main_v3 : S4096x3072.Idx → EReal)
          (ix2 ⟨(bh.val / 16) * 2048 + t.val, by omega⟩ ⟨(bh.val % 16) * 64 + d.val, by omega⟩) := by
  rw [v9_eq]
  refine (toHeads_apply _ _ _ _ bh t d).trans ?_
  exact slice2_axis1_apply 0 _ _ _ _ _ (by show (bh.val % 16) * 64 + d.val = 0 + ((bh.val % 16) * 64 + d.val); omega)

/-- The same for the keys, 1024 columns further. -/
theorem H1k (W : Valuation τ sig (Elt Ideal)) (bh : Fin 32) (t : Fin 2048) (d : Fin 64) :
    (StableHlo.after (hostOps1 (F := Ideal)) W main_v12 : S32x2048x64.Idx → EReal) (ix3 bh t d)
      = (W main_v3 : S4096x3072.Idx → EReal)
          (ix2 ⟨(bh.val / 16) * 2048 + t.val, by omega⟩ ⟨1024 + (bh.val % 16) * 64 + d.val, by omega⟩) := by
  rw [v12_eq]
  refine (toHeads_apply _ _ _ _ bh t d).trans ?_
  exact slice2_axis1_apply 1024 _ _ _ _ _ (by show 1024 + (bh.val % 16) * 64 + d.val = 1024 + ((bh.val % 16) * 64 + d.val); omega)

/-- The same for the values, 2048 columns further. -/
theorem H1v (W : Valuation τ sig (Elt Ideal)) (bh : Fin 32) (t : Fin 2048) (d : Fin 64) :
    (StableHlo.after (hostOps1 (F := Ideal)) W main_v15 : S32x2048x64.Idx → EReal) (ix3 bh t d)
      = (W main_v3 : S4096x3072.Idx → EReal)
          (ix2 ⟨(bh.val / 16) * 2048 + t.val, by omega⟩ ⟨2048 + (bh.val % 16) * 64 + d.val, by omega⟩) := by
  rw [v15_eq]
  refine (toHeads_apply _ _ _ _ bh t d).trans ?_
  exact slice2_axis1_apply 2048 _ _ _ _ _ (by show 2048 + (bh.val % 16) * 64 + d.val = 2048 + ((bh.val % 16) * 64 + d.val); omega)

/-! ## The third stretch: the heads' outputs laid side by side, the output weights transposed, the bias as a row -/

/-- The attention output regrouped, as one term of the heads' buffer. -/
theorem v19_eq (W : Valuation τ sig (Elt Ideal)) :
    (StableHlo.after (hostOps2 (F := Ideal)) W main_v19 : S4096x1024.Idx → EReal)
      = shapeCast S4096x1024
          (transpose S2x2048x16x64 [0, 2, 1, 3]
            (shapeCast S2x16x2048x64 (W main_v16 : S32x2048x64.Idx → EReal) shapeCasts_S32x2048x64_S2x16x2048x64)
            transposes_S2x16x2048x64_S2x2048x16x64_0_2_1_3)
          shapeCasts_S2x2048x16x64_S4096x1024 := by
  after_results; rfl

/-- After the third stretch, entry (r,e) of the regrouped attention output is entry (r % 2048, e % 64) of head
    (r / 2048)·16 + e / 64. -/
theorem H2a (W : Valuation τ sig (Elt Ideal)) (r : Fin 4096) (e : Fin 1024) :
    (StableHlo.after (hostOps2 (F := Ideal)) W main_v19 : S4096x1024.Idx → EReal) (ix2 r e)
      = (W main_v16 : S32x2048x64.Idx → EReal)
          (ix3 ⟨(r.val / 2048) * 16 + e.val / 64, by omega⟩ ⟨r.val % 2048, by omega⟩ ⟨e.val % 64, by omega⟩) := by
  rw [v19_eq]
  refine (shapeCast_abhd_nm_apply (A := 2) (B := 2048) (H := 16) (D := 64) rfl _ _ r e
    ⟨r.val / 2048, by omega⟩ ⟨r.val % 2048, by omega⟩ ⟨e.val / 64, by omega⟩ ⟨e.val % 64, by omega⟩
    (by show r.val / 2048 * 2048 + r.val % 2048 = r.val; omega)
    (by show e.val / 64 * 64 + e.val % 64 = e.val; omega)).trans ?_
  refine (transpose_ix4_0213_apply _ _ _ _ _ _).trans ?_
  exact shapeCast_ntd_ahtd_apply _ _ _ _ _ _ _ rfl

/-- After the third stretch, entry (k,o) of the transposed output weights is entry (o,k) of the output weights. -/
theorem H2b (W : Valuation τ sig (Elt Ideal)) (k : Fin 1024) (o : Fin 1024) :
    (StableHlo.after (hostOps2 (F := Ideal)) W main_v20 : S1024x1024.Idx → EReal) (ix2 k o)
      = (W main_arg4 : S1024x1024.Idx → EReal) (ix2 o k) := by
  have e : (StableHlo.after (hostOps2 (F := Ideal)) W main_v20 : S1024x1024.Idx → EReal)
      = transpose S1024x1024 [1, 0] (W main_arg4 : S1024x1024.Idx → EReal) transposes_S1024x1024_S1024x1024_1_0 := by
    after_results
  rw [e]
  exact transpose_ix2_apply _ _ k o

/-- After the third stretch, entry (0,o) of the bias row is entry o of the bias. -/
theorem H2c (W : Valuation τ sig (Elt Ideal)) (o : Fin 1024) :
    (StableHlo.after (hostOps2 (F := Ideal)) W main_v21 : S1x1024.Idx → EReal) (ix2 (0 : Fin 1) o)
      = (W main_arg5 : S1024.Idx → EReal) (ix1 o) := by
  have e : (StableHlo.after (hostOps2 (F := Ideal)) W main_v21 : S1x1024.Idx → EReal)
      = shapeCast S1x1024 (W main_arg5 : S1024.Idx → EReal) shapeCasts_S1024_S1x1024 := by
    after_results; try rfl
  rw [e]
  exact shapeCast_a_1a_apply _ _ 0 o

/-- The same at any unit coordinate of the bias row. -/
theorem H2c_any (W : Valuation τ sig (Elt Ideal)) (u : Fin 1) (o : Fin 1024) :
    (StableHlo.after (hostOps2 (F := Ideal)) W main_v21 : S1x1024.Idx → EReal) (ix2 u o)
      = (W main_arg5 : S1024.Idx → EReal) (ix1 o) := by
  have hu : u = 0 := Fin.ext (by omega)
  rw [hu]; exact H2c W o

/-! ## The last stretch: the result [4096,1024] read as [2,2048,1024] -/

/-- After the last stretch, entry (b,t,o) of the result is entry (b·2048 + t, o) of the flat result. -/
theorem H3 (W : Valuation τ sig (Elt Ideal)) (b : Fin 2) (t : Fin 2048) (o : Fin 1024) :
    (StableHlo.after (hostOps3 (F := Ideal)) W main_v23 : S2x2048x1024.Idx → EReal) (ix3 b t o)
      = (W main_v22 : S4096x1024.Idx → EReal) (ix2 ⟨b.val * 2048 + t.val, by omega⟩ o) := by
  have e : (StableHlo.after (hostOps3 (F := Ideal)) W main_v23 : S2x2048x1024.Idx → EReal)
      = shapeCast S2x2048x1024 (W main_v22 : S4096x1024.Idx → EReal) shapeCasts_S4096x1024_S2x2048x1024 := by
    after_results; rfl
  rw [e]
  exact shapeCast_nc_abc_apply _ _ b t o _ rfl

end Cert.KernelIdeal.HostVals

end
-- ==== Proof.Spec.lean ====
/-
  Causal multi-head attention over the extended reals, index by index.

  For a batch entry b and a position t, the projections q, k, v are rows of x against rows of the weight matrices:
  proj x W b t e = Σ_d x[b,t,d] · W[e,d]. The 1024 projected columns are 16 heads of 64 columns: column h·64 + d is
  coordinate d of head h. In head (b,h) the score of query position i against key position j is the inner product of
  the two 64-vectors times 1/8 when j ≤ i, and -∞ when j > i (a position attends to itself and to earlier ones only).
  A row of scores becomes weights by softmax (maximum from -∞, exponentials of the differences, divided by their
  sum), the head's output at (i,d) is the weighted sum of the values' column d, the heads' outputs side by side form a
  row of 1024 entries, and the result is that row against the rows of Wo, plus the bias.
-/
import Idealize.ShloMosaic.PureOps.Ideal
import Idealize.ShloMosaic.Lib.ValueIdx
import proofs.«144787_j3307124818573_2_alg».proof.Proof.LibSoftmaxRow

noncomputable section

namespace Cert.Attn

open Idealize.ShloMosaic Idealize.ShloMosaic.ValueIdx Cert.SoftmaxRow

/-- The shapes of the arguments: the input [2,2048,1024], a weight matrix [1024,1024], the bias [1024]. -/
abbrev SX : Shape := ⟨3, ![2, 2048, 1024]⟩
abbrev SW : Shape := ⟨2, ![1024, 1024]⟩
abbrev SB : Shape := ⟨1, ![1024]⟩

/-- Column h·64 + d of the 1024 projected columns: coordinate d of head h. -/
def col (h : Fin 16) (d : Fin 64) : Fin 1024 := ⟨h.val * 64 + d.val, by omega⟩

/-- A linear projection: row (b,t) of x against row e of W. -/
def proj (x : SX.Idx → EReal) (W : SW.Idx → EReal) (b : Fin 2) (t : Fin 2048) (e : Fin 1024) : EReal :=
  ∑ d : Fin 1024, x (ix3 b t d) * W (ix2 e d)

/-- The inner product of query i and key j in head (b,h), times 1/8. -/
def dotQK (x : SX.Idx → EReal) (Wq Wk : SW.Idx → EReal) (b : Fin 2) (h : Fin 16) (i j : Fin 2048) : EReal :=
  (∑ d : Fin 64, proj x Wq b i (col h d) * proj x Wk b j (col h d)) * ((1 / 8 : ℝ) : EReal)

/-- The causal score: the scaled inner product at or below the diagonal, -∞ above it. -/
def score (x : SX.Idx → EReal) (Wq Wk : SW.Idx → EReal) (b : Fin 2) (h : Fin 16) (i j : Fin 2048) : EReal :=
  if j.val ≤ i.val then dotQK x Wq Wk b h i j else ⊥

/-- The head's output at query position i, coordinate d: the softmax weights of row i against column d of the values. -/
def headOut (x : SX.Idx → EReal) (Wq Wk Wv : SW.Idx → EReal) (b : Fin 2) (h : Fin 16) (i : Fin 2048) (d : Fin 64) : EReal :=
  attnNormalised (fun j : Fin 2048 => score x Wq Wk b h i j) (fun j : Fin 2048 => proj x Wv b j (col h d))

/-- The heads side by side: entry e of row (b,t) is coordinate e % 64 of head e / 64. -/
def headsRow (x : SX.Idx → EReal) (Wq Wk Wv : SW.Idx → EReal) (b : Fin 2) (t : Fin 2048) (e : Fin 1024) : EReal :=
  headOut x Wq Wk Wv b ⟨e.val / 64, by omega⟩ t ⟨e.val % 64, Nat.mod_lt _ (by decide)⟩

/-- The result at (b,t,o): the heads' row against row o of Wo, plus the bias. -/
def out (x : SX.Idx → EReal) (Wq Wk Wv Wo : SW.Idx → EReal) (bo : SB.Idx → EReal) (b : Fin 2) (t : Fin 2048) (o : Fin 1024) : EReal :=
  (∑ e : Fin 1024, headsRow x Wq Wk Wv b t e * Wo (ix2 o e)) + bo (ix1 o)

/-- The whole result array as one function of the argument arrays. -/
def G (x : SX.Idx → EReal) (Wq Wk Wv Wo : SW.Idx → EReal) (bo : SB.Idx → EReal) : SX.Idx → EReal :=
  fun i => out x Wq Wk Wv Wo bo (i 0) (i 1) (i 2)

end Cert.Attn

end
-- ==== Proof.LibCausalOnline.lean ====
/-
  Softmax attention of one row computed block by block under a causal mask, on the extended reals.

  The keys are cut into consecutive blocks of `B`; key `k` has the score `t k` and the value `v k`. The row has a limit
  `lim` (the query's own position): the keys `k ≤ lim` have real scores, the keys past the limit have the score `-∞`
  (they are masked), and every value is a real. The limit falls in block `nb - 1`: `(nb - 1) · B ≤ lim < nb · B`. So the
  blocks before it are entirely real, block `nb - 1` starts with a real score and may end with masked ones, and the
  blocks after it are entirely masked. The blockwise computation (the same `run` as for an unmasked row) is taken over
  the first `nb` blocks only and the later blocks are left out.

  A masked key inside a block contributes `exp (-∞ - M) = exp (-∞) = 0` to both running sums for every real `M`, and
  does not move the block's maximum, which is attained at one of the block's real scores (the first key of each of the
  `nb` blocks is real). So after `j` blocks the running maximum is a real `M`, the largest real score seen, and the two
  running sums are `Σ_k χ k · exp (τ k - M)` and `Σ_k χ k · exp (τ k - M) · ν k` over the keys seen, with `χ k` the
  indicator of `k ≤ lim` (`CInv`, kept by every block: `cinv_first`, `cinv_next`, `cinv_run`). The keys that were left
  out are all masked and have the weight `0`, so after the `nb` blocks the maximum is the maximum of the whole row, the
  first sum is the row's normaliser `L`, a positive real, and the quotient of the two sums is the one-shot masked
  softmax row, every weight divided by `L` before the weighted sum: a quotient by a positive real distributes over a
  finite sum of reals (`causal_run_quotient`).
-/
import Idealize.ShloMosaic.PureOps.Ideal
import Idealize.ShloMosaic.PureOps.Ideal.Laws
import proofs.«144787_j3307124818573_2_alg».proof.Proof.LibSoftmaxRow
import proofs.«144787_j3307124818573_2_alg».proof.Proof.LibOnlineSoftmax

noncomputable section

namespace Cert.CausalOnline

open Idealize.ShloMosaic Cert.SoftmaxRow Cert.OnlineSoftmax

variable {B : ℕ}

/-! ## The mask -/

/-- The indicator of the keys up to the limit: 1 for `k ≤ lim`, 0 past it. -/
def chi (lim k : ℕ) : ℝ := if k ≤ lim then 1 else 0

/-- The score of key `k` on the extended reals: the real `τ k` up to the limit, `-∞` past it. -/
def msk (lim : ℕ) (τ : ℕ → ℝ) (k : ℕ) : EReal := if k ≤ lim then ((τ k : ℝ) : EReal) else ⊥

theorem chi_of_le {lim k : ℕ} (h : k ≤ lim) : chi lim k = 1 := if_pos h

theorem chi_of_lt {lim k : ℕ} (h : lim < k) : chi lim k = 0 := if_neg (Nat.not_le.mpr h)

theorem chi_nonneg (lim k : ℕ) : 0 ≤ chi lim k := by
  unfold chi
  split
  · exact zero_le_one
  · exact le_rfl

theorem msk_of_le {lim k : ℕ} (τ : ℕ → ℝ) (h : k ≤ lim) : msk lim τ k = ((τ k : ℝ) : EReal) := if_pos h

theorem msk_of_lt {lim k : ℕ} (τ : ℕ → ℝ) (h : lim < k) : msk lim τ k = ⊥ := if_neg (Nat.not_le.mpr h)

/-- A real inside the extended reals is the coercion of its real part. -/
theorem coe_toReal_of_isReal {x : EReal} (h : IsReal x) : ((x.toReal : ℝ) : EReal) = x := by
  obtain ⟨r, rfl⟩ := h
  rw [EReal.toReal_coe]

/-- The weight of a key relative to a real `M`: `exp (τ k - M)` up to the limit, and `exp (-∞ - M) = exp (-∞) = 0`
    past it. -/
theorem exp_msk_sub (lim : ℕ) (τ : ℕ → ℝ) (k : ℕ) (M : ℝ) :
    Ideal.exp (msk lim τ k - (M : EReal)) = ((Real.exp (τ k - M) * chi lim k : ℝ) : EReal) := by
  rcases Nat.lt_or_ge lim k with h | h
  · rw [msk_of_lt τ h, chi_of_lt h, mul_zero, EReal.bot_sub, Ideal.exp_bot, EReal.coe_zero]
  · rw [msk_of_le τ h, chi_of_le h, mul_one, ← EReal.coe_sub, Ideal.exp_coe]

/-! ## One block with masked keys -/

/-- The maximum of a block whose first key is within the limit is one of the block's real scores, and bounds them
    all: the masked keys, at `-∞`, do not move it. -/
theorem blockMax_msk (hB : 0 < B) (lim : ℕ) (τ : ℕ → ℝ) (n : ℕ) (hn : n ≤ lim) :
    ∃ q0 : Fin B, n + q0.val ≤ lim ∧
      blockMax (fun q : Fin B => msk lim τ (n + q.val)) = ((τ (n + q0.val) : ℝ) : EReal) ∧
      ∀ q : Fin B, n + q.val ≤ lim → τ (n + q.val) ≤ τ (n + q0.val) := by
  classical
  obtain ⟨q0, hq0m, hq0⟩ := Finset.exists_max_image
    ((Finset.univ : Finset (Fin B)).filter fun q => n + q.val ≤ lim) (fun q => τ (n + q.val))
    ⟨⟨0, hB⟩, Finset.mem_filter.mpr ⟨Finset.mem_univ _, by simpa using hn⟩⟩
  have hq0l : n + q0.val ≤ lim := (Finset.mem_filter.mp hq0m).2
  have hle : ∀ q : Fin B, n + q.val ≤ lim → τ (n + q.val) ≤ τ (n + q0.val) := fun q hq =>
    hq0 q (Finset.mem_filter.mpr ⟨Finset.mem_univ _, hq⟩)
  refine ⟨q0, hq0l, le_antisymm ?_ ?_, hle⟩
  · refine (Finset.fold_max_le _).mpr ⟨bot_le, fun q _ => ?_⟩
    rcases Nat.lt_or_ge lim (n + q.val) with h | h
    · rw [msk_of_lt τ h]; exact bot_le
    · rw [msk_of_le τ h]; exact EReal.coe_le_coe_iff.mpr (hle q h)
  · refine (Finset.le_fold_max _).mpr (Or.inr ⟨q0, Finset.mem_univ _, ?_⟩)
    rw [msk_of_le τ hq0l]

/-- The first block: from (-∞, 0, 0) the new state is the block's own maximum `b` and the block's two sums relative to
    `b`, a masked key adding 0. -/
theorem step_bot_msk (lim : ℕ) (τ ν : ℕ → ℝ) (n : ℕ) (b : ℝ)
    (hb : blockMax (fun q : Fin B => msk lim τ (n + q.val)) = (b : EReal)) :
    step (fun q : Fin B => msk lim τ (n + q.val)) (fun q : Fin B => ((ν (n + q.val) : ℝ) : EReal)) (⊥, 0, 0) =
      ((b : EReal), ((∑ q : Fin B, Real.exp (τ (n + q.val) - b) * chi lim (n + q.val) : ℝ) : EReal),
       ((∑ q : Fin B, Real.exp (τ (n + q.val) - b) * (chi lim (n + q.val) * ν (n + q.val)) : ℝ) : EReal)) := by
  unfold step
  simp only [hb, max_eq_right bot_le, mul_zero, zero_add, coe_sum, exp_msk_sub, EReal.coe_mul, mul_assoc]

/-- A later block: from a real state (M, L, O) the new maximum is max M b, the old sums are multiplied by
    exp (M - max M b) and the block's terms, relative to the new maximum, are added, a masked key adding 0. -/
theorem step_coe_msk (lim : ℕ) (τ ν : ℕ → ℝ) (n : ℕ) (b M L O : ℝ)
    (hb : blockMax (fun q : Fin B => msk lim τ (n + q.val)) = (b : EReal)) :
    step (fun q : Fin B => msk lim τ (n + q.val)) (fun q : Fin B => ((ν (n + q.val) : ℝ) : EReal))
        ((M : EReal), (L : EReal), (O : EReal)) =
      (((max M b : ℝ) : EReal),
       ((Real.exp (M - max M b) * L
          + ∑ q : Fin B, Real.exp (τ (n + q.val) - max M b) * chi lim (n + q.val) : ℝ) : EReal),
       ((Real.exp (M - max M b) * O
          + ∑ q : Fin B, Real.exp (τ (n + q.val) - max M b) * (chi lim (n + q.val) * ν (n + q.val)) : ℝ) : EReal)) := by
  unfold step
  simp only [hb, ← coe_max, EReal.coe_add, EReal.coe_mul, coe_sum, ← EReal.coe_sub, Ideal.exp_coe, exp_msk_sub,
    mul_assoc]

/-! ## The invariant -/

/-- After the first n keys (real scores τ k up to the limit, values ν k): the running maximum is a real M that bounds
    the real scores seen and is one of them, and the two running sums are the sums over the keys seen relative to M,
    a masked key counting 0. -/
def CInv (lim : ℕ) (τ ν : ℕ → ℝ) (n : ℕ) (st : EReal × EReal × EReal) : Prop :=
  ∃ M : ℝ, st = ((M : EReal), ((∑ k ∈ Finset.range n, Real.exp (τ k - M) * chi lim k : ℝ) : EReal),
      ((∑ k ∈ Finset.range n, Real.exp (τ k - M) * (chi lim k * ν k) : ℝ) : EReal)) ∧
    (∀ k, k < n → k ≤ lim → τ k ≤ M) ∧ ∃ k, k < n ∧ k ≤ lim ∧ τ k = M

/-- The invariant holds after the first block. -/
theorem cinv_first (hB : 0 < B) (lim : ℕ) (τ ν : ℕ → ℝ) (s w : Fin B → EReal)
    (hs : ∀ q : Fin B, s q = msk lim τ q.val) (hw : ∀ q : Fin B, w q = ((ν q.val : ℝ) : EReal)) :
    CInv lim τ ν B (step s w (⊥, 0, 0)) := by
  obtain rfl : s = fun q : Fin B => msk lim τ (0 + q.val) := funext fun q => by rw [hs q, zero_add]
  obtain rfl : w = fun q : Fin B => ((ν (0 + q.val) : ℝ) : EReal) := funext fun q => by rw [hw q, zero_add]
  obtain ⟨q0, hq0l, hq0, hle⟩ := blockMax_msk hB lim τ 0 (Nat.zero_le _)
  rw [step_bot_msk lim τ ν 0 _ hq0]
  simp only [zero_add] at hq0l hle ⊢
  refine ⟨τ q0.val, ?_, fun k hk hkl => hle ⟨k, hk⟩ hkl, q0.val, q0.isLt, hq0l, rfl⟩
  rw [Fin.sum_univ_eq_sum_range (fun k => Real.exp (τ k - τ q0.val) * chi lim k) B,
    Fin.sum_univ_eq_sum_range (fun k => Real.exp (τ k - τ q0.val) * (chi lim k * ν k)) B]

/-- One more block whose first key is within the limit keeps the invariant. -/
theorem cinv_next (hB : 0 < B) (lim : ℕ) (τ ν : ℕ → ℝ) (n : ℕ) (hn : n ≤ lim) (s w : Fin B → EReal)
    (hs : ∀ q : Fin B, s q = msk lim τ (n + q.val)) (hw : ∀ q : Fin B, w q = ((ν (n + q.val) : ℝ) : EReal))
    (st : EReal × EReal × EReal) (h : CInv lim τ ν n st) : CInv lim τ ν (n + B) (step s w st) := by
  obtain rfl : s = fun q : Fin B => msk lim τ (n + q.val) := funext hs
  obtain rfl : w = fun q : Fin B => ((ν (n + q.val) : ℝ) : EReal) := funext hw
  obtain ⟨M, rfl, hle, k1, hk1, hk1l, hk1M⟩ := h
  obtain ⟨q0, hq0l, hq0, hq0le⟩ := blockMax_msk hB lim τ n hn
  refine ⟨max M (τ (n + q0.val)), ?_, ?_, ?_⟩
  · rw [step_coe_msk lim τ ν n (τ (n + q0.val)) M _ _ hq0,
      rescale_sum τ (chi lim) n M _, rescale_sum τ (fun k => chi lim k * ν k) n M _]
  · intro k hk hkl
    by_cases hkn : k < n
    · exact (hle k hkn hkl).trans (le_max_left _ _)
    · have hq : k - n < B := by omega
      have hkk : n + (k - n) = k := by omega
      have := hq0le ⟨k - n, hq⟩ (by simpa only [hkk] using hkl)
      simp only [hkk] at this
      exact this.trans (le_max_right _ _)
  · rcases le_total M (τ (n + q0.val)) with hc | hc
    · exact ⟨n + q0.val, by have := q0.isLt; omega, hq0l, (max_eq_right hc).symm⟩
    · exact ⟨k1, by omega, hk1l, by rw [max_eq_left hc]; exact hk1M⟩

/-- The invariant after every one of the first `nb` blocks, each of which starts within the limit. -/
theorem cinv_run (hB : 0 < B) (lim : ℕ) (τ ν : ℕ → ℝ) (s w : ℕ → Fin B → EReal) (nb : ℕ)
    (hlim : ∀ j, j < nb → j * B ≤ lim)
    (hs : ∀ j, j < nb → ∀ q : Fin B, s j q = msk lim τ (j * B + q.val))
    (hw : ∀ j, j < nb → ∀ q : Fin B, w j q = ((ν (j * B + q.val) : ℝ) : EReal)) :
    ∀ j, j < nb → CInv lim τ ν ((j + 1) * B) (run s w (j + 1)) := by
  intro j
  induction j with
  | zero =>
    intro h0
    rw [run_succ, run_zero, zero_add, one_mul]
    exact cinv_first hB lim τ ν (s 0) (w 0) (fun q => by simpa using hs 0 h0 q) (fun q => by simpa using hw 0 h0 q)
  | succ j ih =>
    intro hj
    have hmul : (j + 1 + 1) * B = (j + 1) * B + B := by ring
    rw [run_succ, hmul]
    exact cinv_next hB lim τ ν ((j + 1) * B) (hlim (j + 1) hj) (s (j + 1)) (w (j + 1)) (hs (j + 1) hj)
      (hw (j + 1) hj) _ (ih (Nat.lt_of_succ_lt hj))

/-! ## The row -/

/-- THE LAW: a row of `N = nbTot · B` keys whose scores are real up to the limit `lim` and `-∞` past it, with real
    values, the limit falling in block `nb - 1`. Taken block by block (block `j`, position `q` is key `j * B + q`) over
    the first `nb` blocks only, the state ends with a quotient `o / l` that is the row's masked softmax output, every
    weight divided by the normaliser before the weighted sum. -/
theorem causal_run_quotient {nb nbTot N : ℕ} (hN : N = nbTot * B) (hB : 0 < B) (hnb : 0 < nb) (hle : nb ≤ nbTot)
    (t v : Fin N → EReal) (lim : ℕ) (hlo : (nb - 1) * B ≤ lim) (hhi : lim < nb * B)
    (ht : ∀ k : Fin N, k.val ≤ lim → IsReal (t k)) (htm : ∀ k : Fin N, lim < k.val → t k = ⊥)
    (hv : ∀ k, IsReal (v k)) (s w : ℕ → Fin B → EReal)
    (hs : ∀ (j : ℕ) (q : Fin B) (h : j * B + q.val < N), s j q = t ⟨j * B + q.val, h⟩)
    (hw : ∀ (j : ℕ) (q : Fin B) (h : j * B + q.val < N), w j q = v ⟨j * B + q.val, h⟩) :
    Ideal.div (run s w nb).2.2 (run s w nb).2.1 = attnNormalised t v := by
  -- the real scores and the values as functions of a natural-number key (zero where there is no real)
  let τ : ℕ → ℝ := fun k => if h : k < N then (t ⟨k, h⟩).toReal else 0
  let ν : ℕ → ℝ := fun k => if h : k < N then (v ⟨k, h⟩).toReal else 0
  have hτ : ∀ k : Fin N, t k = msk lim τ k.val := fun k => by
    have hk : τ k.val = (t k).toReal := dif_pos k.isLt
    rcases Nat.lt_or_ge lim k.val with h | h
    · rw [msk_of_lt τ h]; exact htm k h
    · rw [msk_of_le τ h, hk, coe_toReal_of_isReal (ht k h)]
  have hν : ∀ k : Fin N, v k = ((ν k.val : ℝ) : EReal) := fun k => by
    have hk : ν k.val = (v k).toReal := dif_pos k.isLt
    rw [hk, coe_toReal_of_isReal (hv k)]
  -- the first nb blocks lie inside the row, and each of them starts within the limit
  have hnbN : nb * B ≤ N := by rw [hN]; exact Nat.mul_le_mul_right B hle
  have hkey : ∀ j, j < nb → ∀ q : Fin B, j * B + q.val < N := fun j hj q => by
    calc j * B + q.val < j * B + B := Nat.add_lt_add_left q.isLt _
      _ = (j + 1) * B := by ring
      _ ≤ nb * B := Nat.mul_le_mul_right B hj
      _ ≤ N := hnbN
  have hlim : ∀ j, j < nb → j * B ≤ lim := fun j hj =>
    (Nat.mul_le_mul_right B (by omega : j ≤ nb - 1)).trans hlo
  have hs' : ∀ j, j < nb → ∀ q : Fin B, s j q = msk lim τ (j * B + q.val) := fun j hj q => by
    rw [hs j q (hkey j hj q), hτ]
  have hw' : ∀ j, j < nb → ∀ q : Fin B, w j q = ((ν (j * B + q.val) : ℝ) : EReal) := fun j hj q => by
    rw [hw j q (hkey j hj q), hν]
  -- the invariant after the last of the nb blocks
  obtain ⟨M, hst, hbd, k1, hk1, hk1l, hk1M⟩ := cinv_run hB lim τ ν s w nb hlim hs' hw' (nb - 1) (by omega)
  have hnb1 : nb - 1 + 1 = nb := by omega
  rw [hnb1] at hst hbd hk1
  have hk1N : k1 < N := lt_of_lt_of_le hk1 hnbN
  -- the running maximum is the maximum of the whole row: the keys left out are at -∞
  have hM : rowMax t = (M : EReal) := by
    unfold rowMax
    refine le_antisymm ((Finset.fold_max_le _).mpr ⟨bot_le, fun k _ => ?_⟩)
      ((Finset.le_fold_max _).mpr (Or.inr ⟨⟨k1, hk1N⟩, Finset.mem_univ _, ?_⟩))
    · rw [hτ k]
      rcases Nat.lt_or_ge lim k.val with h | h
      · rw [msk_of_lt τ h]; exact bot_le
      · rw [msk_of_le τ h]; exact EReal.coe_le_coe_iff.mpr (hbd k.val (lt_of_le_of_lt h hhi) h)
    · exact ((hτ ⟨k1, hk1N⟩).trans ((msk_of_le τ hk1l).trans (congrArg Real.toEReal hk1M))).ge
  -- every weight of the row is a real, zero at a masked key
  have hwt : ∀ k : Fin N, rowWt t k = ((Real.exp (τ k.val - M) * chi lim k.val : ℝ) : EReal) := fun k => by
    unfold rowWt
    rw [hM, hτ k, exp_msk_sub]
  -- a key of the row that is not in the first nb blocks is masked
  have hzero : ∀ k, k ∈ Finset.range N → k ∉ Finset.range (nb * B) → chi lim k = 0 := fun k _ hk =>
    chi_of_lt (lt_of_lt_of_le hhi (Nat.le_of_not_lt fun h => hk (Finset.mem_range.mpr h)))
  -- the normaliser is the first running sum, a positive real
  obtain ⟨L, hL⟩ : ∃ L : ℝ, L = ∑ k ∈ Finset.range (nb * B), Real.exp (τ k - M) * chi lim k := ⟨_, rfl⟩
  obtain ⟨O, hO⟩ : ∃ O : ℝ, O = ∑ k ∈ Finset.range (nb * B), Real.exp (τ k - M) * (chi lim k * ν k) := ⟨_, rfl⟩
  rw [← hL, ← hO] at hst
  have hLN : L = ∑ k : Fin N, Real.exp (τ k.val - M) * chi lim k.val := by
    rw [hL, Fin.sum_univ_eq_sum_range (fun k => Real.exp (τ k - M) * chi lim k) N]
    exact Finset.sum_subset (Finset.range_subset_range.mpr hnbN) fun k hk hk' => by rw [hzero k hk hk', mul_zero]
  have hden : rowDen t = (L : EReal) := by
    unfold rowDen
    rw [hLN, coe_sum]
    exact Finset.sum_congr rfl fun k _ => hwt k
  have hLpos : 0 < L := by
    rw [hL]
    refine Finset.sum_pos' (fun k _ => mul_nonneg (Real.exp_pos _).le (chi_nonneg lim k))
      ⟨k1, Finset.mem_range.mpr hk1, ?_⟩
    rw [chi_of_le hk1l, mul_one]
    exact Real.exp_pos _
  -- the quotient of the two running sums, and the quotient taken inside the sum
  have hON : O * (1 / L) = ∑ k : Fin N, Real.exp (τ k.val - M) * chi lim k.val * (1 / L) * ν k.val := by
    rw [hO, Fin.sum_univ_eq_sum_range (fun k => Real.exp (τ k - M) * chi lim k * (1 / L) * ν k) N,
      ← Finset.sum_subset (Finset.range_subset_range.mpr hnbN) fun k hk hk' => by
        rw [hzero k hk hk', mul_zero, zero_mul, zero_mul],
      Finset.sum_mul]
    exact Finset.sum_congr rfl fun k _ => by ring
  unfold attnNormalised
  rw [hst]
  simp only [hwt, hden, hν, Ideal.div_coe hLpos.ne', ← EReal.coe_mul, ← coe_sum]
  rw [hON]

end Cert.CausalOnline

end
-- ==== Proof.FiniteArgs2.lean ====
/-
  Causal attention over the extended reals: where the entries are real numbers.

  With every entry of the input and of the weight matrices a real number, every projection `proj x W b t e` is a real
  (a finite sum of products of reals), so is every scaled inner product `dotQK`, and the causal score of query `i`
  against key `j` is that real when `j ≤ i` and is `-∞` when `i < j`, whatever the entries are.
-/
import Idealize.ShloMosaic.PureOps.Ideal
import Idealize.ShloMosaic.Lib.ValueIdx
import proofs.«144787_j3307124818573_2_alg».proof.Proof.LibSoftmaxRow
import proofs.«144787_j3307124818573_2_alg».proof.Proof.Spec

noncomputable section

namespace Cert.FiniteArgs

open Idealize.ShloMosaic Idealize.ShloMosaic.ValueIdx Cert.SoftmaxRow Cert.Attn

/-- A projection of a real input against a real weight matrix is a real: a finite sum of products of reals. -/
theorem proj_real (x : SX.Idx → EReal) (W : SW.Idx → EReal) (hx : ∀ i, IsReal (x i)) (hW : ∀ i, IsReal (W i))
    (b : Fin 2) (t : Fin 2048) (e : Fin 1024) : IsReal (proj x W b t e) := by
  unfold proj
  exact isReal_sum _ _ fun d => (hx _).mul (hW _)

/-- The scaled inner product of a query and a key is a real. -/
theorem dotQK_real (x : SX.Idx → EReal) (Wq Wk : SW.Idx → EReal) (hx : ∀ i, IsReal (x i))
    (hWq : ∀ i, IsReal (Wq i)) (hWk : ∀ i, IsReal (Wk i)) (b : Fin 2) (h : Fin 16) (i j : Fin 2048) :
    IsReal (dotQK x Wq Wk b h i j) := by
  unfold dotQK
  exact (isReal_sum _ _ fun d => (proj_real x Wq hx hWq b i _).mul (proj_real x Wk hx hWk b j _)).mul
    (isReal_coe _)

/-- At or below the diagonal the causal score is the scaled inner product. -/
theorem score_of_le (x : SX.Idx → EReal) (Wq Wk : SW.Idx → EReal) (b : Fin 2) (h : Fin 16) (i j : Fin 2048)
    (hji : j.val ≤ i.val) : score x Wq Wk b h i j = dotQK x Wq Wk b h i j := by
  unfold score
  rw [if_pos hji]

/-- At or below the diagonal the causal score is a real. -/
theorem score_real (x : SX.Idx → EReal) (Wq Wk : SW.Idx → EReal) (hx : ∀ i, IsReal (x i))
    (hWq : ∀ i, IsReal (Wq i)) (hWk : ∀ i, IsReal (Wk i)) (b : Fin 2) (h : Fin 16) (i j : Fin 2048)
    (hji : j.val ≤ i.val) : IsReal (score x Wq Wk b h i j) := by
  rw [score_of_le x Wq Wk b h i j hji]
  exact dotQK_real x Wq Wk hx hWq hWk b h i j

/-- Above the diagonal the causal score is `-∞`. -/
theorem score_bot (x : SX.Idx → EReal) (Wq Wk : SW.Idx → EReal) (b : Fin 2) (h : Fin 16) (i j : Fin 2048)
    (hij : i.val < j.val) : score x Wq Wk b h i j = ⊥ := by
  unfold score
  rw [if_neg (Nat.not_le.mpr hij)]

end Cert.FiniteArgs

end
-- ==== Proof.Bridge.lean ====
/-
  From the tiled row to the specification.

  The 32 per-head arrays [32, 2048, 64] are the projections cut by heads: head number bh = b · 16 + h is head h of batch
  entry b, and entry (bh, t, d) of the array of a weight matrix W is the projection of row (b,t) on column h · 64 + d.
  With these arrays the scores of the tiled row of head bh and query r are the specification's causal scores of (b,h)
  and r, key j · 512 + c in tile j at place c, and its values are the value projections' column d. When every entry of
  the input and of the weight matrices is a real number the scores up to the query's own position are reals, the
  later ones are -∞, and the values are reals; the query's position r falls in tile r / 512; so the running softmax over
  the tiles 0 … r / 512 ends with the quotient that is the specification's head output (the law of the causal
  blockwise row). The 1024 columns of the heads' row are 16 heads of 64: column e is coordinate e % 64 of head e / 64,
  head number b · 16 + e / 64; the row against the rows of Wo plus the bias is the specification's result.
-/
import proofs.«144787_j3307124818573_2_alg».proof.Proof.Spec
import proofs.«144787_j3307124818573_2_alg».proof.Proof.AttnRow
import proofs.«144787_j3307124818573_2_alg».proof.Proof.LibCausalOnline
import proofs.«144787_j3307124818573_2_alg».proof.Proof.FiniteArgs2

noncomputable section

namespace Cert.Bridge

open Idealize.ShloMosaic Idealize.ShloMosaic.ValueIdx Cert.SoftmaxRow Cert.OnlineSoftmax Cert.CausalOnline Cert.Attn Cert.AttnRow
  Cert.FiniteArgs

/-- The per-head array of a projection: head bh = b · 16 + h, entry (bh, t, d) is the projection of row (b,t) on column h · 64 + d. -/
def headArr (x : SX.Idx → EReal) (W : SW.Idx → EReal) : SH.Idx → EReal := fun i =>
  proj x W ⟨(i 0).val / 16, by have h0 : (i 0).val < 32 := (i 0).isLt; omega⟩ (i 1)
    (col ⟨(i 0).val % 16, Nat.mod_lt _ (by decide)⟩ (i 2))

/-- The per-head array read at (bh, t, d). -/
theorem headArr_at (x : SX.Idx → EReal) (W : SW.Idx → EReal) (bh : Fin 32) (t : Fin 2048) (d : Fin 64) :
    headArr x W (ix3 bh t d) = proj x W ⟨bh.val / 16, by omega⟩ t (col ⟨bh.val % 16, Nat.mod_lt _ (by decide)⟩ d) := rfl

/-- Place c of tile j is key j · 512 + c when that is one of the 2048 keys. -/
theorem krow_eq (j : ℕ) (q : Fin 512) (hlt : j * 512 + q.val < 2048) : krow j q = ⟨j * 512 + q.val, hlt⟩ :=
  Fin.ext (by
    show (j % 4) * 512 + q.val = j * 512 + q.val
    have hq := q.isLt
    rw [Nat.mod_eq_of_lt (by omega : j < 4)])

/-- The tiled row of head bh = b · 16 + h and query r ends in the specification's head output, when the input and the
    weight matrices hold real numbers. -/
theorem outG_eq_headOut (x : SX.Idx → EReal) (Wq Wk Wv : SW.Idx → EReal) (hx : ∀ i, IsReal (x i)) (hq : ∀ i, IsReal (Wq i))
    (hk : ∀ i, IsReal (Wk i)) (hv : ∀ i, IsReal (Wv i)) (bh : Fin 32) (r : Fin 2048) (d : Fin 64) :
    outG (headArr x Wq) (headArr x Wk) (headArr x Wv) bh r d
      = headOut x Wq Wk Wv ⟨bh.val / 16, by omega⟩ ⟨bh.val % 16, Nat.mod_lt _ (by decide)⟩ r d := by
  have hr := r.isLt
  unfold outG headOut
  refine causal_run_quotient (B := 512) (nb := r.val / 512 + 1) (nbTot := 4) (N := 2048) (by norm_num) (by decide)
    (Nat.succ_pos _) (by omega) _ _ r.val (by omega) (by omega)
    (fun k hkr => score_real x Wq Wk hx hq hk _ _ r k hkr) (fun k hkr => score_bot x Wq Wk _ _ r k hkr)
    (fun k => proj_real x Wv hx hv _ k _) _ _ ?_ ?_
  · intro j q hlt
    unfold rowS score dotQK
    rw [krow_eq j q hlt]
    rfl
  · intro j q hlt
    unfold rowW
    rw [krow_eq j q hlt]
    rfl

/-- The head output depends on the batch entry and the head only through their values. -/
theorem headOut_congr (x : SX.Idx → EReal) (Wq Wk Wv : SW.Idx → EReal) {b b' : Fin 2} {h h' : Fin 16} (hb : b = b') (hh : h = h')
    (t : Fin 2048) (d : Fin 64) : headOut x Wq Wk Wv b h t d = headOut x Wq Wk Wv b' h' t d := by
  subst hb; subst hh; rfl

/-- The result at (b,t,o): the tiled rows of the 16 heads of batch entry b side by side against row o of Wo, plus the bias. -/
theorem composed_at (x : SX.Idx → EReal) (Wq Wk Wv Wo : SW.Idx → EReal) (bo : SB.Idx → EReal) (hx : ∀ i, IsReal (x i))
    (hq : ∀ i, IsReal (Wq i)) (hk : ∀ i, IsReal (Wk i)) (hv : ∀ i, IsReal (Wv i)) (b : Fin 2) (t : Fin 2048) (o : Fin 1024) :
    (∑ e : Fin 1024, outG (headArr x Wq) (headArr x Wk) (headArr x Wv) ⟨b.val * 16 + e.val / 64, by omega⟩ t
        ⟨e.val % 64, Nat.mod_lt _ (by decide)⟩ * Wo (ix2 o e)) + bo (ix1 o)
      = out x Wq Wk Wv Wo bo b t o := by
  unfold out
  congr 1
  refine Finset.sum_congr rfl fun e _ => ?_
  congr 1
  refine (outG_eq_headOut x Wq Wk Wv hx hq hk hv _ t _).trans ?_
  unfold headsRow
  have hb := b.isLt
  have he := e.isLt
  exact headOut_congr x Wq Wk Wv (Fin.ext (by show (b.val * 16 + e.val / 64) / 16 = b.val; omega))
    (Fin.ext (by show (b.val * 16 + e.val / 64) % 16 = e.val / 64; omega)) t _

/-- The whole result array: the tiled rows composed with the output projection are the specification. -/
theorem composed_eq_G (x : SX.Idx → EReal) (Wq Wk Wv Wo : SW.Idx → EReal) (bo : SB.Idx → EReal) (hx : ∀ i, IsReal (x i))
    (hq : ∀ i, IsReal (Wq i)) (hk : ∀ i, IsReal (Wk i)) (hv : ∀ i, IsReal (Wv i)) :
    (fun i : SX.Idx => (∑ e : Fin 1024, outG (headArr x Wq) (headArr x Wk) (headArr x Wv)
        ⟨(i 0).val * 16 + e.val / 64, by have h0 : (i 0).val < 2 := (i 0).isLt; have he := e.isLt; omega⟩ (i 1)
        ⟨e.val % 64, Nat.mod_lt _ (by decide)⟩ * Wo (ix2 (i 2 : Fin 1024) e)) + bo (ix1 (i 2 : Fin 1024)))
      = G x Wq Wk Wv Wo bo := by
  funext i
  obtain ⟨b, t, o, rfl⟩ : ∃ (b : Fin 2) (t : Fin 2048) (o : Fin 1024), i = ix3 b t o := ⟨i 0, i 1, i 2, eq_ix3 i⟩
  exact composed_at x Wq Wk Wv Wo bo hx hq hk hv b t o

end Cert.Bridge

end
-- ==== Proof.KernelIsG.lean ====
/-
  The kernel program's result is the specification of its arguments.

  The buffers' contents at each boundary of the program are a fold from the launch memory. Read from the end: the result
  [2,2048,1024] is the last region's array [4096,1024] regrouped; that array is the product of the heads' rows with the
  transposed output weights plus the bias row; the heads' rows are the second region's array, every head's causal
  attention rows computed tile by tile, regrouped; the second region's three arrays are the query, key and value
  projections cut by heads; and these are thirds of the first region's array, the product of the flattened input with the
  three projection matrices stacked and transposed. Each layout stretch is read index by index, each region's array is
  its closed form, and what remains is the specification's own expression of the result through the tiled rows.
-/
import proofs.«144787_j3307124818573_2_alg».proof.Proof.Top
import proofs.«144787_j3307124818573_2_alg».proof.Proof.Reg0Value
import proofs.«144787_j3307124818573_2_alg».proof.Proof.Reg1Final
import proofs.«144787_j3307124818573_2_alg».proof.Proof.Reg2Value
import proofs.«144787_j3307124818573_2_alg».proof.Proof.HostVals
import proofs.«144787_j3307124818573_2_alg».proof.Proof.Bridge

set_option maxRecDepth 16384

noncomputable section

namespace Cert.KernelIdeal.KIsG

open Cert.KernelIdeal Cert.KernelIdeal.Gen
open Idealize.ShloMosaic Idealize.ShloMosaic.TcCoe Idealize.ShloMosaic.ValueIdx
open Cert.KernelIdeal.Top Cert.KernelIdeal.HostVals Cert.SoftmaxRow Cert.Bridge

/-! ## Indices and rows that differ only in how their coordinates are spelt -/

theorem ix2_congr {n0 n1 : Nat} {a a' : Fin n0} {b b' : Fin n1} (ha : a.val = a'.val) (hb : b.val = b'.val) :
    ix2 a b = ix2 a' b' := by
  obtain rfl := Fin.ext ha; obtain rfl := Fin.ext hb; rfl

theorem ix3_congr {n0 n1 n2 : Nat} {a a' : Fin n0} {b b' : Fin n1} {d d' : Fin n2} (ha : a.val = a'.val) (hb : b.val = b'.val)
    (hd : d.val = d'.val) : ix3 a b d = ix3 a' b' d' := by
  obtain rfl := Fin.ext ha; obtain rfl := Fin.ext hb; obtain rfl := Fin.ext hd; rfl

/-- The tiled row depends on the head, the position and the coordinate only through their values. -/
theorem outG_congr (Q K Vv : Cert.AttnRow.SH.Idx → EReal) {h h' : Fin 32} {r r' : Fin 2048} {d d' : Fin 64}
    (hh : h.val = h'.val) (hr : r.val = r'.val) (hd : d.val = d'.val) :
    Cert.AttnRow.outG Q K Vv h r d = Cert.AttnRow.outG Q K Vv h' r' d' := by
  obtain rfl := Fin.ext hh; obtain rfl := Fin.ext hr; obtain rfl := Fin.ext hd; rfl

variable (m : (ℓ : Loc nD τ sig) → Buf (Elt Ideal) ℓ) (ρ : Dev nD → PrngReg) (c : Dev nD)

/-! ## The launch arguments as plain arrays -/

abbrev aX : Cert.Attn.SX.Idx → EReal := m ((c : Thread nD τ).loc main_arg0)
abbrev aWq : Cert.Attn.SW.Idx → EReal := m ((c : Thread nD τ).loc main_arg1)
abbrev aWk : Cert.Attn.SW.Idx → EReal := m ((c : Thread nD τ).loc main_arg2)
abbrev aWv : Cert.Attn.SW.Idx → EReal := m ((c : Thread nD τ).loc main_arg3)
abbrev aWo : Cert.Attn.SW.Idx → EReal := m ((c : Thread nD τ).loc main_arg4)
abbrev aBo : Cert.Attn.SB.Idx → EReal := m ((c : Thread nD τ).loc main_arg5)

/-! ## The first region: the three projections side by side -/

/-- Row b·2048 + t of the flat input is row (b,t) of the input. -/
theorem x_flat_at (r : Fin 4096) (k : Fin 1024) (b : Fin 2) (t : Fin 2048) (hr : r.val = b.val * 2048 + t.val) :
    (B1 m ρ c (Proc.devRef .tc main_v0) : S4096x1024.Idx → EReal) (ix2 r k) = aX m c (ix3 b t k) :=
  (H0a (B0 m ρ c) r k).trans (congrArg (aX m c)
    (ix3_congr (by show r.val / 2048 = b.val; omega) (by show r.val % 2048 = t.val; omega) rfl))

/-- The first region leaves the product of the flat input and the stacked, transposed weights. -/
theorem v3_eq : (B2 m ρ c (Proc.devRef .tc main_v3) : S4096x3072.Idx → EReal)
    = Reg0.G0 (E1 m ρ c main_v0) (E1 m ρ c main_v2) :=
  (B2_arr m ρ c 2).trans (Reg0.final0 (E1 m ρ) c)

/-- An entry of that product in a column that is row cc of a weight matrix Wm: the projection of row (b,t) on cc. -/
theorem proj_at (Wm : Cert.Attn.SW.Idx → EReal) (r : Fin 4096) (e : Fin 3072) (b : Fin 2) (t : Fin 2048) (cc : Fin 1024)
    (hr : r.val = b.val * 2048 + t.val)
    (hW : ∀ k : Fin 1024, (B1 m ρ c (Proc.devRef .tc main_v2) : S1024x3072.Idx → EReal) (ix2 k e) = Wm (ix2 cc k)) :
    (B2 m ρ c (Proc.devRef .tc main_v3) : S4096x3072.Idx → EReal) (ix2 r e) = Cert.Attn.proj (aX m c) Wm b t cc := by
  refine (congrFun (v3_eq m ρ c) _).trans ?_
  refine (Reg0.G0_apply _ _ _).trans ?_
  unfold Cert.Attn.proj
  refine Finset.sum_congr rfl fun k _ => ?_
  exact congrArg₂ (fun a b : EReal => a * b) (x_flat_at m ρ c r k b t hr) (hW k)

/-! ## The second stretch: the three per-head arrays are the projections cut by heads -/

theorem q_arr : (E3 m ρ c main_v9 : Cert.AttnRow.SH.Idx → EReal) = headArr (aX m c) (aWq m c) := by
  funext i
  obtain ⟨bh, t, d, rfl⟩ : ∃ (bh : Fin 32) (t : Fin 2048) (d : Fin 64), i = ix3 bh t d := ⟨i 0, i 1, i 2, eq_ix3 i⟩
  refine (H1q (B2 m ρ c) bh t d).trans ?_
  exact proj_at m ρ c (aWq m c) _ _ ⟨bh.val / 16, by omega⟩ t (Cert.Attn.col ⟨bh.val % 16, Nat.mod_lt _ (by decide)⟩ d) rfl
    (fun k => H0b_q (B0 m ρ c) k _ _ rfl)

theorem k_arr : (E3 m ρ c main_v12 : Cert.AttnRow.SH.Idx → EReal) = headArr (aX m c) (aWk m c) := by
  funext i
  obtain ⟨bh, t, d, rfl⟩ : ∃ (bh : Fin 32) (t : Fin 2048) (d : Fin 64), i = ix3 bh t d := ⟨i 0, i 1, i 2, eq_ix3 i⟩
  refine (H1k (B2 m ρ c) bh t d).trans ?_
  exact proj_at m ρ c (aWk m c) _ _ ⟨bh.val / 16, by omega⟩ t (Cert.Attn.col ⟨bh.val % 16, Nat.mod_lt _ (by decide)⟩ d) rfl
    (fun k => H0b_k (B0 m ρ c) k _ _
      (by show 1024 + (bh.val % 16) * 64 + d.val = 1024 + ((bh.val % 16) * 64 + d.val); omega))

theorem v_arr : (E3 m ρ c main_v15 : Cert.AttnRow.SH.Idx → EReal) = headArr (aX m c) (aWv m c) := by
  funext i
  obtain ⟨bh, t, d, rfl⟩ : ∃ (bh : Fin 32) (t : Fin 2048) (d : Fin 64), i = ix3 bh t d := ⟨i 0, i 1, i 2, eq_ix3 i⟩
  refine (H1v (B2 m ρ c) bh t d).trans ?_
  exact proj_at m ρ c (aWv m c) _ _ ⟨bh.val / 16, by omega⟩ t (Cert.Attn.col ⟨bh.val % 16, Nat.mod_lt _ (by decide)⟩ d) rfl
    (fun k => H0b_v (B0 m ρ c) k _ _
      (by show 2048 + (bh.val % 16) * 64 + d.val = 2048 + ((bh.val % 16) * 64 + d.val); omega))

/-! ## The second region: every head's tiled rows -/

theorem o_arr : (B4 m ρ c (Proc.devRef .tc main_v16) : Cert.AttnRow.SH.Idx → EReal)
    = Reg1.G1 (headArr (aX m c) (aWq m c)) (headArr (aX m c) (aWk m c)) (headArr (aX m c) (aWv m c)) :=
  ((B4_arr m ρ c 3).trans (Reg1.final1 (E3 m ρ) c)).trans
    (congr (congr (congrArg Reg1.G1 (q_arr m ρ c)) (k_arr m ρ c)) (v_arr m ρ c))

/-! ## The output weights and the bias reach the last region as launched -/

theorem B4_main_arg4 : (B4 m ρ c (Proc.devRef .tc main_arg4) : Cert.Attn.SW.Idx → EReal) = aWo m c :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

theorem B4_main_arg5 : (B4 m ρ c (Proc.devRef .tc main_arg5) : Cert.Attn.SB.Idx → EReal) = aBo m c :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (r := main_arg5) (by decide)
    _ = B1 m ρ c (Proc.devRef .tc main_arg5) := B2_of_ne m ρ c main_arg5 (by decide)
    _ = B0 m ρ c (Proc.devRef .tc main_arg5) := StableHlo.after_of_writes_sub hostOps0 _ hostOps0_writes (r := main_arg5) (by decide)
    _ = m ((c : Thread nD τ).loc main_arg5) := rfl

/-! ## The third region: the heads' rows against the output weights, plus the bias -/

theorem v22_eq : (B6 m ρ c (Proc.devRef .tc main_v22) : S4096x1024.Idx → EReal)
    = Reg2.G2 (E5 m ρ c main_v19) (E5 m ρ c main_v20) (E5 m ρ c main_v21) :=
  (B6_arr m ρ c 3).trans (Reg2.final2 (E5 m ρ) c)

/-- Entry (b·2048 + t, o) of the last region's result: the 16 heads' tiled rows of batch entry b at position t, side by
    side, against row o of the output weights, plus the bias. -/
theorem lin_at (r : Fin 4096) (o : Fin 1024) (b : Fin 2) (t : Fin 2048) (hr : r.val = b.val * 2048 + t.val) :
    (B6 m ρ c (Proc.devRef .tc main_v22) : S4096x1024.Idx → EReal) (ix2 r o)
      = (∑ e : Fin 1024, Cert.AttnRow.outG (headArr (aX m c) (aWq m c)) (headArr (aX m c) (aWk m c)) (headArr (aX m c) (aWv m c))
            ⟨b.val * 16 + e.val / 64, by omega⟩ t ⟨e.val % 64, Nat.mod_lt _ (by decide)⟩ * aWo m c (ix2 o e))
          + aBo m c (ix1 o) := by
  refine (congrFun (v22_eq m ρ c) _).trans ?_
  refine (Reg2.G2_apply _ _ _ _).trans ?_
  refine congrArg₂ (fun a b : EReal => a + b)
    (Finset.sum_congr rfl fun e _ => congrArg₂ (fun a b : EReal => a * b) ?_ ?_) ?_
  · refine (H2a (B4 m ρ c) r e).trans ?_
    refine (congrFun (o_arr m ρ c) _).trans ?_
    exact outG_congr _ _ _ (by show r.val / 2048 * 16 + e.val / 64 = b.val * 16 + e.val / 64; omega)
      (by show r.val % 2048 = t.val; omega) rfl
  · exact (H2b (B4 m ρ c) e o).trans (congrFun (B4_main_arg4 m ρ c) _)
  · exact (H2c (B4 m ρ c) o).trans (congrFun (B4_main_arg5 m ρ c) _)

/-! ## The result -/

/-- The result buffer at the return is the specification of the launch arguments, when the input and the three
    projection matrices hold real numbers. -/
theorem kernel_result
    (hx : ∀ i : Cert.Attn.SX.Idx, IsReal ((m ((c : Thread nD τ).loc main_arg0) : Cert.Attn.SX.Idx → EReal) i))
    (hq : ∀ i : Cert.Attn.SW.Idx, IsReal ((m ((c : Thread nD τ).loc main_arg1) : Cert.Attn.SW.Idx → EReal) i))
    (hk : ∀ i : Cert.Attn.SW.Idx, IsReal ((m ((c : Thread nD τ).loc main_arg2) : Cert.Attn.SW.Idx → EReal) i))
    (hv : ∀ i : Cert.Attn.SW.Idx, IsReal ((m ((c : Thread nD τ).loc main_arg3) : Cert.Attn.SW.Idx → EReal) i)) :
    (B7 m ρ c (Proc.devRef .tc main_v23) : S2x2048x1024.Idx → EReal)
      = Cert.Attn.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨b, t, o, rfl⟩ : ∃ (b : Fin 2) (t : Fin 2048) (o : Fin 1024), i = ix3 b t o := ⟨i 0, i 1, i 2, eq_ix3 i⟩
  refine (H3 (B6 m ρ c) b t o).trans ?_
  refine (lin_at m ρ c _ o b t rfl).trans ?_
  exact composed_at (aX m c) (aWq m c) (aWk m c) (aWv m c) (aWo m c) (aBo m c) hx hq hk hv b t o

end Cert.KernelIdeal.KIsG

end
-- ==== Proof.RefProj.lean ====
/-
  The reference's three projections, read in the per-head layout.

  The reference forms x·Wᵀ as an array [2,2048,1024], reshapes it to [2,2048,16,64] and transposes it to
  [2,16,2048,64]. Reading the transposed array at (b,h,t,d) reads the reshaped one at (b,t,h,d), which in row-major
  order is entry ((b·2048+t)·16+h)·64+d = (b·2048+t)·1024 + (h·64+d) of the flat array, that is entry
  (b, t, h·64+d) of the product: the projection of row (b,t) on column h·64+d, a sum over the 1024 input columns.
-/
import proofs.«144787_j3307124818573_2_alg».proof.Proof.Gen.ReferenceIdeal.Read
import proofs.«144787_j3307124818573_2_alg».proof.Proof.Spec

noncomputable section

namespace Cert.RefSide

open Idealize.ShloMosaic Idealize.ShloMosaic.ValueIdx Cert.ReferenceIdeal Cert.ReferenceIdeal.Read Cert.Attn Cert.SoftmaxRow

/-- Position (b,h,t,d) of the transposed, reshaped array is position (b, t, h·64+d) of the flat one. -/
theorem idx_head (b : Fin 2) (h : Fin 16) (t : Fin 2048) (d : Fin 64) :
    idx_main_v1 (idx_main_v2 (ix4 b h t d)) = ix3 b t (col h d) := by
  funext a
  refine Fin.ext ?_
  have hb := b.isLt; have hh := h.isLt; have ht := t.isLt; have hd := d.isLt
  match a with
  | ⟨0, _⟩ => show ((((b.val * 2048 + t.val) * 16 + h.val) * 64 + d.val) / 2097152 = b.val); omega
  | ⟨1, _⟩ => show ((((b.val * 2048 + t.val) * 16 + h.val) * 64 + d.val) / 1024 % 2048 = t.val); omega
  | ⟨2, _⟩ => show ((((b.val * 2048 + t.val) * 16 + h.val) * 64 + d.val) % 1024 = h.val * 64 + d.val); omega

/-- The left factor of term k of entry (b,t,e) of a product x·Wᵀ is x at (b,t,k). -/
theorem lidx_row (b : Fin 2) (t : Fin 2048) (e k : Fin 1024) : lidx_main_v0 (ix3 b t e) k = ix3 b t k :=
  funext fun a => Fin.ext (by match a with | ⟨0, _⟩ => rfl | ⟨1, _⟩ => rfl | ⟨2, _⟩ => rfl)

/-- The right factor of term k of entry (b,t,e) of a product x·Wᵀ is W at (e,k). -/
theorem ridx_row (b : Fin 2) (t : Fin 2048) (e k : Fin 1024) : ridx_main_v0 (ix3 b t e) k = ix2 e k :=
  funext fun a => Fin.ext (by match a with | ⟨0, _⟩ => rfl | ⟨1, _⟩ => rfl)

/-- The query projection in the per-head layout. -/
theorem v2_at (x : SX.Idx → EReal) (W : SW.Idx → EReal) (b : Fin 2) (h : Fin 16) (t : Fin 2048) (d : Fin 64) :
    val_main_v2 (F := Ideal) x W (ix4 b h t d) = proj x W b t (col h d) := by
  rw [val_main_v2_apply, val_main_v1_apply, idx_head, val_main_v0_apply]
  unfold proj
  exact Finset.sum_congr rfl fun k _ => by rw [lidx_row, ridx_row]

/-- The key projection in the per-head layout. -/
theorem v5_at (x : SX.Idx → EReal) (W : SW.Idx → EReal) (b : Fin 2) (h : Fin 16) (t : Fin 2048) (d : Fin 64) :
    val_main_v5 (F := Ideal) x W (ix4 b h t d) = proj x W b t (col h d) := by
  rw [val_main_v5_apply, val_main_v4_apply, show idx_main_v4 (idx_main_v5 (ix4 b h t d)) = ix3 b t (col h d) from idx_head b h t d,
    val_main_v3_apply]
  unfold proj
  exact Finset.sum_congr rfl fun k _ => by
    rw [show lidx_main_v3 (ix3 b t (col h d)) k = ix3 b t k from lidx_row b t _ k,
      show ridx_main_v3 (ix3 b t (col h d)) k = ix2 (col h d) k from ridx_row b t _ k]

/-- The value projection in the per-head layout. -/
theorem v8_at (x : SX.Idx → EReal) (W : SW.Idx → EReal) (b : Fin 2) (h : Fin 16) (t : Fin 2048) (d : Fin 64) :
    val_main_v8 (F := Ideal) x W (ix4 b h t d) = proj x W b t (col h d) := by
  rw [val_main_v8_apply, val_main_v7_apply, show idx_main_v7 (idx_main_v8 (ix4 b h t d)) = ix3 b t (col h d) from idx_head b h t d,
    val_main_v6_apply]
  unfold proj
  exact Finset.sum_congr rfl fun k _ => by
    rw [show lidx_main_v6 (ix3 b t (col h d)) k = ix3 b t k from lidx_row b t _ k,
      show ridx_main_v6 (ix3 b t (col h d)) k = ix2 (col h d) k from ridx_row b t _ k]

end Cert.RefSide

end
-- ==== Proof.RefScore.lean ====
/-
  The reference's causal scores.

  In head (b,h) the reference contracts the query and key projections over the 64 head coordinates, divides by the
  square root of the literal 64 (on the extended reals: the real 8, so the quotient is the product with 1/8), and
  replaces by -∞ every entry the mask marks. The mask is built from a row number and a column number as signed 32-bit
  words: it is false where row + 0 ≥ column and true elsewhere, that is, true exactly where the key position is
  strictly after the query position. Rows and columns are below 2048, so the signed words compare as the numbers do.
-/
import proofs.«144787_j3307124818573_2_alg».proof.Proof.RefProj
import Idealize.ShloMosaic.Lib.Affine

noncomputable section

namespace Cert.RefSide

open Idealize.ShloMosaic Idealize.ShloMosaic.ValueIdx Cert.ReferenceIdeal Cert.ReferenceIdeal.Read Cert.Attn Cert.SoftmaxRow

/-! ## The divisor -/

/-- The pattern of 64.0 denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-! ## The mask -/

/-- A position below 2048, as a 32-bit word, reads as itself when read signed. -/
theorem toInt_pos (n : Fin 2048) : (BitVec.ofNat 32 n.val).toInt = (n.val : Int) := by
  have hn := n.isLt
  have h1 : (BitVec.ofNat 32 n.val).toNat = n.val := by rw [BitVec.toNat_ofNat]; omega
  rw [BitVec.toInt_eq_toNat_of_lt (by rw [h1]; omega), h1]

/-- The mask at (query i, key j): false when j ≤ i, true when j > i. -/
theorem mask_at (i j : Fin 2048) :
    val_main_v14 (F := Ideal) (ix2 i j) = if j.val ≤ i.val then 0#1 else 1#1 := by
  rw [val_main_v14_apply, val_main_call0_v4_apply, val_main_call0_v5_apply, val_main_v13_apply, val_main_call0_c_0_apply,
    val_main_c_apply, val_main_call0_v2_apply, val_main_call0_v0_apply, val_main_call0_v1_apply, val_main_call0_c_apply,
    val_main_call0_v3_apply]
  show Scalar.select (IntOp.cmpi .sge (IntOp.addi (BitVec.ofNat 32 i.val) 0#32) (BitVec.ofNat 32 j.val)) 0#1 1#1 = _
  rw [show IntOp.addi (BitVec.ofNat 32 i.val) 0#32 = BitVec.ofNat 32 i.val from BitVec.add_zero _]
  by_cases hji : j.val ≤ i.val
  · rw [if_pos hji, (IntOp.cmpi_sge).mpr (by rw [toInt_pos, toInt_pos]; exact_mod_cast hji), select_one]
  · have hne : ¬IntOp.cmpi .sge (BitVec.ofNat 32 i.val) (BitVec.ofNat 32 j.val) = 1#1 := fun h => hji (by
      have h' := (IntOp.cmpi_sge).mp h
      rw [toInt_pos, toInt_pos] at h'
      exact_mod_cast h')
    rw [if_neg hji, eq_zero_of_ne_one hne, select_zero]

/-- The mask over the whole score array does not depend on the batch entry or the head. -/
theorem idx_mask (b : Fin 2) (h : Fin 16) (i j : Fin 2048) : idx_main_call1_v1 (ix4 b h i j) = ix2 i j :=
  funext fun a => Fin.ext (by match a with | ⟨0, _⟩ => rfl | ⟨1, _⟩ => rfl)

/-! ## The scaled inner product -/

/-- Term k of the contraction at (b,h,i,j) reads the query at (b,h,i,k). -/
theorem lidx_qk (b : Fin 2) (h : Fin 16) (i j : Fin 2048) (k : Fin 64) : lidx_main_v9 (ix4 b h i j) k = ix4 b h i k :=
  funext fun a => Fin.ext (by match a with | ⟨0, _⟩ => rfl | ⟨1, _⟩ => rfl | ⟨2, _⟩ => rfl | ⟨3, _⟩ => rfl)

/-- Term k of the contraction at (b,h,i,j) reads the key at (b,h,j,k). -/
theorem ridx_qk (b : Fin 2) (h : Fin 16) (i j : Fin 2048) (k : Fin 64) : ridx_main_v9 (ix4 b h i j) k = ix4 b h j k :=
  funext fun a => Fin.ext (by match a with | ⟨0, _⟩ => rfl | ⟨1, _⟩ => rfl | ⟨2, _⟩ => rfl | ⟨3, _⟩ => rfl)

/-- The quotient of the inner product by √64 is the inner product times 1/8. -/
theorem v12_at (x : SX.Idx → EReal) (Wq Wk : SW.Idx → EReal) (b : Fin 2) (h : Fin 16) (i j : Fin 2048) :
    val_main_v12 (F := Ideal) x Wq Wk (ix4 b h i j) = dotQK x Wq Wk b h i j := by
  rw [val_main_v12_apply, val_main_v11_apply, val_main_v10_apply, val_main_cst_apply, val_main_v9_apply]
  simp only [Ideal.hostDivf_def, Ideal.hostUnary_sqrt_def, Ideal.ofBits_def]
  rw [ofBits_64, sqrt_64, Ideal.div_coe (by norm_num : (8 : ℝ) ≠ 0)]
  unfold dotQK
  congr 1
  exact Finset.sum_congr rfl fun k _ => by rw [lidx_qk, ridx_qk, v2_at, v5_at]

/-- The masked array is the causal score. -/
theorem v15_at (x : SX.Idx → EReal) (Wq Wk : SW.Idx → EReal) (b : Fin 2) (h : Fin 16) (i j : Fin 2048) :
    val_main_v15 (F := Ideal) x Wq Wk (ix4 b h i j) = score x Wq Wk b h i j := by
  rw [val_main_v15_apply, val_main_call1_v1_apply, idx_mask, mask_at, val_main_call1_v2_apply, val_main_call1_v0_apply,
    val_main_cst_0_apply, v12_at]
  unfold score
  by_cases hji : j.val ≤ i.val
  · rw [if_pos hji, if_pos hji, select_zero]
  · rw [if_neg hji, if_neg hji, select_one, Ideal.ofBits_def, ofBits_negInf]

end Cert.RefSide

end
-- ==== Proof.RefSoftmax.lean ====
/-
  The reference's softmax over the keys and the weighted sum of the values.

  For a fixed head (b,h) and query position i, write s for the row of causal scores j ↦ score b h i j. The
  reference takes the row's maximum from -∞ (a fold of max over the 2048 key positions), takes the maximum of that with
  -∞ again (which changes nothing), subtracts it from every score, exponentiates, sums the exponentials from 0, and
  divides every exponential by that sum. These are the row's maximum, weights and normaliser of the specification, and
  the division is the normalise-each-weight form. The contraction of the normalised weights with the values' column d
  over the key positions is then the head's output.
-/
import proofs.«144787_j3307124818573_2_alg».proof.Proof.RefScore

noncomputable section

namespace Cert.RefSide

open Idealize.ShloMosaic Idealize.ShloMosaic.ValueIdx Cert.ReferenceIdeal Cert.ReferenceIdeal.Gen Cert.ReferenceIdeal.Read Cert.Attn
  Cert.SoftmaxRow

/-! ## The row's maximum -/

/-- A reduce by max from -∞ over the last axis of an array [2,16,2048,2048], read at (b,h,i), is the maximum from -∞
    of the row k ↦ y (b,h,i,k): the fold runs over the 2048 coordinates of the dropped axis. -/
theorem reduce_max_row (y : S2x16x2048x2048.Idx → EReal) (s : Fin 2048 → EReal) (b : Fin 2) (h : Fin 16) (i : Fin 2048)
    (hy : ∀ k : Fin 2048, y (ix4 b h i k) = s k) :
    Host.reduce (FloatOps.maximumf (F := Ideal) (φ := .f32)) y (val_main_cst_1 (F := Ideal))
      reducesTo_S2x16x2048x2048_S2x16x2048_d3 h_S_ (ix3 b h i) = rowMax s := by
  have hred : S2x16x2048x2048.Reduces [3] S2x16x2048 := by decide
  refine (Host.reduce_eq_fold_single (FloatOps.maximumf (F := Ideal) (φ := .f32)) y (val_main_cst_1 (F := Ideal))
    reducesTo_S2x16x2048x2048_S2x16x2048_d3 hred h_S_ (ix3 b h i)).trans ?_
  have hlift : ∀ k : Fin 2048, hred.lift (ix3 b h i) k = ix4 b h i k := fun k =>
    funext fun a => Fin.ext (by match a with | ⟨0, _⟩ => rfl | ⟨1, _⟩ => rfl | ⟨2, _⟩ => rfl | ⟨3, _⟩ => rfl)
  have hfun : (y ∘ hred.lift (ix3 b h i)) = s :=
    funext fun (k : Fin 2048) => (congrArg y (hlift k)).trans (hy k)
  rw [hfun, val_main_cst_1_apply, Ideal.ofBits_def, ofBits_negInf]
  rfl

/-- The reference's reduce over the key axis, read at (b,h,i): the maximum from -∞ of the row of scores. -/
theorem v16_at (x : SX.Idx → EReal) (Wq Wk : SW.Idx → EReal) (b : Fin 2) (h : Fin 16) (i : Fin 2048) :
    val_main_v16 (F := Ideal) x Wq Wk (ix3 b h i) = rowMax (fun j : Fin 2048 => score x Wq Wk b h i j) := by
  unfold val_main_v16
  exact reduce_max_row _ _ b h i fun k => v15_at x Wq Wk b h i k

/-! ## The weights and the normaliser -/

/-- The maximum broadcast back over the keys is read at (b,h,i). -/
theorem idx_keep (b : Fin 2) (h : Fin 16) (i k : Fin 2048) : idx_main_v19 (idx_main_v20 (ix4 b h i k)) = ix3 b h i :=
  funext fun a => Fin.ext (by match a with | ⟨0, _⟩ => rfl | ⟨1, _⟩ => rfl | ⟨2, _⟩ => rfl)

/-- The exponential of a score less the row's maximum is the row's weight. -/
theorem v22_at (x : SX.Idx → EReal) (Wq Wk : SW.Idx → EReal) (b : Fin 2) (h : Fin 16) (i k : Fin 2048) :
    val_main_v22 (F := Ideal) x Wq Wk (ix4 b h i k) = rowWt (fun j : Fin 2048 => score x Wq Wk b h i j) k := by
  rw [val_main_v22_apply, val_main_v21_apply, v15_at, val_main_v20_apply, val_main_v19_apply, idx_keep, val_main_v18_apply,
    val_main_v17_apply, val_main_cst_2_apply, v16_at]
  simp only [Ideal.hostUnary_exp_def, Ideal.subf_def, Ideal.maximumf_def, Ideal.ofBits_def]
  rw [ofBits_negInf, max_eq_right bot_le]
  rfl

/-- Term k of the sum over the keys at (b,h,i) is read at (b,h,i,k). -/
theorem idx_sum (b : Fin 2) (h : Fin 16) (i k : Fin 2048) : idx_main_v23 (ix3 b h i) k = ix4 b h i k :=
  funext fun a => Fin.ext (by match a with | ⟨0, _⟩ => rfl | ⟨1, _⟩ => rfl | ⟨2, _⟩ => rfl | ⟨3, _⟩ => rfl)

/-- The sum of the exponentials from 0 is the row's normaliser. -/
theorem v23_at (x : SX.Idx → EReal) (Wq Wk : SW.Idx → EReal) (b : Fin 2) (h : Fin 16) (i : Fin 2048) :
    val_main_v23 (F := Ideal) x Wq Wk (ix3 b h i) = rowDen (fun j : Fin 2048 => score x Wq Wk b h i j) := by
  rw [val_main_v23_apply, val_main_cst_3_apply, Ideal.ofBits_def, Ideal.ofBits_zero_f32, zero_add]
  unfold rowDen
  exact Finset.sum_congr rfl fun k _ => by rw [idx_sum, v22_at]

/-- The normaliser broadcast back over the keys is read at (b,h,i). -/
theorem idx_keep' (b : Fin 2) (h : Fin 16) (i k : Fin 2048) : idx_main_v24 (idx_main_v25 (ix4 b h i k)) = ix3 b h i :=
  funext fun a => Fin.ext (by match a with | ⟨0, _⟩ => rfl | ⟨1, _⟩ => rfl | ⟨2, _⟩ => rfl)

/-- Each weight divided by the normaliser. -/
theorem v26_at (x : SX.Idx → EReal) (Wq Wk : SW.Idx → EReal) (b : Fin 2) (h : Fin 16) (i k : Fin 2048) :
    val_main_v26 (F := Ideal) x Wq Wk (ix4 b h i k)
      = Ideal.div (rowWt (fun j : Fin 2048 => score x Wq Wk b h i j) k) (rowDen (fun j : Fin 2048 => score x Wq Wk b h i j)) := by
  rw [val_main_v26_apply, v22_at, val_main_v25_apply, val_main_v24_apply, idx_keep', v23_at, Ideal.hostDivf_def]

/-! ## The head's output -/

/-- Term k of the contraction at (b,h,i,d) reads the normalised weight at (b,h,i,k). -/
theorem lidx_av (b : Fin 2) (h : Fin 16) (i : Fin 2048) (d : Fin 64) (k : Fin 2048) : lidx_main_v27 (ix4 b h i d) k = ix4 b h i k :=
  funext fun a => Fin.ext (by match a with | ⟨0, _⟩ => rfl | ⟨1, _⟩ => rfl | ⟨2, _⟩ => rfl | ⟨3, _⟩ => rfl)

/-- Term k of the contraction at (b,h,i,d) reads the value at (b,h,k,d). -/
theorem ridx_av (b : Fin 2) (h : Fin 16) (i : Fin 2048) (d : Fin 64) (k : Fin 2048) : ridx_main_v27 (ix4 b h i d) k = ix4 b h k d :=
  funext fun a => Fin.ext (by match a with | ⟨0, _⟩ => rfl | ⟨1, _⟩ => rfl | ⟨2, _⟩ => rfl | ⟨3, _⟩ => rfl)

/-- The normalised weights against the values' column d: the head's output at (i,d). -/
theorem v27_at (x : SX.Idx → EReal) (Wq Wk Wv : SW.Idx → EReal) (b : Fin 2) (h : Fin 16) (i : Fin 2048) (d : Fin 64) :
    val_main_v27 (F := Ideal) x Wq Wk Wv (ix4 b h i d) = headOut x Wq Wk Wv b h i d := by
  rw [val_main_v27_apply]
  unfold headOut attnNormalised
  exact Finset.sum_congr rfl fun k _ => by rw [lidx_av, ridx_av, v26_at, v8_at]

end Cert.RefSide

end
-- ==== Proof.RefIsG.lean ====
/-
  The reference computes the specification.

  The per-head outputs [2,16,2048,64] are transposed to [2,2048,16,64] and reshaped to [2,2048,1024]: entry (b,t,e) of
  the flat array is, in row-major order, entry (b·2048+t)·1024 + e, that is entry (b, t, e/64, e%64) of the transposed
  array and entry (b, e/64, t, e%64) of the per-head one: the heads side by side. The result is that row against the rows
  of Wo (a sum over the 1024 columns) plus the bias, which is broadcast along the batch and the positions. Together
  with the projections, the causal scores and the softmax of the earlier modules this is the specification's function
  G of the six argument arrays, index by index; no algebraic law is used.
-/
import proofs.«144787_j3307124818573_2_alg».proof.Proof.RefSoftmax

noncomputable section

namespace Cert.RefSide

open Idealize.ShloMosaic Idealize.ShloMosaic.TcCoe Idealize.SL.Sem Idealize.ShloMosaic.ValueIdx Cert.ReferenceIdeal
  Cert.ReferenceIdeal.Read Cert.Attn Cert.SoftmaxRow

/-- Position (b,t,e) of the flat head outputs is position (b, e/64, t, e%64) of the per-head ones. -/
theorem idx_merge (b : Fin 2) (t : Fin 2048) (e : Fin 1024) :
    idx_main_v28 (idx_main_v29 (ix3 b t e))
      = ix4 b (⟨e.val / 64, by omega⟩ : Fin 16) t (⟨e.val % 64, Nat.mod_lt _ (by decide)⟩ : Fin 64) := by
  funext a
  refine Fin.ext ?_
  have hb := b.isLt; have ht := t.isLt; have he := e.isLt
  match a with
  | ⟨0, _⟩ => show ((b.val * 2048 + t.val) * 1024 + e.val) / 2097152 = b.val; omega
  | ⟨1, _⟩ => show ((b.val * 2048 + t.val) * 1024 + e.val) / 64 % 16 = e.val / 64; omega
  | ⟨2, _⟩ => show ((b.val * 2048 + t.val) * 1024 + e.val) / 1024 % 2048 = t.val; omega
  | ⟨3, _⟩ => show ((b.val * 2048 + t.val) * 1024 + e.val) % 64 = e.val % 64; omega

/-- The flat head outputs are the heads side by side. -/
theorem v29_at (x : SX.Idx → EReal) (Wq Wk Wv : SW.Idx → EReal) (b : Fin 2) (t : Fin 2048) (e : Fin 1024) :
    val_main_v29 (F := Ideal) x Wq Wk Wv (ix3 b t e) = headsRow x Wq Wk Wv b t e := by
  rw [val_main_v29_apply, val_main_v28_apply, idx_merge, v27_at]
  rfl

/-- The bias broadcast along the batch and the positions is read at its column. -/
theorem idx_bias (b : Fin 2) (t : Fin 2048) (o : Fin 1024) : idx_main_v31 (idx_main_v32 (ix3 b t o)) = ix1 o :=
  funext fun a => Fin.ext (by match a with | ⟨0, _⟩ => rfl)

/-- The reference's last stage, as a function of the six argument arrays, is the specification. -/
theorem val_eq_G (x : SX.Idx → EReal) (Wq Wk Wv Wo : SW.Idx → EReal) (bo : SB.Idx → EReal) :
    val_main_v33 (F := Ideal) x Wq Wk Wv Wo bo = G x Wq Wk Wv Wo bo := by
  funext i
  obtain ⟨b, t, o, rfl⟩ : ∃ (b : Fin 2) (t : Fin 2048) (o : Fin 1024), i = ix3 b t o := ⟨i 0, i 1, i 2, eq_ix3 i⟩
  rw [val_main_v33_apply, val_main_v30_apply, val_main_v32_apply, val_main_v31_apply, idx_bias, Ideal.addf_def]
  show _ = out x Wq Wk Wv Wo bo b t o
  unfold out
  congr 1
  exact Finset.sum_congr rfl fun k _ => by
    rw [show lidx_main_v30 (ix3 b t o) k = ix3 b t k from lidx_row b t o k,
      show ridx_main_v30 (ix3 b t o) k = ix2 o k from ridx_row b t o k, v29_at]

/-- The reference run's result term is the specification of the argument buffers' contents. -/
theorem ref_eq_G (m : (ℓ : Loc nD τ sig) → Buf (Elt Ideal) ℓ) (c : Dev nD) :
    Cert.ReferenceIdeal.Value.res_main_v33 (F := Ideal) m c
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v33_eq m c).trans (val_eq_G _ _ _ _ _ _)

end Cert.RefSide

end
-- ==== Proof.FiniteArgs.lean ====
/-
  The precondition "every input is finite", read back: every entry of every argument array is a real number.

  The precondition is the conjunction, over the six argument arrays, of the test that every entry `x` of the array has
  `|x| < +∞`, where `|x| = max x (-x)` on the extended reals and the conjunction over the entries of an array is a fold
  by `and` from 1. A fold by `and` that ends in 1 met only 1s, so the test holds at every entry of every array; and an
  extended real with `max x (-x) < +∞` is neither `+∞` nor `-∞` (each of them has the absolute value `+∞`), so it is a
  real number.
-/
import proofs.«144787_j3307124818573_2_alg».proof.Defs
import proofs.«144787_j3307124818573_2_alg».proof.Proof.LibSoftmaxRow
import Idealize.ShloMosaic.Lib.ReduceAll
import Idealize.ShloMosaic.Lib.ValueIdx

noncomputable section

namespace Cert.FiniteArgs

open Idealize.ShloMosaic Idealize.SL.Sem Cert.SoftmaxRow Cert.Pre_finite_inputs

/-- The shape with no axes has one index. -/
instance : Subsingleton S_.Idx := ⟨fun a b => funext fun d => d.elim0⟩

/-- An extended real whose absolute value `max x (-x)` is below `+∞` is a real number: both infinities have the
    absolute value `+∞`. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  induction x using EReal.rec with
  | bot => simp at hlt
  | coe r => exact ⟨r, rfl⟩
  | top => simp at hlt

/-- The conjunction of the six tests "every entry has an absolute value below `+∞`" being true says that every entry of
    each of the six arrays is a real number. -/
theorem fn_real [Facts]
    (a0 : FVec Ideal S2x2048x1024 .f32) (a1 a2 a3 a4 : FVec Ideal S1024x1024 .f32) (a5 : FVec Ideal S1024 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧
      (∀ i, IsReal (a4 i)) ∧ (∀ i, IsReal (a5 i)) := by
  have h0 := congrFun h ValueIdx.ix0
  dsimp only [fn, fn_part1] at h0
  have e : ∀ x y : IVec S_ 1, andi x y ValueIdx.ix0 = IntOp.andi (x ValueIdx.ix0) (y ValueIdx.ix0) := fun _ _ => rfl
  simp only [e, IntOp.andi_eq_one] at h0
  obtain ⟨⟨⟨⟨⟨r0, r1⟩, r2⟩, r3⟩, r4⟩, r5⟩ := h0
  exact ⟨fun i => isReal_of_abs_lt_inf (a0 i) (Host.reduce_andi_all _ _ _ _ _ r0 i),
    fun i => isReal_of_abs_lt_inf (a1 i) (Host.reduce_andi_all _ _ _ _ _ r1 i),
    fun i => isReal_of_abs_lt_inf (a2 i) (Host.reduce_andi_all _ _ _ _ _ r2 i),
    fun i => isReal_of_abs_lt_inf (a3 i) (Host.reduce_andi_all _ _ _ _ _ r3 i),
    fun i => isReal_of_abs_lt_inf (a4 i) (Host.reduce_andi_all _ _ _ _ _ r4 i),
    fun i => isReal_of_abs_lt_inf (a5 i) (Host.reduce_andi_all _ _ _ _ _ r5 i)⟩

/-- Under the claim's precondition every entry of every argument array is a real number. -/
theorem args_real [hF : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧
    (∀ i, IsReal (m ((c.tc : Thread Cert.KernelIdeal.nD Cert.KernelIdeal.τ).loc Cert.KernelIdeal.main_arg1) i)) ∧
    (∀ i, IsReal (m ((c.tc : Thread Cert.KernelIdeal.nD Cert.KernelIdeal.τ).loc Cert.KernelIdeal.main_arg2) i)) ∧
    (∀ i, IsReal (m ((c.tc : Thread Cert.KernelIdeal.nD Cert.KernelIdeal.τ).loc Cert.KernelIdeal.main_arg3) i)) ∧
    (∀ i, IsReal (m ((c.tc : Thread Cert.KernelIdeal.nD Cert.KernelIdeal.τ).loc Cert.KernelIdeal.main_arg4) i)) ∧
    (∀ i, IsReal (m ((c.tc : Thread Cert.KernelIdeal.nD Cert.KernelIdeal.τ).loc Cert.KernelIdeal.main_arg5) i)) :=
  fn_real _ _ _ _ _ _ (h c)

end Cert.FiniteArgs

end
-- ==== Proof.Claims.lean ====
/-
  The five claims.

  Both idealized programs end with their result array at ONE function of the argument arrays: the specification G of
  causal multi-head attention (projections, causal scores scaled by 1/8, softmax over the keys with every weight
  divided by the normaliser, the heads side by side against Wo, plus the bias). The reference computes G index by index
  with no condition on the arguments. The kernel computes the softmax rows tile by tile with a running maximum and
  divides once at the end; that agrees with G when every entry of the arguments is a real number, which the
  precondition gives. The three frames are the runs' statements that the argument arrays end as launched. The one
  idealization is the named constant: the table gives the kernel's mask value the extended real -∞.
-/
import proofs.«144787_j3307124818573_2_alg».proof.Defs
import proofs.«144787_j3307124818573_2_alg».proof.Proof.Gen.Kernel
import proofs.«144787_j3307124818573_2_alg».proof.Proof.Gen.Kernel.Skeleton
import proofs.«144787_j3307124818573_2_alg».proof.Proof.Gen.Kernel.Launch
import proofs.«144787_j3307124818573_2_alg».proof.Proof.Gen.Kernel.Regions
import proofs.«144787_j3307124818573_2_alg».proof.Proof.Gen.Kernel.Points
import proofs.«144787_j3307124818573_2_alg».proof.Proof.Gen.KernelIdeal
import proofs.«144787_j3307124818573_2_alg».proof.Proof.Gen.KernelIdeal.Skeleton
import proofs.«144787_j3307124818573_2_alg».proof.Proof.Gen.KernelIdeal.Launch
import proofs.«144787_j3307124818573_2_alg».proof.Proof.Gen.KernelIdeal.Regions
import proofs.«144787_j3307124818573_2_alg».proof.Proof.Gen.KernelIdeal.Points
import proofs.«144787_j3307124818573_2_alg».proof.Proof.Gen.ReferenceIdeal
import proofs.«144787_j3307124818573_2_alg».proof.Proof.Gen.ReferenceIdeal.Read
import proofs.«144787_j3307124818573_2_alg».proof.Proof.Gen.Pre_finite_inputs
import proofs.«144787_j3307124818573_2_alg».proof.Proof.Top
import proofs.«144787_j3307124818573_2_alg».proof.Proof.KTop
import proofs.«144787_j3307124818573_2_alg».proof.Proof.KernelIsG
import proofs.«144787_j3307124818573_2_alg».proof.Proof.RefIsG
import proofs.«144787_j3307124818573_2_alg».proof.Proof.FiniteArgs

noncomputable section

namespace Cert.Proof.Claims

open Idealize.ShloMosaic Idealize.ShloMosaic.TcCoe Idealize.SL.Sem

/-- The common result on core c: the specification of the kernel's argument arrays there. -/
abbrev spec (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v23) :=
  Cert.Attn.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-! ## The frames -/

/-- The kernel as printed runs and leaves its arguments as launched. -/
theorem frame_k : Cert.frame_Kernel := fun m ρ _ => Cert.Kernel.Top.frame (F := Bits) m ρ

/-- The idealized kernel runs and leaves its arguments as launched. -/
theorem frame_ki : Cert.frame_KernelIdeal := fun m ρ _ => Cert.KernelIdeal.Top.frame (F := Ideal) m ρ

/-- The idealized reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization -/

/-- The table gives the kernel's mask constant the value -∞, and the printed constant is that value on the extended reals. -/
theorem preserves : Cert.preserves_Kernel_KernelIdeal :=
  IdealRules.named_const.statement Cert.KernelIdeal.κ "neg_big" .f32 0xFF333332#32 ⊥ rfl

/-! ## The two runs end at the specification -/

/-- The idealized kernel, from a memory whose arguments hold real numbers, ends with its result at the specification
    of its arguments, and its arguments as launched. -/
theorem kernel_half (m : (ℓ : Loc Cert.KernelIdeal.nD Cert.KernelIdeal.τ Cert.KernelIdeal.sig) → Buf (Elt Ideal) ℓ) (g : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v23) = spec m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c => by
      obtain ⟨hx, hq, hk, hv, -, -⟩ := Cert.FiniteArgs.args_real m hpre c
      exact ⟨(h c _ (Cert.KernelIdeal.Top.mem_uc Cert.KernelIdeal.main_v23 (by decide))).trans (Cert.KernelIdeal.KIsG.kernel_result m g c hx hq hk hv),
        (h c _ (Cert.KernelIdeal.Top.mem_uc Cert.KernelIdeal.main_arg0 (by decide))).trans (Cert.KernelIdeal.Top.B7_main_arg0 m g c),
        (h c _ (Cert.KernelIdeal.Top.mem_uc Cert.KernelIdeal.main_arg1 (by decide))).trans (Cert.KernelIdeal.Top.B7_main_arg1 m g c),
        (h c _ (Cert.KernelIdeal.Top.mem_uc Cert.KernelIdeal.main_arg2 (by decide))).trans (Cert.KernelIdeal.Top.B7_main_arg2 m g c),
        (h c _ (Cert.KernelIdeal.Top.mem_uc Cert.KernelIdeal.main_arg3 (by decide))).trans (Cert.KernelIdeal.Top.B7_main_arg3 m g c),
        (h c _ (Cert.KernelIdeal.Top.mem_uc Cert.KernelIdeal.main_arg4 (by decide))).trans (Cert.KernelIdeal.Top.B7_main_arg4 m g c),
        (h c _ (Cert.KernelIdeal.Top.mem_uc Cert.KernelIdeal.main_arg5 (by decide))).trans (Cert.KernelIdeal.Top.B7_main_arg5 m g c)⟩)
    (Cert.KernelIdeal.Top.run (F := Ideal) m g)

/-- The idealized reference, from a memory that agrees with the kernel's on the arguments, ends with its result at the
    specification of the kernel's arguments, and its own arguments as launched. -/
theorem reference_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v33) = spec m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c => ⟨by
      rw [(h c).1, Cert.RefSide.ref_eq_G, (hagree c).1, (hagree c).2.1, (hagree c).2.2.1, (hagree c).2.2.2.1,
        (hagree c).2.2.2.2.1, (hagree c).2.2.2.2.2], (h c).2⟩)
    (Cert.ReferenceIdeal.Value.run (F := Ideal) m' g')

/-! ## The value claim -/

/-- On the extended reals, from memories that agree on the arguments, the idealized kernel and the idealized
    reference both run, end with equal results (the specification of the arguments) and leave the arguments as launched. -/
theorem algebraic : Cert.algebraic_KernelIdeal_ReferenceIdeal := fun m g m' g' hpre hagree =>
  ⟨spec m, kernel_half m g hpre, reference_half m m' g' hagree⟩

end Cert.Proof.Claims

end
-- ==== Proof.lean ====
/-
  Causal multi-head attention: three kernel regions against a plain reference, equal over the extended reals.

  The kernel program projects the input to queries, keys and values with ONE matrix product against the three weight
  matrices stacked (first region), re-lays the 3072 columns out as 32 heads of 64 coordinates, runs softmax attention
  per head tile by tile (second region: for each tile of 512 query rows it walks the key tiles, keeps each row's running
  maximum, normaliser and weighted sums, skips the key tiles that lie wholly after the query tile, fills the scores of
  later keys inside the diagonal tile with -∞, and stores the weighted sums divided once by the normaliser), re-lays
  the heads side by side and multiplies by the output weights, adding the bias (third region). The reference takes
  the three projections separately, masks the whole 2048 × 2048 score matrix above the diagonal with -∞, applies softmax
  (every weight divided by the row's normaliser) and contracts with the values. Over the extended reals the two are the
  same function of the arguments when the arguments are real numbers: a product against stacked matrices is the
  three products side by side; a masked key has weight exp (-∞) = 0, so the skipped tiles contribute nothing; the
  running softmax rescaled at every tile ends at the row's maximum, normaliser and weighted sum; and dividing every
  weight by the normaliser before the weighted sum is dividing the weighted sum once, by distributivity in the reals.

  The claim's five parts: each of the three programs runs to the end with its arguments unchanged (for the kernel
  program, at the word level and at the extended reals, from one run of its three regions, each region's body run once
  per case of its conditions); the kernel's only idealization reads its finite fill constant as -∞; and the two
  idealized programs end with equal results.
-/
import proofs.«144787_j3307124818573_2_alg».proof.Defs
import proofs.«144787_j3307124818573_2_alg».proof.Proof.Gen.Kernel
import proofs.«144787_j3307124818573_2_alg».proof.Proof.Gen.Kernel.Skeleton
import proofs.«144787_j3307124818573_2_alg».proof.Proof.Gen.Kernel.Launch
import proofs.«144787_j3307124818573_2_alg».proof.Proof.Gen.Kernel.Regions
import proofs.«144787_j3307124818573_2_alg».proof.Proof.Gen.Kernel.Points
import proofs.«144787_j3307124818573_2_alg».proof.Proof.Gen.KernelIdeal
import proofs.«144787_j3307124818573_2_alg».proof.Proof.Gen.KernelIdeal.Skeleton
import proofs.«144787_j3307124818573_2_alg».proof.Proof.Gen.KernelIdeal.Launch
import proofs.«144787_j3307124818573_2_alg».proof.Proof.Gen.KernelIdeal.Regions
import proofs.«144787_j3307124818573_2_alg».proof.Proof.Gen.KernelIdeal.Points
import proofs.«144787_j3307124818573_2_alg».proof.Proof.Gen.ReferenceIdeal
import proofs.«144787_j3307124818573_2_alg».proof.Proof.Gen.ReferenceIdeal.Read
import proofs.«144787_j3307124818573_2_alg».proof.Proof.Gen.Pre_finite_inputs
import proofs.«144787_j3307124818573_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
